-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S20000x32 : Shape := ⟨2, ![20000, 32]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S800000 : Shape := ⟨1, ![800000]⟩
abbrev S400000 : Shape := ⟨1, ![400000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S20000x32 : S_.BroadcastsInDim S20000x32 (![] : Fin 0 → Fin S20000x32.rank)
  reducesTo_S20000x32_S_d0_1 : S20000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S128 .f32) (main_arg22 : FVec F S128x1 .f32) (main_arg23 : FVec F S1 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x1 .f32 := Host.absf main_arg22
  let main_cst_42 : FVec F S_ .f32 := constant S_ .f32 0x7F800000#32
  let main_v110 : FVec F S128x1 .f32 := broadcastInDim S128x1 ![] bcast_S_S128x1 main_cst_42
  let main_v111 : IVec S128x1 1 := cmpf .olt main_v109 main_v110
  let main_c_43 : IVec S_ 1 := constantI S_ 1 1#1
  let main_v112 : IVec S_ 1 := (fun x v => Host.reduce IntOp.andi x v reducesTo_S128x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg18 : FVec F S128 .f32) (main_arg19 : FVec F S128x128 .f32) (main_arg20 : FVec F S256x128 .f32) (main_arg21 : FVec F S128 .f32) (main_arg22 : FVec F S128x1 .f32) (main_arg23 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S256x128 .f32 := Host.absf main_arg20
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S64x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S32x128 .f32) (main_arg5 : FVec F S32x128 .f32) (main_arg6 : FVec F S128 .f32) (main_arg7 : FVec F S64x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x64 .f32) (main_arg1 : FVec F S20000x32 .f32) (main_arg2 : FVec F S64x128 .f32) (main_arg3 : FVec F S128 .f32) (main_arg4 : FVec F S32x128 .f32) (main_arg5 : FVec F S32x128 .f32) (main_arg6 : FVec F S128 .f32) (main_arg7 : FVec F S64x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S256x128 .f32) (main_arg21 : FVec F S128 .f32) (main_arg22 : FVec F S128x1 .f32) (main_arg23 : FVec F S1 .f32) (main_arg24 : IVec S800000 32) (main_arg25 : IVec S800000 32) (main_arg26 : IVec S800000 32) (main_arg27 : IVec S800000 32) (main_arg28 : IVec S400000 32) (main_arg29 : IVec S400000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S20000x32 .f32 := Host.absf main_arg1
  let main_cst_0 : FVec F S_ .f32 := constant S_ .f32 0x7F800000#32
  let main_v5 : FVec F S20000x32 .f32 := broadcastInDim S20000x32 ![] bcast_S_S20000x32 main_cst_0
  let main_v6 : IVec S20000x32 1 := cmpf .olt main_v4 main_v5
  let main_c_1 : IVec S_ 1 := constantI S_ 1 1#1
  let main_v7 : IVec S_ 1 := (fun x v => Host.reduce IntOp.andi x v reducesTo_S20000x32_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x64 : Shape := ⟨2, ![100000, 64]⟩
abbrev S20000x32 : Shape := ⟨2, ![20000, 32]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S800000 : Shape := ⟨1, ![800000]⟩
abbrev S400000 : Shape := ⟨1, ![400000]⟩
abbrev S_ : Shape := ⟨0, ![]⟩
abbrev S800000x1 : Shape := ⟨2, ![800000, 1]⟩
abbrev S800000x64 : Shape := ⟨2, ![800000, 64]⟩
abbrev S20000x64 : Shape := ⟨2, ![20000, 64]⟩
abbrev S20000 : Shape := ⟨1, ![20000]⟩
abbrev S20000x1 : Shape := ⟨2, ![20000, 1]⟩
abbrev S1x128 : Shape := ⟨2, ![1, 128]⟩
abbrev S20000x128 : Shape := ⟨2, ![20000, 128]⟩
abbrev S2000x64 : Shape := ⟨2, ![2000, 64]⟩
abbrev S2000x32 : Shape := ⟨2, ![2000, 32]⟩
abbrev S2000x128 : Shape := ⟨2, ![2000, 128]⟩
abbrev S800000x32 : Shape := ⟨2, ![800000, 32]⟩
abbrev S100000x32 : Shape := ⟨2, ![100000, 32]⟩
abbrev S100000 : Shape := ⟨1, ![100000]⟩
abbrev S100000x1 : Shape := ⟨2, ![100000, 1]⟩
abbrev S100000x128 : Shape := ⟨2, ![100000, 128]⟩
abbrev S800000x128 : Shape := ⟨2, ![800000, 128]⟩
abbrev S400000x1 : Shape := ⟨2, ![400000, 1]⟩
abbrev S400000x128 : Shape := ⟨2, ![400000, 128]⟩
abbrev S1x1 : Shape := ⟨2, ![1, 1]⟩
abbrev S4000x128 : Shape := ⟨2, ![4000, 128]⟩
abbrev S4000x1 : Shape := ⟨2, ![4000, 1]⟩

abbrev nBuf : Space → Nat
  | .hbm => 216
  | .vmem => 65
  | .smem => 0
  | _ => 0

abbrev hbmTy0_0 (i : Nat) : BufTy := match i % 128 with
  | 0 => ⟨S100000x64, .f32⟩
  | 1 => ⟨S20000x32, .f32⟩
  | 2 => ⟨S64x128, .f32⟩
  | 3 => ⟨S128, .f32⟩
  | 4 => ⟨S32x128, .f32⟩
  | 5 => ⟨S32x128, .f32⟩
  | 6 => ⟨S128, .f32⟩
  | 7 => ⟨S64x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S256x128, .f32⟩
  | 21 => ⟨S128, .f32⟩
  | 22 => ⟨S128x1, .f32⟩
  | 23 => ⟨S1, .f32⟩
  | 24 => ⟨S800000, .i32⟩
  | 25 => ⟨S800000, .i32⟩
  | 26 => ⟨S800000, .i32⟩
  | 27 => ⟨S800000, .i32⟩
  | 28 => ⟨S400000, .i32⟩
  | 29 => ⟨S400000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S20000x64, .f32⟩
  | 41 => ⟨S800000x1, .i32⟩
  | 42 => ⟨S20000x64, .f32⟩
  | 43 => ⟨S_, .f32⟩
  | 44 => ⟨S800000, .f32⟩
  | 45 => ⟨S_, .f32⟩
  | 46 => ⟨S20000, .f32⟩
  | 47 => ⟨S800000x1, .i32⟩
  | 48 => ⟨S20000, .f32⟩
  | 49 => ⟨S_, .f32⟩
  | 50 => ⟨S20000, .f32⟩
  | 51 => ⟨S20000, .f32⟩
  | 52 => ⟨S20000x1, .f32⟩
  | 53 => ⟨S20000x64, .f32⟩
  | 54 => ⟨S20000x64, .f32⟩
  | 55 => ⟨S1x128, .f32⟩
  | 56 => ⟨S20000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x32, .f32⟩
  | 66 => ⟨S_, .f32⟩
  | 67 => ⟨S100000x32, .f32⟩
  | 68 => ⟨S800000x1, .i32⟩
  | 69 => ⟨S100000x32, .f32⟩
  | 70 => ⟨S_, .f32⟩
  | 71 => ⟨S800000, .f32⟩
  | 72 => ⟨S_, .f32⟩
  | 73 => ⟨S100000, .f32⟩
  | 74 => ⟨S800000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x32, .f32⟩
  | 81 => ⟨S100000x32, .f32⟩
  | 82 => ⟨S1x128, .f32⟩
  | 83 => ⟨S100000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S20000x128, .f32⟩
  | 95 => ⟨S800000x1, .i32⟩
  | 96 => ⟨S20000x128, .f32⟩
  | 97 => ⟨S_, .f32⟩
  | 98 => ⟨S800000, .f32⟩
  | 99 => ⟨S_, .f32⟩
  | 100 => ⟨S20000, .f32⟩
  | 101 => ⟨S800000x1, .i32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x128, .f32⟩
  | 108 => ⟨S20000x128, .f32⟩
  | 109 => ⟨S1x128, .f32⟩
  | 110 => ⟨S20000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S100000x128, .f32⟩
  | 122 => ⟨S800000x1, .i32⟩
  | 123 => ⟨S100000x128, .f32⟩
  | 124 => ⟨S_, .f32⟩
  | 125 => ⟨S800000, .f32⟩
  | 126 => ⟨S_, .f32⟩
  | 127 => ⟨S100000, .f32⟩
  | _ => ⟨S100000x64, .f32⟩

abbrev hbmTy0_1 (i : Nat) : BufTy := match i % 128 with
  | 0 => ⟨S800000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S1x128, .f32⟩
  | 9 => ⟨S100000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S20000x128, .f32⟩
  | 21 => ⟨S800000x1, .i32⟩
  | 22 => ⟨S20000x128, .f32⟩
  | 23 => ⟨S_, .f32⟩
  | 24 => ⟨S800000, .f32⟩
  | 25 => ⟨S_, .f32⟩
  | 26 => ⟨S20000, .f32⟩
  | 27 => ⟨S800000x1, .i32⟩
  | 28 => ⟨S20000, .f32⟩
  | 29 => ⟨S_, .f32⟩
  | 30 => ⟨S20000, .f32⟩
  | 31 => ⟨S20000, .f32⟩
  | 32 => ⟨S20000x1, .f32⟩
  | 33 => ⟨S20000x128, .f32⟩
  | 34 => ⟨S20000x128, .f32⟩
  | 35 => ⟨S1x128, .f32⟩
  | 36 => ⟨S20000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S100000x128, .f32⟩
  | 48 => ⟨S800000x1, .i32⟩
  | 49 => ⟨S100000x128, .f32⟩
  | 50 => ⟨S_, .f32⟩
  | 51 => ⟨S800000, .f32⟩
  | 52 => ⟨S_, .f32⟩
  | 53 => ⟨S100000, .f32⟩
  | 54 => ⟨S800000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S1x128, .f32⟩
  | 63 => ⟨S100000x128, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x128, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S128x128, .f32⟩
  | 83 => ⟨S128x128, .f32⟩
  | 84 => ⟨S1x128, .f32⟩
  | 85 => ⟨S1x1, .f32⟩
  | 86 => ⟨S400000x1, .f32⟩
  | 87 => ⟨S400000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x32, .f32⟩
  | .local _ .vmem, ⟨3, _⟩ => ⟨S2000x32, .f32⟩
  | .local _ .vmem, ⟨4, _⟩ => ⟨S64x128, .f32⟩
  | .local _ .vmem, ⟨5, _⟩ => ⟨S1x128, .f32⟩
  | .local _ .vmem, ⟨6, _⟩ => ⟨S32x128, .f32⟩
  | .local _ .vmem, ⟨7, _⟩ => ⟨S2000x128, .f32⟩
  | .local _ .vmem, ⟨8, _⟩ => ⟨S2000x128, .f32⟩
  | .local _ .vmem, ⟨9, _⟩ => ⟨S2000x32, .f32⟩
  | .local _ .vmem, ⟨10, _⟩ => ⟨S2000x32, .f32⟩
  | .local _ .vmem, ⟨11, _⟩ => ⟨S2000x64, .f32⟩
  | .local _ .vmem, ⟨12, _⟩ => ⟨S2000x64, .f32⟩
  | .local _ .vmem, ⟨13, _⟩ => ⟨S32x128, .f32⟩
  | .local _ .vmem, ⟨14, _⟩ => ⟨S1x128, .f32⟩
  | .local _ .vmem, ⟨15, _⟩ => ⟨S64x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S128x128, .f32⟩
  | .local _ .vmem, ⟨50, _⟩ => ⟨S1x128, .f32⟩
  | .local _ .vmem, ⟨51, _⟩ => ⟨S128x128, .f32⟩
  | .local _ .vmem, ⟨52, _⟩ => ⟨S2000x128, .f32⟩
  | .local _ .vmem, ⟨53, _⟩ => ⟨S2000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S4000x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S128x1, .f32⟩
  | .local _ .vmem, ⟨62, _⟩ => ⟨S1x1, .f32⟩
  | .local _ .vmem, ⟨63, _⟩ => ⟨S4000x1, .f32⟩
  | .local _ .vmem, ⟨64, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_cst_2 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_v21 : Ref sig .tc := ⟨.hbm, 58, rfl⟩
abbrev main_v22 : Ref sig .tc := ⟨.hbm, 59, rfl⟩
abbrev main_c_5 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_7 : Ref sig .tc := ⟨.hbm, 70, rfl⟩
abbrev main_v31 : Ref sig .tc := ⟨.hbm, 71, rfl⟩
abbrev main_cst_8 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_9 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_10 : Ref sig .tc := ⟨.hbm, 84, rfl⟩
abbrev main_v42 : Ref sig .tc := ⟨.hbm, 85, rfl⟩
abbrev main_v43 : Ref sig .tc := ⟨.hbm, 86, rfl⟩
abbrev main_c_11 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_12 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_13 : Ref sig .tc := ⟨.hbm, 97, rfl⟩
abbrev main_v52 : Ref sig .tc := ⟨.hbm, 98, rfl⟩
abbrev main_cst_14 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_15 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_16 : Ref sig .tc := ⟨.hbm, 111, rfl⟩
abbrev main_v63 : Ref sig .tc := ⟨.hbm, 112, rfl⟩
abbrev main_v64 : Ref sig .tc := ⟨.hbm, 113, rfl⟩
abbrev main_c_17 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_18 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_19 : Ref sig .tc := ⟨.hbm, 124, rfl⟩
abbrev main_v73 : Ref sig .tc := ⟨.hbm, 125, rfl⟩
abbrev main_cst_20 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_21 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_22 : Ref sig .tc := ⟨.hbm, 138, rfl⟩
abbrev main_v84 : Ref sig .tc := ⟨.hbm, 139, rfl⟩
abbrev main_v85 : Ref sig .tc := ⟨.hbm, 140, rfl⟩
abbrev main_c_23 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_24 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_25 : Ref sig .tc := ⟨.hbm, 151, rfl⟩
abbrev main_v94 : Ref sig .tc := ⟨.hbm, 152, rfl⟩
abbrev main_cst_26 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_27 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_c_28 : Ref sig .tc := ⟨.hbm, 165, rfl⟩
abbrev main_v105 : Ref sig .tc := ⟨.hbm, 166, rfl⟩
abbrev main_v106 : Ref sig .tc := ⟨.hbm, 167, rfl⟩
abbrev main_c_29 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_30 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_31 : Ref sig .tc := ⟨.hbm, 178, rfl⟩
abbrev main_v115 : Ref sig .tc := ⟨.hbm, 179, rfl⟩
abbrev main_cst_32 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_33 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_c_34 : Ref sig .tc := ⟨.hbm, 192, rfl⟩
abbrev main_v126 : Ref sig .tc := ⟨.hbm, 193, rfl⟩
abbrev main_v127 : Ref sig .tc := ⟨.hbm, 194, rfl⟩
abbrev main_c_35 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_c_36 : Ref sig .tc := ⟨.hbm, 201, rfl⟩
abbrev main_v133 : Ref sig .tc := ⟨.hbm, 202, rfl⟩
abbrev main_v134 : Ref sig .tc := ⟨.hbm, 203, rfl⟩
abbrev main_c_37 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc6_stg7_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63
abbrev cc6_sem7_1 : DmaSem sig := 64

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x32_S2000x32_0_0 : ∀ a, (![0, 0] : Fin 2 → Nat) a + S2000x32.size a ≤ S2000x32.size a
  h_S2000x32 : 0 < S2000x32.numel
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S2000x32_S2000x32 : S2000x32.ShapeCasts S2000x32
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  slices_S256x128_S128x128_0_0 : S256x128.Slices ![0, 0] S128x128
  slices_S256x128_S128x128_128_0 : S256x128.Slices ![128, 0] S128x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S400000x1_S400000 : S400000x1.ShapeCasts S400000
  gather_S100000x64_S800000x1_S800000x64_1_0_n_n_0_1_164_wf : GatherDims.WF S100000x64 S800000x1 S800000x64 [1] [0] [] [0] [] 1 ![1, 64]
  scatter_S20000x64_S800000x1_S800000x64_1_0_0_1_wf : ScatterDims.WF S20000x64 S800000x1 S800000x64 [1] [0] [0] 1
  scatter_S20000_S800000x1_S800000_n_0_0_1_wf : ScatterDims.WF S20000 S800000x1 S800000 [] [0] [0] 1
  dot_S2000x64_S64x128_S2000x128_1_0_0_1_n_n_wf : DotDims.WF S2000x64 S64x128 S2000x128 [1] [0] [0] [1] [] []
  dot_S2000x32_S32x128_S2000x128_1_0_0_1_n_n_wf : DotDims.WF S2000x32 S32x128 S2000x128 [1] [0] [0] [1] [] []
  gather_S20000x32_S800000x1_S800000x32_1_0_n_n_0_1_132_wf : GatherDims.WF S20000x32 S800000x1 S800000x32 [1] [0] [] [0] [] 1 ![1, 32]
  scatter_S100000x32_S800000x1_S800000x32_1_0_0_1_wf : ScatterDims.WF S100000x32 S800000x1 S800000x32 [1] [0] [0] 1
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S20000x128_S800000x1_S800000x128_1_0_0_1_wf : ScatterDims.WF S20000x128 S800000x1 S800000x128 [1] [0] [0] 1
  dot_S2000x128_S128x128_S2000x128_1_0_0_1_n_n_wf : DotDims.WF S2000x128 S128x128 S2000x128 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  gather_S100000x128_S400000x1_S400000x128_1_0_n_n_0_1_1128_wf : GatherDims.WF S100000x128 S400000x1 S400000x128 [1] [0] [] [0] [] 1 ![1, 128]
  gather_S20000x128_S400000x1_S400000x128_1_0_n_n_0_1_1128_wf : GatherDims.WF S20000x128 S400000x1 S400000x128 [1] [0] [] [0] [] 1 ![1, 128]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S20000x64.size a
  hwx0_0 : ∀ i : grid0.Coords, EltTy.bits .f32 = 32 ∨ (Rect.block (s := S20000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S20000x32.size a
  hwx0_1 : ∀ i : grid0.Coords, EltTy.bits .f32 = 32 ∨ (Rect.block (s := S20000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S20000x128.size a
  hwx4_1 : ∀ i : grid4.Coords, EltTy.bits .f32 = 32 ∨ (Rect.block (s := S20000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S20000x128.size a
  hwx4_5 : ∀ i : grid4.Coords, EltTy.bits .f32 = 32 ∨ (Rect.block (s := S20000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S400000x128.size a
  hwx6_0 : ∀ i : grid6.Coords, EltTy.bits .f32 = 32 ∨ (Rect.block (s := S400000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S400000x128.size a
  hwx6_1 : ∀ i : grid6.Coords, EltTy.bits .f32 = 32 ∨ (Rect.block (s := S400000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x1.size a ≤ S400000x1.size a
  hwx6_7 : ∀ i : grid6.Coords, EltTy.bits .f32 = 32 ∨ (Rect.block (s := S400000x1) S4000x1.size (cc6_transform_7 i) (hinb6_7 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S20000x64_S800000x1_S800000x64_1_0_0_1 : ScatterDims S20000x64 S800000x1 S800000x64 where
  updateWindowDims := [1]
  insertedWindowDims := [0]
  scatterDimsToOperandDims := [0]
  indexVectorDim := 1
  wf := scatter_S20000x64_S800000x1_S800000x64_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def gather_S20000x32_S800000x1_S800000x32_1_0_n_n_0_1_132 : GatherDims S20000x32 S800000x1 S800000x32 where
  offsetDims := [1]
  collapsedSliceDims := [0]
  operandBatchingDims := []
  startIndicesBatchingDims := []
  startIndexMap := [0]
  indexVectorDim := 1
  sliceSizes := ![1, 32]
  wf := gather_S20000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S20000x128_S800000x1_S800000x128_1_0_0_1 : ScatterDims S20000x128 S800000x1 S800000x128 where
  updateWindowDims := [1]
  insertedWindowDims := [0]
  scatterDimsToOperandDims := [0]
  indexVectorDim := 1
  wf := scatter_S20000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v102) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v103) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v123) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v124) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v125) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v132) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v139) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v140) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v141) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v142) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg22) S128x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v143) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v144) S4000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x64 : Shape := ⟨2, ![100000, 64]⟩
abbrev S20000x32 : Shape := ⟨2, ![20000, 32]⟩
abbrev S64x128 : Shape := ⟨2, ![64, 128]⟩
abbrev S128 : Shape := ⟨1, ![128]⟩
abbrev S32x128 : Shape := ⟨2, ![32, 128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S800000 : Shape := ⟨1, ![800000]⟩
abbrev S400000 : Shape := ⟨1, ![400000]⟩
abbrev S_ : Shape := ⟨0, ![]⟩
abbrev S800000x1 : Shape := ⟨2, ![800000, 1]⟩
abbrev S800000x64 : Shape := ⟨2, ![800000, 64]⟩
abbrev S20000x64 : Shape := ⟨2, ![20000, 64]⟩
abbrev S20000 : Shape := ⟨1, ![20000]⟩
abbrev S20000x1 : Shape := ⟨2, ![20000, 1]⟩
abbrev S20000x128 : Shape := ⟨2, ![20000, 128]⟩
abbrev S1x128 : Shape := ⟨2, ![1, 128]⟩
abbrev S800000x32 : Shape := ⟨2, ![800000, 32]⟩
abbrev S100000x32 : Shape := ⟨2, ![100000, 32]⟩
abbrev S100000 : Shape := ⟨1, ![100000]⟩
abbrev S100000x1 : Shape := ⟨2, ![100000, 1]⟩
abbrev S100000x128 : Shape := ⟨2, ![100000, 128]⟩
abbrev S800000x128 : Shape := ⟨2, ![800000, 128]⟩
abbrev S400000x1 : Shape := ⟨2, ![400000, 1]⟩
abbrev S400000x128 : Shape := ⟨2, ![400000, 128]⟩
abbrev S400000x256 : Shape := ⟨2, ![400000, 256]⟩
abbrev S1x1 : Shape := ⟨2, ![1, 1]⟩

abbrev nBuf : Space → Nat
  | .hbm => 259
  | .vmem => 0
  | .smem => 0
  | _ => 0

abbrev hbmTy0_0 (i : Nat) : BufTy := match i % 128 with
  | 0 => ⟨S100000x64, .f32⟩
  | 1 => ⟨S20000x32, .f32⟩
  | 2 => ⟨S64x128, .f32⟩
  | 3 => ⟨S128, .f32⟩
  | 4 => ⟨S32x128, .f32⟩
  | 5 => ⟨S32x128, .f32⟩
  | 6 => ⟨S128, .f32⟩
  | 7 => ⟨S64x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S256x128, .f32⟩
  | 21 => ⟨S128, .f32⟩
  | 22 => ⟨S128x1, .f32⟩
  | 23 => ⟨S1, .f32⟩
  | 24 => ⟨S800000, .i32⟩
  | 25 => ⟨S800000, .i32⟩
  | 26 => ⟨S800000, .i32⟩
  | 27 => ⟨S800000, .i32⟩
  | 28 => ⟨S400000, .i32⟩
  | 29 => ⟨S400000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S20000x64, .f32⟩
  | 41 => ⟨S800000x1, .i32⟩
  | 42 => ⟨S20000x64, .f32⟩
  | 43 => ⟨S_, .f32⟩
  | 44 => ⟨S800000, .f32⟩
  | 45 => ⟨S_, .f32⟩
  | 46 => ⟨S20000, .f32⟩
  | 47 => ⟨S800000x1, .i32⟩
  | 48 => ⟨S20000, .f32⟩
  | 49 => ⟨S_, .f32⟩
  | 50 => ⟨S20000, .f32⟩
  | 51 => ⟨S20000, .f32⟩
  | 52 => ⟨S20000x1, .f32⟩
  | 53 => ⟨S20000x64, .f32⟩
  | 54 => ⟨S20000x64, .f32⟩
  | 55 => ⟨S20000x128, .f32⟩
  | 56 => ⟨S1x128, .f32⟩
  | 57 => ⟨S20000x128, .f32⟩
  | 58 => ⟨S20000x128, .f32⟩
  | 59 => ⟨S20000x128, .f32⟩
  | 60 => ⟨S20000x128, .f32⟩
  | 61 => ⟨S_, .f32⟩
  | 62 => ⟨S20000x128, .f32⟩
  | 63 => ⟨S20000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x32, .f32⟩
  | 73 => ⟨S_, .f32⟩
  | 74 => ⟨S100000x32, .f32⟩
  | 75 => ⟨S800000x1, .i32⟩
  | 76 => ⟨S100000x32, .f32⟩
  | 77 => ⟨S_, .f32⟩
  | 78 => ⟨S800000, .f32⟩
  | 79 => ⟨S_, .f32⟩
  | 80 => ⟨S100000, .f32⟩
  | 81 => ⟨S800000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x32, .f32⟩
  | 88 => ⟨S100000x32, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S20000x128, .f32⟩
  | 109 => ⟨S800000x1, .i32⟩
  | 110 => ⟨S20000x128, .f32⟩
  | 111 => ⟨S_, .f32⟩
  | 112 => ⟨S800000, .f32⟩
  | 113 => ⟨S_, .f32⟩
  | 114 => ⟨S20000, .f32⟩
  | 115 => ⟨S800000x1, .i32⟩
  | 116 => ⟨S20000, .f32⟩
  | 117 => ⟨S_, .f32⟩
  | 118 => ⟨S20000, .f32⟩
  | 119 => ⟨S20000, .f32⟩
  | 120 => ⟨S20000x1, .f32⟩
  | 121 => ⟨S20000x128, .f32⟩
  | 122 => ⟨S20000x128, .f32⟩
  | 123 => ⟨S20000x128, .f32⟩
  | 124 => ⟨S1x128, .f32⟩
  | 125 => ⟨S20000x128, .f32⟩
  | 126 => ⟨S20000x128, .f32⟩
  | 127 => ⟨S20000x128, .f32⟩
  | _ => ⟨S100000x64, .f32⟩

abbrev hbmTy0_1 (i : Nat) : BufTy := match i % 128 with
  | 0 => ⟨S20000x128, .f32⟩
  | 1 => ⟨S_, .f32⟩
  | 2 => ⟨S20000x128, .f32⟩
  | 3 => ⟨S20000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S100000x128, .f32⟩
  | 15 => ⟨S800000x1, .i32⟩
  | 16 => ⟨S100000x128, .f32⟩
  | 17 => ⟨S_, .f32⟩
  | 18 => ⟨S800000, .f32⟩
  | 19 => ⟨S_, .f32⟩
  | 20 => ⟨S100000, .f32⟩
  | 21 => ⟨S800000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S20000x128, .f32⟩
  | 49 => ⟨S800000x1, .i32⟩
  | 50 => ⟨S20000x128, .f32⟩
  | 51 => ⟨S_, .f32⟩
  | 52 => ⟨S800000, .f32⟩
  | 53 => ⟨S_, .f32⟩
  | 54 => ⟨S20000, .f32⟩
  | 55 => ⟨S800000x1, .i32⟩
  | 56 => ⟨S20000, .f32⟩
  | 57 => ⟨S_, .f32⟩
  | 58 => ⟨S20000, .f32⟩
  | 59 => ⟨S20000, .f32⟩
  | 60 => ⟨S20000x1, .f32⟩
  | 61 => ⟨S20000x128, .f32⟩
  | 62 => ⟨S20000x128, .f32⟩
  | 63 => ⟨S20000x128, .f32⟩
  | 64 => ⟨S1x128, .f32⟩
  | 65 => ⟨S20000x128, .f32⟩
  | 66 => ⟨S20000x128, .f32⟩
  | 67 => ⟨S20000x128, .f32⟩
  | 68 => ⟨S20000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .f32⟩
  | 79 => ⟨S100000x128, .f32⟩
  | 80 => ⟨S800000x1, .i32⟩
  | 81 => ⟨S100000x128, .f32⟩
  | 82 => ⟨S_, .f32⟩
  | 83 => ⟨S800000, .f32⟩
  | 84 => ⟨S_, .f32⟩
  | 85 => ⟨S100000, .f32⟩
  | 86 => ⟨S800000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S100000x128, .f32⟩
  | 99 => ⟨S100000x128, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000x128, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x128, .f32⟩
  | 118 => ⟨S400000x256, .f32⟩
  | 119 => ⟨S400000x128, .f32⟩
  | 120 => ⟨S1x128, .f32⟩
  | 121 => ⟨S400000x128, .f32⟩
  | 122 => ⟨S400000x128, .f32⟩
  | 123 => ⟨S_, .f32⟩
  | 124 => ⟨S400000x128, .f32⟩
  | 125 => ⟨S400000x128, .f32⟩
  | 126 => ⟨S400000x1, .f32⟩
  | 127 => ⟨S1x1, .f32⟩
  | _ => ⟨S100000x64, .f32⟩

abbrev hbmTy0_2 (i : Nat) : BufTy := match i % 128 with
  | 0 => ⟨S400000x1, .f32⟩
  | 1 => ⟨S400000x1, .f32⟩
  | 2 => ⟨S400000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_cst_2 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call0_cst : Ref sig .tc := ⟨.hbm, 61, rfl⟩
abbrev main_call0_v0 : Ref sig .tc := ⟨.hbm, 62, rfl⟩
abbrev main_v25 : Ref sig .tc := ⟨.hbm, 63, rfl⟩
abbrev main_c_4 : Ref sig .tc := ⟨.hbm, 64, rfl⟩
abbrev main_v26 : Ref sig .tc := ⟨.hbm, 65, rfl⟩
abbrev main_v27 : Ref sig .tc := ⟨.hbm, 66, rfl⟩
abbrev main_c_5 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_6 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_cst_8 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_9 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call1_cst : Ref sig .tc := ⟨.hbm, 95, rfl⟩
abbrev main_call1_v0 : Ref sig .tc := ⟨.hbm, 96, rfl⟩
abbrev main_v51 : Ref sig .tc := ⟨.hbm, 97, rfl⟩
abbrev main_c_10 : Ref sig .tc := ⟨.hbm, 98, rfl⟩
abbrev main_v52 : Ref sig .tc := ⟨.hbm, 99, rfl⟩
abbrev main_v53 : Ref sig .tc := ⟨.hbm, 100, rfl⟩
abbrev main_c_11 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_13 : Ref sig .tc := ⟨.hbm, 111, rfl⟩
abbrev main_v62 : Ref sig .tc := ⟨.hbm, 112, rfl⟩
abbrev main_cst_14 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_15 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_call2_cst : Ref sig .tc := ⟨.hbm, 129, rfl⟩
abbrev main_call2_v0 : Ref sig .tc := ⟨.hbm, 130, rfl⟩
abbrev main_v77 : Ref sig .tc := ⟨.hbm, 131, rfl⟩
abbrev main_c_16 : Ref sig .tc := ⟨.hbm, 132, rfl⟩
abbrev main_v78 : Ref sig .tc := ⟨.hbm, 133, rfl⟩
abbrev main_v79 : Ref sig .tc := ⟨.hbm, 134, rfl⟩
abbrev main_c_17 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_18 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_19 : Ref sig .tc := ⟨.hbm, 145, rfl⟩
abbrev main_v88 : Ref sig .tc := ⟨.hbm, 146, rfl⟩
abbrev main_cst_20 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_21 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_call3_cst : Ref sig .tc := ⟨.hbm, 163, rfl⟩
abbrev main_call3_v0 : Ref sig .tc := ⟨.hbm, 164, rfl⟩
abbrev main_v103 : Ref sig .tc := ⟨.hbm, 165, rfl⟩
abbrev main_c_22 : Ref sig .tc := ⟨.hbm, 166, rfl⟩
abbrev main_v104 : Ref sig .tc := ⟨.hbm, 167, rfl⟩
abbrev main_v105 : Ref sig .tc := ⟨.hbm, 168, rfl⟩
abbrev main_c_23 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_24 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_25 : Ref sig .tc := ⟨.hbm, 179, rfl⟩
abbrev main_v114 : Ref sig .tc := ⟨.hbm, 180, rfl⟩
abbrev main_cst_26 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_27 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_c_28 : Ref sig .tc := ⟨.hbm, 197, rfl⟩
abbrev main_v129 : Ref sig .tc := ⟨.hbm, 198, rfl⟩
abbrev main_v130 : Ref sig .tc := ⟨.hbm, 199, rfl⟩
abbrev main_c_29 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_30 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_31 : Ref sig .tc := ⟨.hbm, 210, rfl⟩
abbrev main_v139 : Ref sig .tc := ⟨.hbm, 211, rfl⟩
abbrev main_cst_32 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_33 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_c_34 : Ref sig .tc := ⟨.hbm, 228, rfl⟩
abbrev main_v154 : Ref sig .tc := ⟨.hbm, 229, rfl⟩
abbrev main_v155 : Ref sig .tc := ⟨.hbm, 230, rfl⟩
abbrev main_c_35 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_c_36 : Ref sig .tc := ⟨.hbm, 237, rfl⟩
abbrev main_v161 : Ref sig .tc := ⟨.hbm, 238, rfl⟩
abbrev main_v162 : Ref sig .tc := ⟨.hbm, 239, rfl⟩
abbrev main_c_37 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_call4_cst : Ref sig .tc := ⟨.hbm, 251, rfl⟩
abbrev main_call4_v0 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S20000x1_S20000x128_0_1 : S20000x1.BroadcastsInDim S20000x128 (![0, 1] : Fin 2 → Fin S20000x128.rank)
  bcast_S100000x1_S100000x128_0_1 : S100000x1.BroadcastsInDim S100000x128 (![0, 1] : Fin 2 → Fin S100000x128.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  shapeCasts_S400000x1_S400000 : S400000x1.ShapeCasts S400000
  gather_S100000x64_S800000x1_S800000x64_1_0_n_n_0_1_164_wf : GatherDims.WF S100000x64 S800000x1 S800000x64 [1] [0] [] [0] [] 1 ![1, 64]
  scatter_S20000x64_S800000x1_S800000x64_1_0_0_1_wf : ScatterDims.WF S20000x64 S800000x1 S800000x64 [1] [0] [0] 1
  scatter_S20000_S800000x1_S800000_n_0_0_1_wf : ScatterDims.WF S20000 S800000x1 S800000 [] [0] [0] 1
  dot_S20000x64_S64x128_S20000x128_1_0_0_1_n_n_wf : DotDims.WF S20000x64 S64x128 S20000x128 [1] [0] [0] [1] [] []
  dot_S20000x32_S32x128_S20000x128_1_0_0_1_n_n_wf : DotDims.WF S20000x32 S32x128 S20000x128 [1] [0] [0] [1] [] []
  gather_S20000x32_S800000x1_S800000x32_1_0_n_n_0_1_132_wf : GatherDims.WF S20000x32 S800000x1 S800000x32 [1] [0] [] [0] [] 1 ![1, 32]
  scatter_S100000x32_S800000x1_S800000x32_1_0_0_1_wf : ScatterDims.WF S100000x32 S800000x1 S800000x32 [1] [0] [0] 1
  scatter_S100000_S800000x1_S800000_n_0_0_1_wf : ScatterDims.WF S100000 S800000x1 S800000 [] [0] [0] 1
  dot_S100000x32_S32x128_S100000x128_1_0_0_1_n_n_wf : DotDims.WF S100000x32 S32x128 S100000x128 [1] [0] [0] [1] [] []
  dot_S100000x64_S64x128_S100000x128_1_0_0_1_n_n_wf : DotDims.WF S100000x64 S64x128 S100000x128 [1] [0] [0] [1] [] []
  gather_S100000x128_S800000x1_S800000x128_1_0_n_n_0_1_1128_wf : GatherDims.WF S100000x128 S800000x1 S800000x128 [1] [0] [] [0] [] 1 ![1, 128]
  scatter_S20000x128_S800000x1_S800000x128_1_0_0_1_wf : ScatterDims.WF S20000x128 S800000x1 S800000x128 [1] [0] [0] 1
  dot_S20000x128_S128x128_S20000x128_1_0_0_1_n_n_wf : DotDims.WF S20000x128 S128x128 S20000x128 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  gather_S100000x128_S400000x1_S400000x128_1_0_n_n_0_1_1128_wf : GatherDims.WF S100000x128 S400000x1 S400000x128 [1] [0] [] [0] [] 1 ![1, 128]
  gather_S20000x128_S400000x1_S400000x128_1_0_n_n_0_1_1128_wf : GatherDims.WF S20000x128 S400000x1 S400000x128 [1] [0] [] [0] [] 1 ![1, 128]
  dot_S400000x256_S256x128_S400000x128_1_0_0_1_n_n_wf : DotDims.WF S400000x256 S256x128 S400000x128 [1] [0] [0] [1] [] []
  dot_S400000x128_S128x1_S400000x1_1_0_0_1_n_n_wf : DotDims.WF S400000x128 S128x1 S400000x1 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S20000x64_S800000x1_S800000x64_1_0_0_1 : ScatterDims S20000x64 S800000x1 S800000x64 where
  updateWindowDims := [1]
  insertedWindowDims := [0]
  scatterDimsToOperandDims := [0]
  indexVectorDim := 1
  wf := scatter_S20000x64_S800000x1_S800000x64_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def dot_S20000x32_S32x128_S20000x128_1_0_0_1_n_n : DotDims S20000x32 S32x128 S20000x128 where
  lhsContracting := [1]
  rhsContracting := [0]
  lhsNonContracting := [0]
  rhsNonContracting := [1]
  lhsBatch := []
  rhsBatch := []
  wf := dot_S20000x32_S32x128_S20000x128_1_0_0_1_n_n_wf
def gather_S20000x32_S800000x1_S800000x32_1_0_n_n_0_1_132 : GatherDims S20000x32 S800000x1 S800000x32 where
  offsetDims := [1]
  collapsedSliceDims := [0]
  operandBatchingDims := []
  startIndicesBatchingDims := []
  startIndexMap := [0]
  indexVectorDim := 1
  sliceSizes := ![1, 32]
  wf := gather_S20000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S20000x128_S800000x1_S800000x128_1_0_0_1 : ScatterDims S20000x128 S800000x1 S800000x128 where
  updateWindowDims := [1]
  insertedWindowDims := [0]
  scatterDimsToOperandDims := [0]
  indexVectorDim := 1
  wf := scatter_S20000x128_S800000x1_S800000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.ValueRun.lean ====
/-
  The kernel program's run, with its result buffer named.

  The program is seven kernel regions among eight stretches of host operations.  The contents of a core's buffers at
  each of the fifteen boundaries form a fold from the launch memory: a stretch of host operations applies its
  operations' functions, a region leaves each of its arrays at what its grid points' write-backs make of it and every
  other buffer as it found it.  Every weakly fair execution of the program ends with every unscoped buffer at the last
  boundary's contents; here that is stated for the result buffer and the thirty argument arrays (which no operation
  and no region writes, so they end as launched).
-/
import proofs.«145621_j51891794870357_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v145) = W15 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v145 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c),
       (h c _ (mem_uc main_arg26 (by decide))).trans (W15_main_arg26 m ρ c),
       (h c _ (mem_uc main_arg27 (by decide))).trans (W15_main_arg27 m ρ c),
       (h c _ (mem_uc main_arg28 (by decide))).trans (W15_main_arg28 m ρ c),
       (h c _ (mem_uc main_arg29 (by decide))).trans (W15_main_arg29 m ρ c)⟩)

end Cert.KernelIdeal.Whole

end
-- ==== Proof.Spec.lean ====
/-
  The reference program, stage by stage, as named whole-array functions of extended reals.

  A heterogeneous GraphSAGE network over two node types (100000 "user" rows, 20000 "game" rows) and 800000 edges in
  each direction.  One layer in one direction takes the source rows `x`, the edge lists `src` / `dst`, the
  destination rows `xd`, two weight matrices and a bias vector, and returns

      (mean · Wl + b) + xd · Wr           (followed by a maximum with 0 in the first two layers)

  where row `v` of `mean` is the sum of the rows `x[src e]` over the edges `e` with `dst e = v`, divided by
  `max (number of such edges) 1`.  Three layers are stacked, and a decoder reads row `lab_row p` of the last user
  array and row `lab_col p` of the last game array, joins them into one row of 256 entries, and returns
  `max (z · W1 + b1) 0 · w2 + b2`.

  Every definition below is the composition of host operations the reference program applies at that stage, with the
  same dimension records, so that the reference's result term is these definitions composed (by unfolding them).
-/
import proofs.«145621_j51891794870357_1_alg».proof.ReferenceIdeal
import Idealize.ShloMosaic.PureOps.Ideal

noncomputable section

namespace Cert.Spec

open Idealize.ShloMosaic Cert.ReferenceIdeal

variable [Cert.ReferenceIdeal.Facts]

open Cert.ReferenceIdeal.Facts₀ Cert.ReferenceIdeal.Facts

/-- A float array of the given shape, at the ideal values. -/
abbrev FA (s : Shape) : Type := FVec Ideal s .f32
/-- A 32-bit integer array of the given shape. -/
abbrev IA (s : Shape) : Type := IVec s 32

/-! ## Edge and label indices as columns -/

/-- An index vector over the 800000 edges with its negative entries moved up by `n` (an index counted from the end),
    as a column. -/
def wrapCol800k (n : BitVec 32) (s : IA S800000) : IA S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 n))) s)

/-- The same over the 400000 labelled pairs. -/
def wrapCol400k (n : BitVec 32) (s : IA S400000) : IA S400000x1 :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 n))) s)

/-- An index vector over the edges as a column, as the accumulating scatters take it. -/
def col800k (d : IA S800000) : IA S800000x1 := broadcastInDim S800000x1 ![0] bcast_S800000_S800000x1_0 d

/-! ## The per-destination count of edges, floored at one -/

/-- Over the 20000 game rows: the number of edges arriving at each row, and at least one. -/
def count20k (d : IA S800000) : FA S20000 :=
  maximumf
    (Host.scatterAdd scatter_S20000_S800000x1_S800000_n_0_0_1
      (broadcastInDim S20000 ![] bcast_S_S20000 (constant (F := Ideal) S_ .f32 0x00000000#32)) (col800k d)
      (broadcastInDim S800000 ![] bcast_S_S800000 (constant (F := Ideal) S_ .f32 0x3F800000#32)))
    (broadcastInDim S20000 ![] bcast_S_S20000 (constant (F := Ideal) S_ .f32 0x3F800000#32))

/-- Over the 100000 user rows. -/
def count100k (d : IA S800000) : FA S100000 :=
  maximumf
    (Host.scatterAdd scatter_S100000_S800000x1_S800000_n_0_0_1
      (broadcastInDim S100000 ![] bcast_S_S100000 (constant (F := Ideal) S_ .f32 0x00000000#32)) (col800k d)
      (broadcastInDim S800000 ![] bcast_S_S800000 (constant (F := Ideal) S_ .f32 0x3F800000#32)))
    (broadcastInDim S100000 ![] bcast_S_S100000 (constant (F := Ideal) S_ .f32 0x3F800000#32))

/-! ## The mean of the neighbours' rows -/

/-- Layer 1, users to games: rows of 64 entries gathered from the 100000 users, averaged over each of the 20000 games. -/
def meanUG64 (x : FA S100000x64) (s d : IA S800000) : FA S20000x64 :=
  Host.divf
    (Host.scatterAdd scatter_S20000x64_S800000x1_S800000x64_1_0_0_1
      (broadcastInDim S20000x64 ![] bcast_S_S20000x64 (constant (F := Ideal) S_ .f32 0x00000000#32)) (col800k d)
      (Host.gather gather_S100000x64_S800000x1_S800000x64_1_0_n_n_0_1_164 x (wrapCol800k 100000#32 s)))
    (broadcastInDim S20000x64 ![0, 1] bcast_S20000x1_S20000x64_0_1
      (broadcastInDim S20000x1 ![0] bcast_S20000_S20000x1_0 (count20k d)))

/-- Layer 1, games to users: rows of 32 entries gathered from the 20000 games, averaged over each of the 100000 users. -/
def meanGU32 (x : FA S20000x32) (s d : IA S800000) : FA S100000x32 :=
  Host.divf
    (Host.scatterAdd scatter_S100000x32_S800000x1_S800000x32_1_0_0_1
      (broadcastInDim S100000x32 ![] bcast_S_S100000x32 (constant (F := Ideal) S_ .f32 0x00000000#32)) (col800k d)
      (Host.gather gather_S20000x32_S800000x1_S800000x32_1_0_n_n_0_1_132 x (wrapCol800k 20000#32 s)))
    (broadcastInDim S100000x32 ![0, 1] bcast_S100000x1_S100000x32_0_1
      (broadcastInDim S100000x1 ![0] bcast_S100000_S100000x1_0 (count100k d)))

/-- Layers 2 and 3, users to games: rows of 128 entries. -/
def meanUG128 (x : FA S100000x128) (s d : IA S800000) : FA S20000x128 :=
  Host.divf
    (Host.scatterAdd scatter_S20000x128_S800000x1_S800000x128_1_0_0_1
      (broadcastInDim S20000x128 ![] bcast_S_S20000x128 (constant (F := Ideal) S_ .f32 0x00000000#32)) (col800k d)
      (Host.gather gather_S100000x128_S800000x1_S800000x128_1_0_n_n_0_1_1128 x (wrapCol800k 100000#32 s)))
    (broadcastInDim S20000x128 ![0, 1] bcast_S20000x1_S20000x128_0_1
      (broadcastInDim S20000x1 ![0] bcast_S20000_S20000x1_0 (count20k d)))

/-- Layers 2 and 3, games to users: rows of 128 entries. -/
def meanGU128 (x : FA S20000x128) (s d : IA S800000) : FA S100000x128 :=
  Host.divf
    (Host.scatterAdd scatter_S100000x128_S800000x1_S800000x128_1_0_0_1
      (broadcastInDim S100000x128 ![] bcast_S_S100000x128 (constant (F := Ideal) S_ .f32 0x00000000#32)) (col800k d)
      (Host.gather gather_S20000x128_S800000x1_S800000x128_1_0_n_n_0_1_1128 x (wrapCol800k 20000#32 s)))
    (broadcastInDim S100000x128 ![0, 1] bcast_S100000x1_S100000x128_0_1
      (broadcastInDim S100000x1 ![0] bcast_S100000_S100000x1_0 (count100k d)))

/-! ## The dense update `(mean · Wl + b) + xd · Wr` -/

/-- A bias vector of 128 entries as a row. -/
def biasRow (b : FA S128) : FA S1x128 := broadcastInDim S1x128 ![1] bcast_S128_S1x128_1 b

/-- Games, layer 1: mean rows of 64 entries, the games' own rows of 32. -/
def denseG1 (mean : FA S20000x64) (xd : FA S20000x32) (wl : FA S64x128) (b : FA S128) (wr : FA S32x128) : FA S20000x128 :=
  addf (addf (Host.dotGeneral dot_S20000x64_S64x128_S20000x128_1_0_0_1_n_n none mean wl)
      (broadcastInDim S20000x128 ![0, 1] bcast_S1x128_S20000x128_0_1 (biasRow b)))
    (Host.dotGeneral dot_S20000x32_S32x128_S20000x128_1_0_0_1_n_n none xd wr)

/-- Users, layer 1: mean rows of 32 entries, the users' own rows of 64. -/
def denseU1 (mean : FA S100000x32) (xd : FA S100000x64) (wl : FA S32x128) (b : FA S128) (wr : FA S64x128) : FA S100000x128 :=
  addf (addf (Host.dotGeneral dot_S100000x32_S32x128_S100000x128_1_0_0_1_n_n none mean wl)
      (broadcastInDim S100000x128 ![0, 1] bcast_S1x128_S100000x128_0_1 (biasRow b)))
    (Host.dotGeneral dot_S100000x64_S64x128_S100000x128_1_0_0_1_n_n none xd wr)

/-- Games, layers 2 and 3: all rows of 128 entries. -/
def denseG (mean xd : FA S20000x128) (wl : FA S128x128) (b : FA S128) (wr : FA S128x128) : FA S20000x128 :=
  addf (addf (Host.dotGeneral dot_S20000x128_S128x128_S20000x128_1_0_0_1_n_n none mean wl)
      (broadcastInDim S20000x128 ![0, 1] bcast_S1x128_S20000x128_0_1 (biasRow b)))
    (Host.dotGeneral dot_S20000x128_S128x128_S20000x128_1_0_0_1_n_n none xd wr)

/-- Users, layers 2 and 3. -/
def denseU (mean xd : FA S100000x128) (wl : FA S128x128) (b : FA S128) (wr : FA S128x128) : FA S100000x128 :=
  addf (addf (Host.dotGeneral dot_S100000x128_S128x128_S100000x128_1_0_0_1_n_n none mean wl)
      (broadcastInDim S100000x128 ![0, 1] bcast_S1x128_S100000x128_0_1 (biasRow b)))
    (Host.dotGeneral dot_S100000x128_S128x128_S100000x128_1_0_0_1_n_n none xd wr)

/-- The maximum with zero, over the games' rows. -/
def reluG (y : FA S20000x128) : FA S20000x128 :=
  maximumf y (broadcastInDim S20000x128 ![] bcast_S_S20000x128 (constant (F := Ideal) S_ .f32 0x00000000#32))

/-- The maximum with zero, over the users' rows. -/
def reluU (y : FA S100000x128) : FA S100000x128 :=
  maximumf y (broadcastInDim S100000x128 ![] bcast_S_S100000x128 (constant (F := Ideal) S_ .f32 0x00000000#32))

/-! ## The decoder -/

/-- Row `lab_row p` of the users' array, for each of the 400000 pairs. -/
def rowsU (u : FA S100000x128) (lab : IA S400000) : FA S400000x128 :=
  Host.gather gather_S100000x128_S400000x1_S400000x128_1_0_n_n_0_1_1128 u (wrapCol400k 100000#32 lab)

/-- Row `lab_col p` of the games' array. -/
def rowsG (g : FA S20000x128) (lab : IA S400000) : FA S400000x128 :=
  Host.gather gather_S20000x128_S400000x1_S400000x128_1_0_n_n_0_1_1128 g (wrapCol400k 20000#32 lab)

/-- `max (z · W1 + b1) 0 · w2 + b2` over the pairs, `z` the user row and the game row side by side, as a column. -/
def decoderCol (ug gg : FA S400000x128) (w1 : FA S256x128) (b1 : FA S128) (w2 : FA S128x1) (b2 : FA S1) : FA S400000x1 :=
  addf
    (Host.dotGeneral dot_S400000x128_S128x1_S400000x1_1_0_0_1_n_n none
      (maximumf
        (addf
          (Host.dotGeneral dot_S400000x256_S256x128_S400000x128_1_0_0_1_n_n none
            (concatenate S400000x256 1 [⟨S400000x128, ug⟩, ⟨S400000x128, gg⟩] concatenates_S400000x128_S400000x128_S400000x256_d1) w1)
          (broadcastInDim S400000x128 ![0, 1] bcast_S1x128_S400000x128_0_1 (biasRow b1)))
        (broadcastInDim S400000x128 ![] bcast_S_S400000x128 (constant (F := Ideal) S_ .f32 0x00000000#32)))
      w2)
    (broadcastInDim S400000x1 ![0, 1] bcast_S1x1_S400000x1_0_1 (broadcastInDim S1x1 ![1] bcast_S1_S1x1_1 b2))

end Cert.Spec

end
-- ==== Proof.Network.lean ====
/-
  The whole network as one function of its thirty input arrays.

  `Inputs` bundles the arrays (node features, the six layers' weights and biases, the decoder's weights, the edge
  lists and the labelled pairs).  The three layers and the decoder are the stages of Spec composed: each layer's
  output for one node type takes the previous layer's output of the OTHER node type through the neighbour mean and
  its own previous output as the destination rows.
-/
import proofs.«145621_j51891794870357_1_alg».proof.Proof.Spec

noncomputable section

namespace Cert.Spec

open Idealize.ShloMosaic Cert.ReferenceIdeal

variable [Cert.ReferenceIdeal.Facts]

open Cert.ReferenceIdeal.Facts₀ Cert.ReferenceIdeal.Facts

/-- The thirty input arrays, in the programs' argument order. -/
structure Inputs where
  xUser : FA S100000x64
  xGame : FA S20000x32
  w1ugL : FA S64x128
  b1ug : FA S128
  w1ugR : FA S32x128
  w1guL : FA S32x128
  b1gu : FA S128
  w1guR : FA S64x128
  w2ugL : FA S128x128
  b2ug : FA S128
  w2ugR : FA S128x128
  w2guL : FA S128x128
  b2gu : FA S128
  w2guR : FA S128x128
  w3ugL : FA S128x128
  b3ug : FA S128
  w3ugR : FA S128x128
  w3guL : FA S128x128
  b3gu : FA S128
  w3guR : FA S128x128
  decW1 : FA S256x128
  decB1 : FA S128
  decW2 : FA S128x1
  decB2 : FA S1
  srcUG : IA S800000
  dstUG : IA S800000
  srcGU : IA S800000
  dstGU : IA S800000
  labRow : IA S400000
  labCol : IA S400000

variable (I : Inputs)

/-- Layer 1, the games' rows. -/
def g1 : FA S20000x128 := reluG (denseG1 (meanUG64 I.xUser I.srcUG I.dstUG) I.xGame I.w1ugL I.b1ug I.w1ugR)
/-- Layer 1, the users' rows. -/
def u1 : FA S100000x128 := reluU (denseU1 (meanGU32 I.xGame I.srcGU I.dstGU) I.xUser I.w1guL I.b1gu I.w1guR)
/-- Layer 2. -/
def g2 : FA S20000x128 := reluG (denseG (meanUG128 (u1 I) I.srcUG I.dstUG) (g1 I) I.w2ugL I.b2ug I.w2ugR)
def u2 : FA S100000x128 := reluU (denseU (meanGU128 (g1 I) I.srcGU I.dstGU) (u1 I) I.w2guL I.b2gu I.w2guR)
/-- Layer 3 (no maximum with zero). -/
def g3 : FA S20000x128 := denseG (meanUG128 (u2 I) I.srcUG I.dstUG) (g2 I) I.w3ugL I.b3ug I.w3ugR
def u3 : FA S100000x128 := denseU (meanGU128 (g2 I) I.srcGU I.dstGU) (u2 I) I.w3guL I.b3gu I.w3guR
/-- The decoder's column over the labelled pairs. -/
def scoreCol : FA S400000x1 :=
  decoderCol (rowsU (u3 I) I.labRow) (rowsG (g3 I) I.labCol) I.decW1 I.decB1 I.decW2 I.decB2
/-- The result: that column as a vector of 400000 entries. -/
def score : FA S400000 := shapeCast S400000 (scoreCol I) shapeCasts_S400000x1_S400000

end Cert.Spec

end
-- ==== Proof.KInputs.lean ====
/-
  The kernel program's thirty argument arrays, as the specification's input structure.
-/
import proofs.«145621_j51891794870357_1_alg».proof.Proof.Network
import proofs.«145621_j51891794870357_1_alg».proof.Proof.Gen.KernelIdeal
import proofs.«145621_j51891794870357_1_alg».proof.Proof.Gen.ReferenceIdeal

noncomputable section

namespace Cert.KernelIdeal.Whole

open Cert.KernelIdeal Idealize.ShloMosaic Idealize.ShloMosaic.TcCoe Idealize.SL.Sem

/-- The argument arrays a core holds at launch, in the programs' argument order. -/
def inputs (m : (ℓ : Loc nD τ sig) → Buf (Elt Ideal) ℓ) (c : Dev nD) : Cert.Spec.Inputs where
  xUser := m ((c.tc : Thread nD τ).loc main_arg0)
  xGame := m ((c.tc : Thread nD τ).loc main_arg1)
  w1ugL := m ((c.tc : Thread nD τ).loc main_arg2)
  b1ug := m ((c.tc : Thread nD τ).loc main_arg3)
  w1ugR := m ((c.tc : Thread nD τ).loc main_arg4)
  w1guL := m ((c.tc : Thread nD τ).loc main_arg5)
  b1gu := m ((c.tc : Thread nD τ).loc main_arg6)
  w1guR := m ((c.tc : Thread nD τ).loc main_arg7)
  w2ugL := m ((c.tc : Thread nD τ).loc main_arg8)
  b2ug := m ((c.tc : Thread nD τ).loc main_arg9)
  w2ugR := m ((c.tc : Thread nD τ).loc main_arg10)
  w2guL := m ((c.tc : Thread nD τ).loc main_arg11)
  b2gu := m ((c.tc : Thread nD τ).loc main_arg12)
  w2guR := m ((c.tc : Thread nD τ).loc main_arg13)
  w3ugL := m ((c.tc : Thread nD τ).loc main_arg14)
  b3ug := m ((c.tc : Thread nD τ).loc main_arg15)
  w3ugR := m ((c.tc : Thread nD τ).loc main_arg16)
  w3guL := m ((c.tc : Thread nD τ).loc main_arg17)
  b3gu := m ((c.tc : Thread nD τ).loc main_arg18)
  w3guR := m ((c.tc : Thread nD τ).loc main_arg19)
  decW1 := m ((c.tc : Thread nD τ).loc main_arg20)
  decB1 := m ((c.tc : Thread nD τ).loc main_arg21)
  decW2 := m ((c.tc : Thread nD τ).loc main_arg22)
  decB2 := m ((c.tc : Thread nD τ).loc main_arg23)
  srcUG := m ((c.tc : Thread nD τ).loc main_arg24)
  dstUG := m ((c.tc : Thread nD τ).loc main_arg25)
  srcGU := m ((c.tc : Thread nD τ).loc main_arg26)
  dstGU := m ((c.tc : Thread nD τ).loc main_arg27)
  labRow := m ((c.tc : Thread nD τ).loc main_arg28)
  labCol := m ((c.tc : Thread nD τ).loc main_arg29)

end Cert.KernelIdeal.Whole

end
-- ==== Proof.RefValue.lean ====
/-
  The reference program's run, its result named by the specification.

  The reference program's result, as the composed term of the arguments' launch contents that its run leaves in the
  result buffer, is the specification's network function of the thirty argument arrays: the specification's stages are
  the program's own operations grouped and named, so the two are the same term once the names are unfolded.
-/
import proofs.«145621_j51891794870357_1_alg».proof.Proof.Network
import proofs.«145621_j51891794870357_1_alg».proof.Proof.Gen.ReferenceIdeal.Run

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

/-- The thirty argument arrays of the program on device c, as the memory m holds them at launch. -/
def inputs (m : (ℓ : Loc nD τ sig) → Buf (Elt Ideal) ℓ) (c : Dev nD) : Cert.Spec.Inputs where
  xUser := m ((c.tc : Thread nD τ).loc main_arg0)
  xGame := m ((c.tc : Thread nD τ).loc main_arg1)
  w1ugL := m ((c.tc : Thread nD τ).loc main_arg2)
  b1ug := m ((c.tc : Thread nD τ).loc main_arg3)
  w1ugR := m ((c.tc : Thread nD τ).loc main_arg4)
  w1guL := m ((c.tc : Thread nD τ).loc main_arg5)
  b1gu := m ((c.tc : Thread nD τ).loc main_arg6)
  w1guR := m ((c.tc : Thread nD τ).loc main_arg7)
  w2ugL := m ((c.tc : Thread nD τ).loc main_arg8)
  b2ug := m ((c.tc : Thread nD τ).loc main_arg9)
  w2ugR := m ((c.tc : Thread nD τ).loc main_arg10)
  w2guL := m ((c.tc : Thread nD τ).loc main_arg11)
  b2gu := m ((c.tc : Thread nD τ).loc main_arg12)
  w2guR := m ((c.tc : Thread nD τ).loc main_arg13)
  w3ugL := m ((c.tc : Thread nD τ).loc main_arg14)
  b3ug := m ((c.tc : Thread nD τ).loc main_arg15)
  w3ugR := m ((c.tc : Thread nD τ).loc main_arg16)
  w3guL := m ((c.tc : Thread nD τ).loc main_arg17)
  b3gu := m ((c.tc : Thread nD τ).loc main_arg18)
  w3guR := m ((c.tc : Thread nD τ).loc main_arg19)
  decW1 := m ((c.tc : Thread nD τ).loc main_arg20)
  decB1 := m ((c.tc : Thread nD τ).loc main_arg21)
  decW2 := m ((c.tc : Thread nD τ).loc main_arg22)
  decB2 := m ((c.tc : Thread nD τ).loc main_arg23)
  srcUG := m ((c.tc : Thread nD τ).loc main_arg24)
  dstUG := m ((c.tc : Thread nD τ).loc main_arg25)
  srcGU := m ((c.tc : Thread nD τ).loc main_arg26)
  dstGU := m ((c.tc : Thread nD τ).loc main_arg27)
  labRow := m ((c.tc : Thread nD τ).loc main_arg28)
  labCol := m ((c.tc : Thread nD τ).loc main_arg29)

set_option maxHeartbeats 4000000 in
/-- The program's composed result term is the specification's network function of the launch contents. -/
theorem result_eq (m : (ℓ : Loc nD τ sig) → Buf (Elt Ideal) ℓ) (c : Dev nD) :
    Cert.ReferenceIdeal.Value.res_main_v178 (F := Ideal) m c = Cert.Spec.score (inputs m c) := by
  unfold Cert.ReferenceIdeal.Value.res_main_v178 Cert.Spec.score Cert.Spec.scoreCol
  rfl

/-- On every device, from any memory with zero counters: every weakly fair execution of the reference program
    terminates with the result buffer at the specification's network function of the arguments' launch contents, and
    the arguments unchanged. -/
theorem run_score (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v178) = Cert.Spec.score (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c).1.trans (result_eq m c), (h c).2⟩)
    (Cert.ReferenceIdeal.Value.run (F := Ideal) m ρ)

end Cert.ReferenceIdeal.Whole

end
-- ==== Proof.Agree.lean ====
/-
  The two programs' inputs agree.

  The kernel program and the reference program take the same thirty argument arrays in the same order; when the
  reference's memory holds, on a core, the arrays the kernel's memory holds there, the specification's input structure
  read off either memory is the same.
-/
import proofs.«145621_j51891794870357_1_alg».proof.Proof.KInputs
import proofs.«145621_j51891794870357_1_alg».proof.Proof.RefValue

noncomputable section

namespace Cert.Proof

open Idealize.ShloMosaic Idealize.ShloMosaic.TcCoe Idealize.SL.Sem

/-- Memories that agree on the thirty argument arrays of a core give the two programs the same inputs. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    Cert.ReferenceIdeal.Whole.inputs m' c = Cert.KernelIdeal.Whole.inputs m c := by
  unfold Cert.ReferenceIdeal.Whole.inputs Cert.KernelIdeal.Whole.inputs
  rw [Cert.Spec.Inputs.mk.injEq]
  exact h

end Cert.Proof

end
-- ==== Proof.CarryArgs.lean ====
/-
  The argument arrays along the kernel program's fold of buffer contents.

  No host operation and no region writes an argument array, so at every boundary of the program an argument's buffer
  holds what it held at launch.  A stretch of host operations leaves a buffer it does not write as it was; a region
  leaves a buffer that is not one of its arrays as it was, and an array it only reads through an input window as it
  was.  One lemma per argument and per boundary at which a later stage reads it.
-/
import proofs.«145621_j51891794870357_1_alg».proof.Proof.Gen.KernelIdeal.Frame
import Idealize.ShloMosaic.PureOps.Ideal

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat Cfg Window)

/-- A stretch of host operations does not write the buffer: it keeps its contents. -/
macro "host_keeps " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

theorem a0_2 : W2 m ρ c (Proc.devRef .tc main_arg0) = m ((c : Thread nD τ).loc main_arg0) :=
  (W2_of_ne m ρ c main_arg0 (by decide)).trans ((by host_keeps hostOps0 main_arg0 : W1 m ρ c (Proc.devRef .tc main_arg0) = W0 m ρ c (Proc.devRef .tc main_arg0)).trans rfl)
theorem a1_2 : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans ((by host_keeps hostOps0 main_arg1 : W1 m ρ c (Proc.devRef .tc main_arg1) = W0 m ρ c (Proc.devRef .tc main_arg1)).trans rfl)
theorem a5_2 : W2 m ρ c (Proc.devRef .tc main_arg5) = m ((c : Thread nD τ).loc main_arg5) :=
  (W2_of_ne m ρ c main_arg5 (by decide)).trans ((by host_keeps hostOps0 main_arg5 : W1 m ρ c (Proc.devRef .tc main_arg5) = W0 m ρ c (Proc.devRef .tc main_arg5)).trans rfl)
theorem a6_2 : W2 m ρ c (Proc.devRef .tc main_arg6) = m ((c : Thread nD τ).loc main_arg6) :=
  (W2_of_ne m ρ c main_arg6 (by decide)).trans ((by host_keeps hostOps0 main_arg6 : W1 m ρ c (Proc.devRef .tc main_arg6) = W0 m ρ c (Proc.devRef .tc main_arg6)).trans rfl)
theorem a7_2 : W2 m ρ c (Proc.devRef .tc main_arg7) = m ((c : Thread nD τ).loc main_arg7) :=
  (W2_of_ne m ρ c main_arg7 (by decide)).trans ((by host_keeps hostOps0 main_arg7 : W1 m ρ c (Proc.devRef .tc main_arg7) = W0 m ρ c (Proc.devRef .tc main_arg7)).trans rfl)
theorem a8_2 : W2 m ρ c (Proc.devRef .tc main_arg8) = m ((c : Thread nD τ).loc main_arg8) :=
  (W2_of_ne m ρ c main_arg8 (by decide)).trans ((by host_keeps hostOps0 main_arg8 : W1 m ρ c (Proc.devRef .tc main_arg8) = W0 m ρ c (Proc.devRef .tc main_arg8)).trans rfl)
theorem a8_4 : W4 m ρ c (Proc.devRef .tc main_arg8) = m ((c : Thread nD τ).loc main_arg8) :=
  (W4_of_ne m ρ c main_arg8 (by decide)).trans ((by host_keeps hostOps1 main_arg8 : W3 m ρ c (Proc.devRef .tc main_arg8) = W2 m ρ c (Proc.devRef .tc main_arg8)).trans (a8_2 m ρ c))
theorem a9_2 : W2 m ρ c (Proc.devRef .tc main_arg9) = m ((c : Thread nD τ).loc main_arg9) :=
  (W2_of_ne m ρ c main_arg9 (by decide)).trans ((by host_keeps hostOps0 main_arg9 : W1 m ρ c (Proc.devRef .tc main_arg9) = W0 m ρ c (Proc.devRef .tc main_arg9)).trans rfl)
theorem a9_4 : W4 m ρ c (Proc.devRef .tc main_arg9) = m ((c : Thread nD τ).loc main_arg9) :=
  (W4_of_ne m ρ c main_arg9 (by decide)).trans ((by host_keeps hostOps1 main_arg9 : W3 m ρ c (Proc.devRef .tc main_arg9) = W2 m ρ c (Proc.devRef .tc main_arg9)).trans (a9_2 m ρ c))
theorem a10_2 : W2 m ρ c (Proc.devRef .tc main_arg10) = m ((c : Thread nD τ).loc main_arg10) :=
  (W2_of_ne m ρ c main_arg10 (by decide)).trans ((by host_keeps hostOps0 main_arg10 : W1 m ρ c (Proc.devRef .tc main_arg10) = W0 m ρ c (Proc.devRef .tc main_arg10)).trans rfl)
theorem a10_4 : W4 m ρ c (Proc.devRef .tc main_arg10) = m ((c : Thread nD τ).loc main_arg10) :=
  (W4_of_ne m ρ c main_arg10 (by decide)).trans ((by host_keeps hostOps1 main_arg10 : W3 m ρ c (Proc.devRef .tc main_arg10) = W2 m ρ c (Proc.devRef .tc main_arg10)).trans (a10_2 m ρ c))
theorem a11_2 : W2 m ρ c (Proc.devRef .tc main_arg11) = m ((c : Thread nD τ).loc main_arg11) :=
  (W2_of_ne m ρ c main_arg11 (by decide)).trans ((by host_keeps hostOps0 main_arg11 : W1 m ρ c (Proc.devRef .tc main_arg11) = W0 m ρ c (Proc.devRef .tc main_arg11)).trans rfl)
theorem a11_4 : W4 m ρ c (Proc.devRef .tc main_arg11) = m ((c : Thread nD τ).loc main_arg11) :=
  (W4_of_ne m ρ c main_arg11 (by decide)).trans ((by host_keeps hostOps1 main_arg11 : W3 m ρ c (Proc.devRef .tc main_arg11) = W2 m ρ c (Proc.devRef .tc main_arg11)).trans (a11_2 m ρ c))
theorem a11_6 : W6 m ρ c (Proc.devRef .tc main_arg11) = m ((c : Thread nD τ).loc main_arg11) :=
  (W6_of_ne m ρ c main_arg11 (by decide)).trans ((by host_keeps hostOps2 main_arg11 : W5 m ρ c (Proc.devRef .tc main_arg11) = W4 m ρ c (Proc.devRef .tc main_arg11)).trans (a11_4 m ρ c))
theorem a12_2 : W2 m ρ c (Proc.devRef .tc main_arg12) = m ((c : Thread nD τ).loc main_arg12) :=
  (W2_of_ne m ρ c main_arg12 (by decide)).trans ((by host_keeps hostOps0 main_arg12 : W1 m ρ c (Proc.devRef .tc main_arg12) = W0 m ρ c (Proc.devRef .tc main_arg12)).trans rfl)
theorem a12_4 : W4 m ρ c (Proc.devRef .tc main_arg12) = m ((c : Thread nD τ).loc main_arg12) :=
  (W4_of_ne m ρ c main_arg12 (by decide)).trans ((by host_keeps hostOps1 main_arg12 : W3 m ρ c (Proc.devRef .tc main_arg12) = W2 m ρ c (Proc.devRef .tc main_arg12)).trans (a12_2 m ρ c))
theorem a12_6 : W6 m ρ c (Proc.devRef .tc main_arg12) = m ((c : Thread nD τ).loc main_arg12) :=
  (W6_of_ne m ρ c main_arg12 (by decide)).trans ((by host_keeps hostOps2 main_arg12 : W5 m ρ c (Proc.devRef .tc main_arg12) = W4 m ρ c (Proc.devRef .tc main_arg12)).trans (a12_4 m ρ c))
theorem a13_2 : W2 m ρ c (Proc.devRef .tc main_arg13) = m ((c : Thread nD τ).loc main_arg13) :=
  (W2_of_ne m ρ c main_arg13 (by decide)).trans ((by host_keeps hostOps0 main_arg13 : W1 m ρ c (Proc.devRef .tc main_arg13) = W0 m ρ c (Proc.devRef .tc main_arg13)).trans rfl)
theorem a13_4 : W4 m ρ c (Proc.devRef .tc main_arg13) = m ((c : Thread nD τ).loc main_arg13) :=
  (W4_of_ne m ρ c main_arg13 (by decide)).trans ((by host_keeps hostOps1 main_arg13 : W3 m ρ c (Proc.devRef .tc main_arg13) = W2 m ρ c (Proc.devRef .tc main_arg13)).trans (a13_2 m ρ c))
theorem a13_6 : W6 m ρ c (Proc.devRef .tc main_arg13) = m ((c : Thread nD τ).loc main_arg13) :=
  (W6_of_ne m ρ c main_arg13 (by decide)).trans ((by host_keeps hostOps2 main_arg13 : W5 m ρ c (Proc.devRef .tc main_arg13) = W4 m ρ c (Proc.devRef .tc main_arg13)).trans (a13_4 m ρ c))
theorem a14_2 : W2 m ρ c (Proc.devRef .tc main_arg14) = m ((c : Thread nD τ).loc main_arg14) :=
  (W2_of_ne m ρ c main_arg14 (by decide)).trans ((by host_keeps hostOps0 main_arg14 : W1 m ρ c (Proc.devRef .tc main_arg14) = W0 m ρ c (Proc.devRef .tc main_arg14)).trans rfl)
theorem a14_4 : W4 m ρ c (Proc.devRef .tc main_arg14) = m ((c : Thread nD τ).loc main_arg14) :=
  (W4_of_ne m ρ c main_arg14 (by decide)).trans ((by host_keeps hostOps1 main_arg14 : W3 m ρ c (Proc.devRef .tc main_arg14) = W2 m ρ c (Proc.devRef .tc main_arg14)).trans (a14_2 m ρ c))
theorem a14_6 : W6 m ρ c (Proc.devRef .tc main_arg14) = m ((c : Thread nD τ).loc main_arg14) :=
  (W6_of_ne m ρ c main_arg14 (by decide)).trans ((by host_keeps hostOps2 main_arg14 : W5 m ρ c (Proc.devRef .tc main_arg14) = W4 m ρ c (Proc.devRef .tc main_arg14)).trans (a14_4 m ρ c))
theorem a14_8 : W8 m ρ c (Proc.devRef .tc main_arg14) = m ((c : Thread nD τ).loc main_arg14) :=
  (W8_of_ne m ρ c main_arg14 (by decide)).trans ((by host_keeps hostOps3 main_arg14 : W7 m ρ c (Proc.devRef .tc main_arg14) = W6 m ρ c (Proc.devRef .tc main_arg14)).trans (a14_6 m ρ c))
theorem a15_2 : W2 m ρ c (Proc.devRef .tc main_arg15) = m ((c : Thread nD τ).loc main_arg15) :=
  (W2_of_ne m ρ c main_arg15 (by decide)).trans ((by host_keeps hostOps0 main_arg15 : W1 m ρ c (Proc.devRef .tc main_arg15) = W0 m ρ c (Proc.devRef .tc main_arg15)).trans rfl)
theorem a15_4 : W4 m ρ c (Proc.devRef .tc main_arg15) = m ((c : Thread nD τ).loc main_arg15) :=
  (W4_of_ne m ρ c main_arg15 (by decide)).trans ((by host_keeps hostOps1 main_arg15 : W3 m ρ c (Proc.devRef .tc main_arg15) = W2 m ρ c (Proc.devRef .tc main_arg15)).trans (a15_2 m ρ c))
theorem a15_6 : W6 m ρ c (Proc.devRef .tc main_arg15) = m ((c : Thread nD τ).loc main_arg15) :=
  (W6_of_ne m ρ c main_arg15 (by decide)).trans ((by host_keeps hostOps2 main_arg15 : W5 m ρ c (Proc.devRef .tc main_arg15) = W4 m ρ c (Proc.devRef .tc main_arg15)).trans (a15_4 m ρ c))
theorem a15_8 : W8 m ρ c (Proc.devRef .tc main_arg15) = m ((c : Thread nD τ).loc main_arg15) :=
  (W8_of_ne m ρ c main_arg15 (by decide)).trans ((by host_keeps hostOps3 main_arg15 : W7 m ρ c (Proc.devRef .tc main_arg15) = W6 m ρ c (Proc.devRef .tc main_arg15)).trans (a15_6 m ρ c))
theorem a16_2 : W2 m ρ c (Proc.devRef .tc main_arg16) = m ((c : Thread nD τ).loc main_arg16) :=
  (W2_of_ne m ρ c main_arg16 (by decide)).trans ((by host_keeps hostOps0 main_arg16 : W1 m ρ c (Proc.devRef .tc main_arg16) = W0 m ρ c (Proc.devRef .tc main_arg16)).trans rfl)
theorem a16_4 : W4 m ρ c (Proc.devRef .tc main_arg16) = m ((c : Thread nD τ).loc main_arg16) :=
  (W4_of_ne m ρ c main_arg16 (by decide)).trans ((by host_keeps hostOps1 main_arg16 : W3 m ρ c (Proc.devRef .tc main_arg16) = W2 m ρ c (Proc.devRef .tc main_arg16)).trans (a16_2 m ρ c))
theorem a16_6 : W6 m ρ c (Proc.devRef .tc main_arg16) = m ((c : Thread nD τ).loc main_arg16) :=
  (W6_of_ne m ρ c main_arg16 (by decide)).trans ((by host_keeps hostOps2 main_arg16 : W5 m ρ c (Proc.devRef .tc main_arg16) = W4 m ρ c (Proc.devRef .tc main_arg16)).trans (a16_4 m ρ c))
theorem a16_8 : W8 m ρ c (Proc.devRef .tc main_arg16) = m ((c : Thread nD τ).loc main_arg16) :=
  (W8_of_ne m ρ c main_arg16 (by decide)).trans ((by host_keeps hostOps3 main_arg16 : W7 m ρ c (Proc.devRef .tc main_arg16) = W6 m ρ c (Proc.devRef .tc main_arg16)).trans (a16_6 m ρ c))
theorem a17_2 : W2 m ρ c (Proc.devRef .tc main_arg17) = m ((c : Thread nD τ).loc main_arg17) :=
  (W2_of_ne m ρ c main_arg17 (by decide)).trans ((by host_keeps hostOps0 main_arg17 : W1 m ρ c (Proc.devRef .tc main_arg17) = W0 m ρ c (Proc.devRef .tc main_arg17)).trans rfl)
theorem a17_4 : W4 m ρ c (Proc.devRef .tc main_arg17) = m ((c : Thread nD τ).loc main_arg17) :=
  (W4_of_ne m ρ c main_arg17 (by decide)).trans ((by host_keeps hostOps1 main_arg17 : W3 m ρ c (Proc.devRef .tc main_arg17) = W2 m ρ c (Proc.devRef .tc main_arg17)).trans (a17_2 m ρ c))
theorem a17_6 : W6 m ρ c (Proc.devRef .tc main_arg17) = m ((c : Thread nD τ).loc main_arg17) :=
  (W6_of_ne m ρ c main_arg17 (by decide)).trans ((by host_keeps hostOps2 main_arg17 : W5 m ρ c (Proc.devRef .tc main_arg17) = W4 m ρ c (Proc.devRef .tc main_arg17)).trans (a17_4 m ρ c))
theorem a17_8 : W8 m ρ c (Proc.devRef .tc main_arg17) = m ((c : Thread nD τ).loc main_arg17) :=
  (W8_of_ne m ρ c main_arg17 (by decide)).trans ((by host_keeps hostOps3 main_arg17 : W7 m ρ c (Proc.devRef .tc main_arg17) = W6 m ρ c (Proc.devRef .tc main_arg17)).trans (a17_6 m ρ c))
theorem a17_10 : W10 m ρ c (Proc.devRef .tc main_arg17) = m ((c : Thread nD τ).loc main_arg17) :=
  (W10_of_ne m ρ c main_arg17 (by decide)).trans ((by host_keeps hostOps4 main_arg17 : W9 m ρ c (Proc.devRef .tc main_arg17) = W8 m ρ c (Proc.devRef .tc main_arg17)).trans (a17_8 m ρ c))
theorem a18_2 : W2 m ρ c (Proc.devRef .tc main_arg18) = m ((c : Thread nD τ).loc main_arg18) :=
  (W2_of_ne m ρ c main_arg18 (by decide)).trans ((by host_keeps hostOps0 main_arg18 : W1 m ρ c (Proc.devRef .tc main_arg18) = W0 m ρ c (Proc.devRef .tc main_arg18)).trans rfl)
theorem a18_4 : W4 m ρ c (Proc.devRef .tc main_arg18) = m ((c : Thread nD τ).loc main_arg18) :=
  (W4_of_ne m ρ c main_arg18 (by decide)).trans ((by host_keeps hostOps1 main_arg18 : W3 m ρ c (Proc.devRef .tc main_arg18) = W2 m ρ c (Proc.devRef .tc main_arg18)).trans (a18_2 m ρ c))
theorem a18_6 : W6 m ρ c (Proc.devRef .tc main_arg18) = m ((c : Thread nD τ).loc main_arg18) :=
  (W6_of_ne m ρ c main_arg18 (by decide)).trans ((by host_keeps hostOps2 main_arg18 : W5 m ρ c (Proc.devRef .tc main_arg18) = W4 m ρ c (Proc.devRef .tc main_arg18)).trans (a18_4 m ρ c))
theorem a18_8 : W8 m ρ c (Proc.devRef .tc main_arg18) = m ((c : Thread nD τ).loc main_arg18) :=
  (W8_of_ne m ρ c main_arg18 (by decide)).trans ((by host_keeps hostOps3 main_arg18 : W7 m ρ c (Proc.devRef .tc main_arg18) = W6 m ρ c (Proc.devRef .tc main_arg18)).trans (a18_6 m ρ c))
theorem a18_10 : W10 m ρ c (Proc.devRef .tc main_arg18) = m ((c : Thread nD τ).loc main_arg18) :=
  (W10_of_ne m ρ c main_arg18 (by decide)).trans ((by host_keeps hostOps4 main_arg18 : W9 m ρ c (Proc.devRef .tc main_arg18) = W8 m ρ c (Proc.devRef .tc main_arg18)).trans (a18_8 m ρ c))
theorem a19_2 : W2 m ρ c (Proc.devRef .tc main_arg19) = m ((c : Thread nD τ).loc main_arg19) :=
  (W2_of_ne m ρ c main_arg19 (by decide)).trans ((by host_keeps hostOps0 main_arg19 : W1 m ρ c (Proc.devRef .tc main_arg19) = W0 m ρ c (Proc.devRef .tc main_arg19)).trans rfl)
theorem a19_4 : W4 m ρ c (Proc.devRef .tc main_arg19) = m ((c : Thread nD τ).loc main_arg19) :=
  (W4_of_ne m ρ c main_arg19 (by decide)).trans ((by host_keeps hostOps1 main_arg19 : W3 m ρ c (Proc.devRef .tc main_arg19) = W2 m ρ c (Proc.devRef .tc main_arg19)).trans (a19_2 m ρ c))
theorem a19_6 : W6 m ρ c (Proc.devRef .tc main_arg19) = m ((c : Thread nD τ).loc main_arg19) :=
  (W6_of_ne m ρ c main_arg19 (by decide)).trans ((by host_keeps hostOps2 main_arg19 : W5 m ρ c (Proc.devRef .tc main_arg19) = W4 m ρ c (Proc.devRef .tc main_arg19)).trans (a19_4 m ρ c))
theorem a19_8 : W8 m ρ c (Proc.devRef .tc main_arg19) = m ((c : Thread nD τ).loc main_arg19) :=
  (W8_of_ne m ρ c main_arg19 (by decide)).trans ((by host_keeps hostOps3 main_arg19 : W7 m ρ c (Proc.devRef .tc main_arg19) = W6 m ρ c (Proc.devRef .tc main_arg19)).trans (a19_6 m ρ c))
theorem a19_10 : W10 m ρ c (Proc.devRef .tc main_arg19) = m ((c : Thread nD τ).loc main_arg19) :=
  (W10_of_ne m ρ c main_arg19 (by decide)).trans ((by host_keeps hostOps4 main_arg19 : W9 m ρ c (Proc.devRef .tc main_arg19) = W8 m ρ c (Proc.devRef .tc main_arg19)).trans (a19_8 m ρ c))
theorem a20_2 : W2 m ρ c (Proc.devRef .tc main_arg20) = m ((c : Thread nD τ).loc main_arg20) :=
  (W2_of_ne m ρ c main_arg20 (by decide)).trans ((by host_keeps hostOps0 main_arg20 : W1 m ρ c (Proc.devRef .tc main_arg20) = W0 m ρ c (Proc.devRef .tc main_arg20)).trans rfl)
theorem a20_4 : W4 m ρ c (Proc.devRef .tc main_arg20) = m ((c : Thread nD τ).loc main_arg20) :=
  (W4_of_ne m ρ c main_arg20 (by decide)).trans ((by host_keeps hostOps1 main_arg20 : W3 m ρ c (Proc.devRef .tc main_arg20) = W2 m ρ c (Proc.devRef .tc main_arg20)).trans (a20_2 m ρ c))
theorem a20_6 : W6 m ρ c (Proc.devRef .tc main_arg20) = m ((c : Thread nD τ).loc main_arg20) :=
  (W6_of_ne m ρ c main_arg20 (by decide)).trans ((by host_keeps hostOps2 main_arg20 : W5 m ρ c (Proc.devRef .tc main_arg20) = W4 m ρ c (Proc.devRef .tc main_arg20)).trans (a20_4 m ρ c))
theorem a20_8 : W8 m ρ c (Proc.devRef .tc main_arg20) = m ((c : Thread nD τ).loc main_arg20) :=
  (W8_of_ne m ρ c main_arg20 (by decide)).trans ((by host_keeps hostOps3 main_arg20 : W7 m ρ c (Proc.devRef .tc main_arg20) = W6 m ρ c (Proc.devRef .tc main_arg20)).trans (a20_6 m ρ c))
theorem a20_10 : W10 m ρ c (Proc.devRef .tc main_arg20) = m ((c : Thread nD τ).loc main_arg20) :=
  (W10_of_ne m ρ c main_arg20 (by decide)).trans ((by host_keeps hostOps4 main_arg20 : W9 m ρ c (Proc.devRef .tc main_arg20) = W8 m ρ c (Proc.devRef .tc main_arg20)).trans (a20_8 m ρ c))
theorem a20_12 : W12 m ρ c (Proc.devRef .tc main_arg20) = m ((c : Thread nD τ).loc main_arg20) :=
  (W12_of_ne m ρ c main_arg20 (by decide)).trans ((by host_keeps hostOps5 main_arg20 : W11 m ρ c (Proc.devRef .tc main_arg20) = W10 m ρ c (Proc.devRef .tc main_arg20)).trans (a20_10 m ρ c))
theorem a21_2 : W2 m ρ c (Proc.devRef .tc main_arg21) = m ((c : Thread nD τ).loc main_arg21) :=
  (W2_of_ne m ρ c main_arg21 (by decide)).trans ((by host_keeps hostOps0 main_arg21 : W1 m ρ c (Proc.devRef .tc main_arg21) = W0 m ρ c (Proc.devRef .tc main_arg21)).trans rfl)
theorem a21_4 : W4 m ρ c (Proc.devRef .tc main_arg21) = m ((c : Thread nD τ).loc main_arg21) :=
  (W4_of_ne m ρ c main_arg21 (by decide)).trans ((by host_keeps hostOps1 main_arg21 : W3 m ρ c (Proc.devRef .tc main_arg21) = W2 m ρ c (Proc.devRef .tc main_arg21)).trans (a21_2 m ρ c))
theorem a21_6 : W6 m ρ c (Proc.devRef .tc main_arg21) = m ((c : Thread nD τ).loc main_arg21) :=
  (W6_of_ne m ρ c main_arg21 (by decide)).trans ((by host_keeps hostOps2 main_arg21 : W5 m ρ c (Proc.devRef .tc main_arg21) = W4 m ρ c (Proc.devRef .tc main_arg21)).trans (a21_4 m ρ c))
theorem a21_8 : W8 m ρ c (Proc.devRef .tc main_arg21) = m ((c : Thread nD τ).loc main_arg21) :=
  (W8_of_ne m ρ c main_arg21 (by decide)).trans ((by host_keeps hostOps3 main_arg21 : W7 m ρ c (Proc.devRef .tc main_arg21) = W6 m ρ c (Proc.devRef .tc main_arg21)).trans (a21_6 m ρ c))
theorem a21_10 : W10 m ρ c (Proc.devRef .tc main_arg21) = m ((c : Thread nD τ).loc main_arg21) :=
  (W10_of_ne m ρ c main_arg21 (by decide)).trans ((by host_keeps hostOps4 main_arg21 : W9 m ρ c (Proc.devRef .tc main_arg21) = W8 m ρ c (Proc.devRef .tc main_arg21)).trans (a21_8 m ρ c))
theorem a21_12 : W12 m ρ c (Proc.devRef .tc main_arg21) = m ((c : Thread nD τ).loc main_arg21) :=
  (W12_of_ne m ρ c main_arg21 (by decide)).trans ((by host_keeps hostOps5 main_arg21 : W11 m ρ c (Proc.devRef .tc main_arg21) = W10 m ρ c (Proc.devRef .tc main_arg21)).trans (a21_10 m ρ c))
theorem a22_2 : W2 m ρ c (Proc.devRef .tc main_arg22) = m ((c : Thread nD τ).loc main_arg22) :=
  (W2_of_ne m ρ c main_arg22 (by decide)).trans ((by host_keeps hostOps0 main_arg22 : W1 m ρ c (Proc.devRef .tc main_arg22) = W0 m ρ c (Proc.devRef .tc main_arg22)).trans rfl)
theorem a22_4 : W4 m ρ c (Proc.devRef .tc main_arg22) = m ((c : Thread nD τ).loc main_arg22) :=
  (W4_of_ne m ρ c main_arg22 (by decide)).trans ((by host_keeps hostOps1 main_arg22 : W3 m ρ c (Proc.devRef .tc main_arg22) = W2 m ρ c (Proc.devRef .tc main_arg22)).trans (a22_2 m ρ c))
theorem a22_6 : W6 m ρ c (Proc.devRef .tc main_arg22) = m ((c : Thread nD τ).loc main_arg22) :=
  (W6_of_ne m ρ c main_arg22 (by decide)).trans ((by host_keeps hostOps2 main_arg22 : W5 m ρ c (Proc.devRef .tc main_arg22) = W4 m ρ c (Proc.devRef .tc main_arg22)).trans (a22_4 m ρ c))
theorem a22_8 : W8 m ρ c (Proc.devRef .tc main_arg22) = m ((c : Thread nD τ).loc main_arg22) :=
  (W8_of_ne m ρ c main_arg22 (by decide)).trans ((by host_keeps hostOps3 main_arg22 : W7 m ρ c (Proc.devRef .tc main_arg22) = W6 m ρ c (Proc.devRef .tc main_arg22)).trans (a22_6 m ρ c))
theorem a22_10 : W10 m ρ c (Proc.devRef .tc main_arg22) = m ((c : Thread nD τ).loc main_arg22) :=
  (W10_of_ne m ρ c main_arg22 (by decide)).trans ((by host_keeps hostOps4 main_arg22 : W9 m ρ c (Proc.devRef .tc main_arg22) = W8 m ρ c (Proc.devRef .tc main_arg22)).trans (a22_8 m ρ c))
theorem a22_12 : W12 m ρ c (Proc.devRef .tc main_arg22) = m ((c : Thread nD τ).loc main_arg22) :=
  (W12_of_ne m ρ c main_arg22 (by decide)).trans ((by host_keeps hostOps5 main_arg22 : W11 m ρ c (Proc.devRef .tc main_arg22) = W10 m ρ c (Proc.devRef .tc main_arg22)).trans (a22_10 m ρ c))
theorem a23_2 : W2 m ρ c (Proc.devRef .tc main_arg23) = m ((c : Thread nD τ).loc main_arg23) :=
  (W2_of_ne m ρ c main_arg23 (by decide)).trans ((by host_keeps hostOps0 main_arg23 : W1 m ρ c (Proc.devRef .tc main_arg23) = W0 m ρ c (Proc.devRef .tc main_arg23)).trans rfl)
theorem a23_4 : W4 m ρ c (Proc.devRef .tc main_arg23) = m ((c : Thread nD τ).loc main_arg23) :=
  (W4_of_ne m ρ c main_arg23 (by decide)).trans ((by host_keeps hostOps1 main_arg23 : W3 m ρ c (Proc.devRef .tc main_arg23) = W2 m ρ c (Proc.devRef .tc main_arg23)).trans (a23_2 m ρ c))
theorem a23_6 : W6 m ρ c (Proc.devRef .tc main_arg23) = m ((c : Thread nD τ).loc main_arg23) :=
  (W6_of_ne m ρ c main_arg23 (by decide)).trans ((by host_keeps hostOps2 main_arg23 : W5 m ρ c (Proc.devRef .tc main_arg23) = W4 m ρ c (Proc.devRef .tc main_arg23)).trans (a23_4 m ρ c))
theorem a23_8 : W8 m ρ c (Proc.devRef .tc main_arg23) = m ((c : Thread nD τ).loc main_arg23) :=
  (W8_of_ne m ρ c main_arg23 (by decide)).trans ((by host_keeps hostOps3 main_arg23 : W7 m ρ c (Proc.devRef .tc main_arg23) = W6 m ρ c (Proc.devRef .tc main_arg23)).trans (a23_6 m ρ c))
theorem a23_10 : W10 m ρ c (Proc.devRef .tc main_arg23) = m ((c : Thread nD τ).loc main_arg23) :=
  (W10_of_ne m ρ c main_arg23 (by decide)).trans ((by host_keeps hostOps4 main_arg23 : W9 m ρ c (Proc.devRef .tc main_arg23) = W8 m ρ c (Proc.devRef .tc main_arg23)).trans (a23_8 m ρ c))
theorem a23_12 : W12 m ρ c (Proc.devRef .tc main_arg23) = m ((c : Thread nD τ).loc main_arg23) :=
  (W12_of_ne m ρ c main_arg23 (by decide)).trans ((by host_keeps hostOps5 main_arg23 : W11 m ρ c (Proc.devRef .tc main_arg23) = W10 m ρ c (Proc.devRef .tc main_arg23)).trans (a23_10 m ρ c))
theorem a24_2 : W2 m ρ c (Proc.devRef .tc main_arg24) = m ((c : Thread nD τ).loc main_arg24) :=
  (W2_of_ne m ρ c main_arg24 (by decide)).trans ((by host_keeps hostOps0 main_arg24 : W1 m ρ c (Proc.devRef .tc main_arg24) = W0 m ρ c (Proc.devRef .tc main_arg24)).trans rfl)
theorem a24_4 : W4 m ρ c (Proc.devRef .tc main_arg24) = m ((c : Thread nD τ).loc main_arg24) :=
  (W4_of_ne m ρ c main_arg24 (by decide)).trans ((by host_keeps hostOps1 main_arg24 : W3 m ρ c (Proc.devRef .tc main_arg24) = W2 m ρ c (Proc.devRef .tc main_arg24)).trans (a24_2 m ρ c))
theorem a24_6 : W6 m ρ c (Proc.devRef .tc main_arg24) = m ((c : Thread nD τ).loc main_arg24) :=
  (W6_of_ne m ρ c main_arg24 (by decide)).trans ((by host_keeps hostOps2 main_arg24 : W5 m ρ c (Proc.devRef .tc main_arg24) = W4 m ρ c (Proc.devRef .tc main_arg24)).trans (a24_4 m ρ c))
theorem a24_8 : W8 m ρ c (Proc.devRef .tc main_arg24) = m ((c : Thread nD τ).loc main_arg24) :=
  (W8_of_ne m ρ c main_arg24 (by decide)).trans ((by host_keeps hostOps3 main_arg24 : W7 m ρ c (Proc.devRef .tc main_arg24) = W6 m ρ c (Proc.devRef .tc main_arg24)).trans (a24_6 m ρ c))
theorem a25_2 : W2 m ρ c (Proc.devRef .tc main_arg25) = m ((c : Thread nD τ).loc main_arg25) :=
  (W2_of_ne m ρ c main_arg25 (by decide)).trans ((by host_keeps hostOps0 main_arg25 : W1 m ρ c (Proc.devRef .tc main_arg25) = W0 m ρ c (Proc.devRef .tc main_arg25)).trans rfl)
theorem a25_4 : W4 m ρ c (Proc.devRef .tc main_arg25) = m ((c : Thread nD τ).loc main_arg25) :=
  (W4_of_ne m ρ c main_arg25 (by decide)).trans ((by host_keeps hostOps1 main_arg25 : W3 m ρ c (Proc.devRef .tc main_arg25) = W2 m ρ c (Proc.devRef .tc main_arg25)).trans (a25_2 m ρ c))
theorem a25_6 : W6 m ρ c (Proc.devRef .tc main_arg25) = m ((c : Thread nD τ).loc main_arg25) :=
  (W6_of_ne m ρ c main_arg25 (by decide)).trans ((by host_keeps hostOps2 main_arg25 : W5 m ρ c (Proc.devRef .tc main_arg25) = W4 m ρ c (Proc.devRef .tc main_arg25)).trans (a25_4 m ρ c))
theorem a25_8 : W8 m ρ c (Proc.devRef .tc main_arg25) = m ((c : Thread nD τ).loc main_arg25) :=
  (W8_of_ne m ρ c main_arg25 (by decide)).trans ((by host_keeps hostOps3 main_arg25 : W7 m ρ c (Proc.devRef .tc main_arg25) = W6 m ρ c (Proc.devRef .tc main_arg25)).trans (a25_6 m ρ c))
theorem a26_2 : W2 m ρ c (Proc.devRef .tc main_arg26) = m ((c : Thread nD τ).loc main_arg26) :=
  (W2_of_ne m ρ c main_arg26 (by decide)).trans ((by host_keeps hostOps0 main_arg26 : W1 m ρ c (Proc.devRef .tc main_arg26) = W0 m ρ c (Proc.devRef .tc main_arg26)).trans rfl)
theorem a26_4 : W4 m ρ c (Proc.devRef .tc main_arg26) = m ((c : Thread nD τ).loc main_arg26) :=
  (W4_of_ne m ρ c main_arg26 (by decide)).trans ((by host_keeps hostOps1 main_arg26 : W3 m ρ c (Proc.devRef .tc main_arg26) = W2 m ρ c (Proc.devRef .tc main_arg26)).trans (a26_2 m ρ c))
theorem a26_6 : W6 m ρ c (Proc.devRef .tc main_arg26) = m ((c : Thread nD τ).loc main_arg26) :=
  (W6_of_ne m ρ c main_arg26 (by decide)).trans ((by host_keeps hostOps2 main_arg26 : W5 m ρ c (Proc.devRef .tc main_arg26) = W4 m ρ c (Proc.devRef .tc main_arg26)).trans (a26_4 m ρ c))
theorem a26_8 : W8 m ρ c (Proc.devRef .tc main_arg26) = m ((c : Thread nD τ).loc main_arg26) :=
  (W8_of_ne m ρ c main_arg26 (by decide)).trans ((by host_keeps hostOps3 main_arg26 : W7 m ρ c (Proc.devRef .tc main_arg26) = W6 m ρ c (Proc.devRef .tc main_arg26)).trans (a26_6 m ρ c))
theorem a26_10 : W10 m ρ c (Proc.devRef .tc main_arg26) = m ((c : Thread nD τ).loc main_arg26) :=
  (W10_of_ne m ρ c main_arg26 (by decide)).trans ((by host_keeps hostOps4 main_arg26 : W9 m ρ c (Proc.devRef .tc main_arg26) = W8 m ρ c (Proc.devRef .tc main_arg26)).trans (a26_8 m ρ c))
theorem a27_2 : W2 m ρ c (Proc.devRef .tc main_arg27) = m ((c : Thread nD τ).loc main_arg27) :=
  (W2_of_ne m ρ c main_arg27 (by decide)).trans ((by host_keeps hostOps0 main_arg27 : W1 m ρ c (Proc.devRef .tc main_arg27) = W0 m ρ c (Proc.devRef .tc main_arg27)).trans rfl)
theorem a27_4 : W4 m ρ c (Proc.devRef .tc main_arg27) = m ((c : Thread nD τ).loc main_arg27) :=
  (W4_of_ne m ρ c main_arg27 (by decide)).trans ((by host_keeps hostOps1 main_arg27 : W3 m ρ c (Proc.devRef .tc main_arg27) = W2 m ρ c (Proc.devRef .tc main_arg27)).trans (a27_2 m ρ c))
theorem a27_6 : W6 m ρ c (Proc.devRef .tc main_arg27) = m ((c : Thread nD τ).loc main_arg27) :=
  (W6_of_ne m ρ c main_arg27 (by decide)).trans ((by host_keeps hostOps2 main_arg27 : W5 m ρ c (Proc.devRef .tc main_arg27) = W4 m ρ c (Proc.devRef .tc main_arg27)).trans (a27_4 m ρ c))
theorem a27_8 : W8 m ρ c (Proc.devRef .tc main_arg27) = m ((c : Thread nD τ).loc main_arg27) :=
  (W8_of_ne m ρ c main_arg27 (by decide)).trans ((by host_keeps hostOps3 main_arg27 : W7 m ρ c (Proc.devRef .tc main_arg27) = W6 m ρ c (Proc.devRef .tc main_arg27)).trans (a27_6 m ρ c))
theorem a27_10 : W10 m ρ c (Proc.devRef .tc main_arg27) = m ((c : Thread nD τ).loc main_arg27) :=
  (W10_of_ne m ρ c main_arg27 (by decide)).trans ((by host_keeps hostOps4 main_arg27 : W9 m ρ c (Proc.devRef .tc main_arg27) = W8 m ρ c (Proc.devRef .tc main_arg27)).trans (a27_8 m ρ c))
theorem a28_2 : W2 m ρ c (Proc.devRef .tc main_arg28) = m ((c : Thread nD τ).loc main_arg28) :=
  (W2_of_ne m ρ c main_arg28 (by decide)).trans ((by host_keeps hostOps0 main_arg28 : W1 m ρ c (Proc.devRef .tc main_arg28) = W0 m ρ c (Proc.devRef .tc main_arg28)).trans rfl)
theorem a28_4 : W4 m ρ c (Proc.devRef .tc main_arg28) = m ((c : Thread nD τ).loc main_arg28) :=
  (W4_of_ne m ρ c main_arg28 (by decide)).trans ((by host_keeps hostOps1 main_arg28 : W3 m ρ c (Proc.devRef .tc main_arg28) = W2 m ρ c (Proc.devRef .tc main_arg28)).trans (a28_2 m ρ c))
theorem a28_6 : W6 m ρ c (Proc.devRef .tc main_arg28) = m ((c : Thread nD τ).loc main_arg28) :=
  (W6_of_ne m ρ c main_arg28 (by decide)).trans ((by host_keeps hostOps2 main_arg28 : W5 m ρ c (Proc.devRef .tc main_arg28) = W4 m ρ c (Proc.devRef .tc main_arg28)).trans (a28_4 m ρ c))
theorem a28_8 : W8 m ρ c (Proc.devRef .tc main_arg28) = m ((c : Thread nD τ).loc main_arg28) :=
  (W8_of_ne m ρ c main_arg28 (by decide)).trans ((by host_keeps hostOps3 main_arg28 : W7 m ρ c (Proc.devRef .tc main_arg28) = W6 m ρ c (Proc.devRef .tc main_arg28)).trans (a28_6 m ρ c))
theorem a28_10 : W10 m ρ c (Proc.devRef .tc main_arg28) = m ((c : Thread nD τ).loc main_arg28) :=
  (W10_of_ne m ρ c main_arg28 (by decide)).trans ((by host_keeps hostOps4 main_arg28 : W9 m ρ c (Proc.devRef .tc main_arg28) = W8 m ρ c (Proc.devRef .tc main_arg28)).trans (a28_8 m ρ c))
theorem a28_12 : W12 m ρ c (Proc.devRef .tc main_arg28) = m ((c : Thread nD τ).loc main_arg28) :=
  (W12_of_ne m ρ c main_arg28 (by decide)).trans ((by host_keeps hostOps5 main_arg28 : W11 m ρ c (Proc.devRef .tc main_arg28) = W10 m ρ c (Proc.devRef .tc main_arg28)).trans (a28_10 m ρ c))
theorem a29_2 : W2 m ρ c (Proc.devRef .tc main_arg29) = m ((c : Thread nD τ).loc main_arg29) :=
  (W2_of_ne m ρ c main_arg29 (by decide)).trans ((by host_keeps hostOps0 main_arg29 : W1 m ρ c (Proc.devRef .tc main_arg29) = W0 m ρ c (Proc.devRef .tc main_arg29)).trans rfl)
theorem a29_4 : W4 m ρ c (Proc.devRef .tc main_arg29) = m ((c : Thread nD τ).loc main_arg29) :=
  (W4_of_ne m ρ c main_arg29 (by decide)).trans ((by host_keeps hostOps1 main_arg29 : W3 m ρ c (Proc.devRef .tc main_arg29) = W2 m ρ c (Proc.devRef .tc main_arg29)).trans (a29_2 m ρ c))
theorem a29_6 : W6 m ρ c (Proc.devRef .tc main_arg29) = m ((c : Thread nD τ).loc main_arg29) :=
  (W6_of_ne m ρ c main_arg29 (by decide)).trans ((by host_keeps hostOps2 main_arg29 : W5 m ρ c (Proc.devRef .tc main_arg29) = W4 m ρ c (Proc.devRef .tc main_arg29)).trans (a29_4 m ρ c))
theorem a29_8 : W8 m ρ c (Proc.devRef .tc main_arg29) = m ((c : Thread nD τ).loc main_arg29) :=
  (W8_of_ne m ρ c main_arg29 (by decide)).trans ((by host_keeps hostOps3 main_arg29 : W7 m ρ c (Proc.devRef .tc main_arg29) = W6 m ρ c (Proc.devRef .tc main_arg29)).trans (a29_6 m ρ c))
theorem a29_10 : W10 m ρ c (Proc.devRef .tc main_arg29) = m ((c : Thread nD τ).loc main_arg29) :=
  (W10_of_ne m ρ c main_arg29 (by decide)).trans ((by host_keeps hostOps4 main_arg29 : W9 m ρ c (Proc.devRef .tc main_arg29) = W8 m ρ c (Proc.devRef .tc main_arg29)).trans (a29_8 m ρ c))
theorem a29_12 : W12 m ρ c (Proc.devRef .tc main_arg29) = m ((c : Thread nD τ).loc main_arg29) :=
  (W12_of_ne m ρ c main_arg29 (by decide)).trans ((by host_keeps hostOps5 main_arg29 : W11 m ρ c (Proc.devRef .tc main_arg29) = W10 m ρ c (Proc.devRef .tc main_arg29)).trans (a29_10 m ρ c))

end Cert.KernelIdeal.Carry

end
-- ==== Proof.Stretches.lean ====
/-
  The stretches of host operations between the kernel regions, read back.

  Before each layer's region the host gathers the source rows along the edges, sums them per destination row, divides
  by the floored edge count, and makes the bias vector a row; before the decoder's region it gathers the labelled rows,
  cuts the decoder's first weight matrix into its upper and lower halves and makes the two biases rows; after it, it
  makes the score column a vector.  For ANY contents `W` of the buffers before a stretch, the buffers the stretch writes
  hold afterwards the corresponding stage of the specification applied to `W`'s contents of the buffers it reads.
-/
import proofs.«145621_j51891794870357_1_alg».proof.Proof.Spec
import proofs.«145621_j51891794870357_1_alg».proof.Proof.Gen.KernelIdeal.Launch
import proofs.«145621_j51891794870357_1_alg».proof.Proof.Gen.ReferenceIdeal
import Idealize.ShloMosaic.Lib.StableHlo.Run
import Idealize.ShloMosaic.Lib.ValueLayout
import Idealize.ShloMosaic.Lib.Pipeline.Value

set_option maxRecDepth 16384

noncomputable section

namespace Cert.KernelIdeal.Stretch

open Cert.KernelIdeal Cert.KernelIdeal.Gen
open Idealize.ShloMosaic Idealize.ShloMosaic.TcCoe Idealize.ShloMosaic.StableHlo Idealize.ShloMosaic.ValueIdx Idealize.SL.Sem

variable (W : Valuation τ sig (Elt Ideal))

set_option maxHeartbeats 1600000 in
/-- Before region 0: the mean over the games of the users' input rows. -/
theorem mean0 : StableHlo.after (hostOps0 : List (HloOp τ sig (Elt Ideal))) W (Proc.devRef .tc main_v18)
    = Spec.meanUG64 (W (Proc.devRef .tc main_arg0)) (W (Proc.devRef .tc main_arg24)) (W (Proc.devRef .tc main_arg25)) := by
  dsimp only [hostOps0]
  after_results_simp
  rfl

set_option maxHeartbeats 1600000 in
/-- Before region 0: the bias row holds the bias vector. -/
theorem bias0 (q : Fin 128) : StableHlo.after (hostOps0 : List (HloOp τ sig (Elt Ideal))) W (Proc.devRef .tc main_v19) (ix2 (n0 := 1) (n1 := 128) (0 : Fin 1) q)
    = W (Proc.devRef .tc main_arg3) (ix1 q) := by
  dsimp only [hostOps0]
  after_results_simp
  exact shapeCast_a_1a_apply (W (Proc.devRef .tc main_arg3)) shapeCasts_S128_S1x128 0 q

set_option maxHeartbeats 1600000 in
/-- Before region 1: the mean over the users of the games' input rows. -/
theorem mean1 : StableHlo.after (hostOps1 : List (HloOp τ sig (Elt Ideal))) W (Proc.devRef .tc main_v39)
    = Spec.meanGU32 (W (Proc.devRef .tc main_arg1)) (W (Proc.devRef .tc main_arg26)) (W (Proc.devRef .tc main_arg27)) := by
  dsimp only [hostOps1]
  after_results_simp
  rfl

set_option maxHeartbeats 1600000 in
/-- Before region 1: the bias row holds the bias vector. -/
theorem bias1 (q : Fin 128) : StableHlo.after (hostOps1 : List (HloOp τ sig (Elt Ideal))) W (Proc.devRef .tc main_v40) (ix2 (n0 := 1) (n1 := 128) (0 : Fin 1) q)
    = W (Proc.devRef .tc main_arg6) (ix1 q) := by
  dsimp only [hostOps1]
  after_results_simp
  exact shapeCast_a_1a_apply (W (Proc.devRef .tc main_arg6)) shapeCasts_S128_S1x128 0 q

set_option maxHeartbeats 1600000 in
/-- Before region 2: the mean over the games of the users' layer-1 rows. -/
theorem mean2 : StableHlo.after (hostOps2 : List (HloOp τ sig (Elt Ideal))) W (Proc.devRef .tc main_v60)
    = Spec.meanUG128 (W (Proc.devRef .tc main_v41)) (W (Proc.devRef .tc main_arg24)) (W (Proc.devRef .tc main_arg25)) := by
  dsimp only [hostOps2]
  after_results_simp
  rfl

set_option maxHeartbeats 1600000 in
/-- Before region 2: the bias row holds the bias vector. -/
theorem bias2 (q : Fin 128) : StableHlo.after (hostOps2 : List (HloOp τ sig (Elt Ideal))) W (Proc.devRef .tc main_v61) (ix2 (n0 := 1) (n1 := 128) (0 : Fin 1) q)
    = W (Proc.devRef .tc main_arg9) (ix1 q) := by
  dsimp only [hostOps2]
  after_results_simp
  exact shapeCast_a_1a_apply (W (Proc.devRef .tc main_arg9)) shapeCasts_S128_S1x128 0 q

set_option maxHeartbeats 1600000 in
/-- Before region 3: the mean over the users of the games' layer-1 rows. -/
theorem mean3 : StableHlo.after (hostOps3 : List (HloOp τ sig (Elt Ideal))) W (Proc.devRef .tc main_v81)
    = Spec.meanGU128 (W (Proc.devRef .tc main_v20)) (W (Proc.devRef .tc main_arg26)) (W (Proc.devRef .tc main_arg27)) := by
  dsimp only [hostOps3]
  after_results_simp
  rfl

set_option maxHeartbeats 1600000 in
/-- Before region 3: the bias row holds the bias vector. -/
theorem bias3 (q : Fin 128) : StableHlo.after (hostOps3 : List (HloOp τ sig (Elt Ideal))) W (Proc.devRef .tc main_v82) (ix2 (n0 := 1) (n1 := 128) (0 : Fin 1) q)
    = W (Proc.devRef .tc main_arg12) (ix1 q) := by
  dsimp only [hostOps3]
  after_results_simp
  exact shapeCast_a_1a_apply (W (Proc.devRef .tc main_arg12)) shapeCasts_S128_S1x128 0 q

set_option maxHeartbeats 1600000 in
/-- Before region 4: the mean over the games of the users' layer-2 rows. -/
theorem mean4 : StableHlo.after (hostOps4 : List (HloOp τ sig (Elt Ideal))) W (Proc.devRef .tc main_v102)
    = Spec.meanUG128 (W (Proc.devRef .tc main_v83)) (W (Proc.devRef .tc main_arg24)) (W (Proc.devRef .tc main_arg25)) := by
  dsimp only [hostOps4]
  after_results_simp
  rfl

set_option maxHeartbeats 1600000 in
/-- Before region 4: the bias row holds the bias vector. -/
theorem bias4 (q : Fin 128) : StableHlo.after (hostOps4 : List (HloOp τ sig (Elt Ideal))) W (Proc.devRef .tc main_v103) (ix2 (n0 := 1) (n1 := 128) (0 : Fin 1) q)
    = W (Proc.devRef .tc main_arg15) (ix1 q) := by
  dsimp only [hostOps4]
  after_results_simp
  exact shapeCast_a_1a_apply (W (Proc.devRef .tc main_arg15)) shapeCasts_S128_S1x128 0 q

set_option maxHeartbeats 1600000 in
/-- Before region 5: the mean over the users of the games' layer-2 rows. -/
theorem mean5 : StableHlo.after (hostOps5 : List (HloOp τ sig (Elt Ideal))) W (Proc.devRef .tc main_v123)
    = Spec.meanGU128 (W (Proc.devRef .tc main_v62)) (W (Proc.devRef .tc main_arg26)) (W (Proc.devRef .tc main_arg27)) := by
  dsimp only [hostOps5]
  after_results_simp
  rfl

set_option maxHeartbeats 1600000 in
/-- Before region 5: the bias row holds the bias vector. -/
theorem bias5 (q : Fin 128) : StableHlo.after (hostOps5 : List (HloOp τ sig (Elt Ideal))) W (Proc.devRef .tc main_v124) (ix2 (n0 := 1) (n1 := 128) (0 : Fin 1) q)
    = W (Proc.devRef .tc main_arg18) (ix1 q) := by
  dsimp only [hostOps5]
  after_results_simp
  exact shapeCast_a_1a_apply (W (Proc.devRef .tc main_arg18)) shapeCasts_S128_S1x128 0 q

set_option maxHeartbeats 1600000 in
/-- Before the decoder's region: the users' final rows at the labelled pairs. -/
theorem rowsU6 : StableHlo.after (hostOps6 : List (HloOp τ sig (Elt Ideal))) W (Proc.devRef .tc main_v132) = Spec.rowsU (W (Proc.devRef .tc main_v125)) (W (Proc.devRef .tc main_arg28)) := by
  dsimp only [hostOps6]
  after_results_simp
  rfl

set_option maxHeartbeats 1600000 in
/-- Before the decoder's region: the games' final rows at the labelled pairs. -/
theorem rowsG6 : StableHlo.after (hostOps6 : List (HloOp τ sig (Elt Ideal))) W (Proc.devRef .tc main_v139) = Spec.rowsG (W (Proc.devRef .tc main_v104)) (W (Proc.devRef .tc main_arg29)) := by
  dsimp only [hostOps6]
  after_results_simp
  rfl

set_option maxHeartbeats 1600000 in
/-- The upper half of the decoder's first weight matrix: rows 0 … 127. -/
theorem upper6 (k q : Fin 128) : StableHlo.after (hostOps6 : List (HloOp τ sig (Elt Ideal))) W (Proc.devRef .tc main_v140) (ix2 (n0 := 128) (n1 := 128) k q)
    = W (Proc.devRef .tc main_arg20) (ix2 (n0 := 256) (n1 := 128) (Fin.castAdd 128 k) q) := by
  dsimp only [hostOps6]
  after_results_simp
  refine extractStridedSlice_apply ![0, 0] (W (Proc.devRef .tc main_arg20)) slices_S256x128_S128x128_0_0 _ _ fun a => ?_
  match a with
  | ⟨0, _⟩ => show k.val = 0 + k.val; omega
  | ⟨1, _⟩ => show q.val = 0 + q.val; omega

set_option maxHeartbeats 1600000 in
/-- The lower half: rows 128 … 255. -/
theorem lower6 (k q : Fin 128) : StableHlo.after (hostOps6 : List (HloOp τ sig (Elt Ideal))) W (Proc.devRef .tc main_v141) (ix2 (n0 := 128) (n1 := 128) k q)
    = W (Proc.devRef .tc main_arg20) (ix2 (n0 := 256) (n1 := 128) (Fin.natAdd 128 k) q) := by
  dsimp only [hostOps6]
  after_results_simp
  refine extractStridedSlice_apply ![128, 0] (W (Proc.devRef .tc main_arg20)) slices_S256x128_S128x128_128_0 _ _ fun a => ?_
  match a with
  | ⟨0, _⟩ => show 128 + k.val = 128 + k.val; rfl
  | ⟨1, _⟩ => show q.val = 0 + q.val; omega

set_option maxHeartbeats 1600000 in
/-- The decoder's first bias as a row. -/
theorem bias6 (q : Fin 128) : StableHlo.after (hostOps6 : List (HloOp τ sig (Elt Ideal))) W (Proc.devRef .tc main_v142) (ix2 (n0 := 1) (n1 := 128) (0 : Fin 1) q)
    = W (Proc.devRef .tc main_arg21) (ix1 q) := by
  dsimp only [hostOps6]
  after_results_simp
  exact shapeCast_a_1a_apply (W (Proc.devRef .tc main_arg21)) shapeCasts_S128_S1x128 0 q

set_option maxHeartbeats 1600000 in
/-- The decoder's second bias (one entry) as a 1 × 1 array. -/
theorem biasOut6 : StableHlo.after (hostOps6 : List (HloOp τ sig (Elt Ideal))) W (Proc.devRef .tc main_v143) (ix2 (n0 := 1) (n1 := 1) (0 : Fin 1) (0 : Fin 1))
    = W (Proc.devRef .tc main_arg23) (ix1 0) := by
  dsimp only [hostOps6]
  after_results_simp
  exact shapeCast_a_1a_apply (W (Proc.devRef .tc main_arg23)) shapeCasts_S1_S1x1 0 0

/-- After the decoder's region: the score column as a vector. -/
theorem final7 : StableHlo.after (hostOps7 : List (HloOp τ sig (Elt Ideal))) W (Proc.devRef .tc main_v145)
    = shapeCast Cert.ReferenceIdeal.S400000 (W (Proc.devRef .tc main_v144)) Cert.ReferenceIdeal.Facts₀.shapeCasts_S400000x1_S400000 := by
  dsimp only [hostOps7]
  after_results_simp
  rfl

end Cert.KernelIdeal.Stretch

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«145621_j51891794870357_1_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.LibConvBlocks.lean ====
/-
  GENERAL LEMMAS: the two bodies of a graph-convolution kernel tiled over blocks of rows, read at the ideal values
  against the host's whole-array spelling.

  For any sizes (a block of `r` rows of an `R × K` array; `K` and `N` features):
  * `dense_block` / `dense_block_cast`: entry `j` of a block's `matmul` into the zero accumulator, both operands cut
    to a shorter float format, is entry `i` of the host's `dot_general` of the whole arrays, as soon as the block's
    row is the array's row and the weights' column is the same column;
  * `combine_block` / `combine_relu_block`: entry `j` of the block's `c₁ · hw + c₂ · agg + bias row` (with or without a
    final max with the zero word) is entry `i` of the host's `c₁ · HW + c₂ · AGG + bias` written with rank-0 splats and
    two `broadcast_in_dim`s of the bias vector.

  * The dense body loads a block of rows `x` and the weights `w`, cuts both to a shorter float format (the identity on
    extended reals) and multiplies them into a zero accumulator: the plain product `x · w`.
  * The combine body is entry by entry: at row `p`, column `q` it is `c₁ · hw + c₂ · agg + bias q`, the bias a single
    row spread over all rows. The host writes the same with two `broadcast_in_dim`s of a length-`K` bias vector.
  Nothing here needs a finiteness hypothesis: the two spellings are the same expression of the same entries.
-/
import proofs.«145621_j51891794870357_1_alg».proof.Proof.LibMatProd
import proofs.«145621_j51891794870357_1_alg».proof.Proof.LibRowBlock
import Idealize.ShloMosaic.Lib.ValueLayout
import Idealize.ShloMosaic.Lib.Pipeline.Value

noncomputable section

open scoped BigOperators

namespace Cert.Layers

open Idealize.ShloMosaic Idealize.ShloMosaic.ValueIdx Cert.Linear

/-- A rank-0 shape and a length-`K` vector's shape. -/
abbrev Sc : Shape := ⟨0, ![]⟩
abbrev Vc (K : Nat) : Shape := ⟨1, ![K]⟩

/-- The dense body: both operands cut to a shorter format and multiplied into the zero accumulator are `x · w`. -/
theorem dense_body {r K N : Nat} {d : DotDims (Mat r K) (Mat K N) (Mat r N)} (h : Contracts d)
    (x : FVec Ideal (Mat r K) .f32) (w : FVec Ideal (Mat K N) .f32) (hb : FTy.bits .bf16 < FTy.bits .f32) :
    FloatOps.matmul d none (truncf .bf16 x hb) (truncf .bf16 w hb) (constant (F := Ideal) (Mat r N) .f32 0x00000000#32)
      = matProd x w :=
  matmul_zero_eq h none (truncf .bf16 x hb) (truncf .bf16 w hb)

/-- The same with the block first cast to its own shape. -/
theorem dense_body_cast {r K N : Nat} {d : DotDims (Mat r K) (Mat K N) (Mat r N)} (h : Contracts d)
    (x : FVec Ideal (Mat r K) .f32) (w : FVec Ideal (Mat K N) .f32) (hb : FTy.bits .bf16 < FTy.bits .f32)
    (hs : (Mat r K).ShapeCasts (Mat r K)) :
    FloatOps.matmul d none (truncf .bf16 (shapeCast (Mat r K) x hs) hb) (truncf .bf16 w hb)
        (constant (F := Ideal) (Mat r N) .f32 0x00000000#32)
      = matProd x w := by
  rw [shapeCast_self]; exact dense_body h x w hb

/-- The combination `c₁ · a + c₂ · g + β` of three extended reals, the coefficients given by their float words. -/
def mix (c1 c2 : BitVec 32) (a g β : EReal) : EReal :=
  (Ideal.ofBits .f32 c1 * a + Ideal.ofBits .f32 c2 * g) + β

/-- The combine body at row `p`, column `q` of its block. -/
theorem combine_body_apply {r K : Nat} (c1 c2 : BitVec 32) (x0 x1 : FVec Ideal (Mat r K) .f32) (x2 : FVec Ideal (Mat 1 K) .f32)
    (h1 : (Mat r K).ShapeCasts (Mat r K)) (h2 : (Mat 1 K).ShapeCasts (Mat 1 K)) (h3 : (Mat 1 K).Broadcasts (Mat r K))
    (p : Fin r) (q : Fin K) :
    addf (addf (mulf (broadcast (Mat r K) (FloatOps.ofBits (F := Ideal) .f32 c1)) (shapeCast (Mat r K) x0 h1))
          (mulf (broadcast (Mat r K) (FloatOps.ofBits (F := Ideal) .f32 c2)) (shapeCast (Mat r K) x1 h1)))
        (broadcastTo (Mat r K) (shapeCast (Mat 1 K) (shapeCast (Mat 1 K) x2 h2) h2) h3) (ix2 p q)
      = mix c1 c2 (x0 (ix2 p q)) (x1 (ix2 p q)) (x2 (ix2 (0 : Fin 1) q)) := by
  rw [shapeCast_self, shapeCast_self, shapeCast_self, shapeCast_self]
  show (Ideal.ofBits .f32 c1 * x0 (ix2 p q) + Ideal.ofBits .f32 c2 * x1 (ix2 p q)) + broadcastTo (Mat r K) x2 h3 (ix2 p q) = _
  rw [broadcastTo_1b_ab_apply x2 h3 p q]; rfl

/-- The host's spelling of the same combination at row `p`, column `q`: the coefficients splat from rank-0 constants,
    the bias a length-`K` vector made one row and then all rows. -/
theorem combine_host_apply {R K : Nat} (c1 c2 : BitVec 32) (hw agg : FVec Ideal (Mat R K) .f32) (b : FVec Ideal (Vc K) .f32)
    (h0 : Sc.BroadcastsInDim (Mat R K) ![]) (h1 : (Vc K).BroadcastsInDim (Mat 1 K) ![1])
    (h2 : (Mat 1 K).BroadcastsInDim (Mat R K) ![0, 1]) (p : Fin R) (q : Fin K) :
    addf (addf (mulf (broadcastInDim (Mat R K) ![] h0 (constant (F := Ideal) Sc .f32 c1)) hw)
          (mulf (broadcastInDim (Mat R K) ![] h0 (constant (F := Ideal) Sc .f32 c2)) agg))
        (broadcastInDim (Mat R K) ![0, 1] h2 (broadcastInDim (Mat 1 K) ![1] h1 b)) (ix2 p q)
      = mix c1 c2 (hw (ix2 p q)) (agg (ix2 p q)) (b (ix1 q)) := by
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : ∀ c : BitVec 32, broadcastInDim (Mat R K) ![] h0 (constant (F := Ideal) Sc .f32 c) (ix2 p q) = Ideal.ofBits .f32 c :=
    fun c => broadcastInDim_apply ![] h0 _ (ix2 p q) ix0 fun a => a.elim0
  show (broadcastInDim (Mat R K) ![] h0 (constant (F := Ideal) Sc .f32 c1) (ix2 p q) * hw (ix2 p q)
        + broadcastInDim (Mat R K) ![] h0 (constant (F := Ideal) Sc .f32 c2) (ix2 p q) * agg (ix2 p q))
      + broadcastInDim (Mat R K) ![0, 1] h2 (broadcastInDim (Mat 1 K) ![1] h1 b) (ix2 p q) = _
  rw [e2, e1, e3, e3]; rfl

/-- The max with the zero word, at an index, in the body's spelling and in the host's. -/
theorem relu_body_apply {r K : Nat} (y : FVec Ideal (Mat r K) .f32) (i : (Mat r K).Idx) :
    maximumf y (broadcast (Mat r K) (FloatOps.ofBits (F := Ideal) .f32 0x00000000#32)) i = max (y i) (Ideal.ofBits .f32 0x00000000#32) := rfl

theorem relu_host_apply {R K : Nat} (y : FVec Ideal (Mat R K) .f32) (h0 : Sc.BroadcastsInDim (Mat R K) ![]) (i : (Mat R K).Idx) :
    maximumf y (broadcastInDim (Mat R K) ![] h0 (constant (F := Ideal) Sc .f32 0x00000000#32)) i
      = max (y i) (Ideal.ofBits .f32 0x00000000#32) := by
  show max (y i) (broadcastInDim (Mat R K) ![] h0 (constant (F := Ideal) Sc .f32 0x00000000#32) i) = _
  rw [broadcastInDim_apply ![] h0 _ i ix0 fun a => a.elim0]; rfl

/-- A block of rows of the dense body against the whole product: entry `j` of the block's body is entry `i` of the
    host's `dot_general` of the whole operands, as soon as row `j 0` of the block is row `i 0` of the whole left operand
    and column `j 1` of the block's weights is column `i 1` of the whole right operand. -/
theorem dense_block {R r K N : Nat} {d : DotDims (Mat r K) (Mat K N) (Mat r N)} {D : DotDims (Mat R K) (Mat K N) (Mat R N)}
    (h : Contracts d) (H : Contracts D) (sched : HostSchedule)
    (X : FVec Ideal (Mat R K) .f32) (W : FVec Ideal (Mat K N) .f32)
    (x : FVec Ideal (Mat r K) .f32) (w : FVec Ideal (Mat K N) .f32) (hb : FTy.bits .bf16 < FTy.bits .f32)
    (j : (Mat r N).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := N) k (j 1)) = W (ix2 (n0 := K) (n1 := N) k (i 1))) :
    FloatOps.matmul d none (truncf .bf16 x hb) (truncf .bf16 w hb) (constant (F := Ideal) (Mat r N) .f32 0x00000000#32) j
      = FloatOps.dotGeneral D none sched X W i := by
  rw [dense_body h x w hb, dotGeneral_eq H none sched X W]
  exact matProd_of_rows X W x w j i hx hw

/-- The same with the block first cast to its own shape. -/
theorem dense_block_cast {R r K N : Nat} {d : DotDims (Mat r K) (Mat K N) (Mat r N)} {D : DotDims (Mat R K) (Mat K N) (Mat R N)}
    (h : Contracts d) (H : Contracts D) (sched : HostSchedule)
    (X : FVec Ideal (Mat R K) .f32) (W : FVec Ideal (Mat K N) .f32)
    (x : FVec Ideal (Mat r K) .f32) (w : FVec Ideal (Mat K N) .f32) (hb : FTy.bits .bf16 < FTy.bits .f32)
    (hs : (Mat r K).ShapeCasts (Mat r K)) (j : (Mat r N).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := N) k (j 1)) = W (ix2 (n0 := K) (n1 := N) k (i 1))) :
    FloatOps.matmul d none (truncf .bf16 (shapeCast (Mat r K) x hs) hb) (truncf .bf16 w hb)
        (constant (F := Ideal) (Mat r N) .f32 0x00000000#32) j
      = FloatOps.dotGeneral D none sched X W i := by
  rw [shapeCast_self]; exact dense_block h H sched X W x w hb j i hx hw

/-- A block of rows of the combine body against the host's whole-array spelling: entry `j` of the block's body is entry
    `i` of the host's combination as soon as the block's entries at `j` are the arrays' at `i` and the bias row's entry in
    column `j 1` is the bias vector's in column `i 1`. -/
theorem combine_block {R r K : Nat} (c1 c2 : BitVec 32) (HW AGG : FVec Ideal (Mat R K) .f32) (b : FVec Ideal (Vc K) .f32)
    (x0 x1 : FVec Ideal (Mat r K) .f32) (x2 : FVec Ideal (Mat 1 K) .f32)
    (h1 : (Mat r K).ShapeCasts (Mat r K)) (h2 : (Mat 1 K).ShapeCasts (Mat 1 K)) (h3 : (Mat 1 K).Broadcasts (Mat r K))
    (g0 : Sc.BroadcastsInDim (Mat R K) ![]) (g1 : (Vc K).BroadcastsInDim (Mat 1 K) ![1])
    (g2 : (Mat 1 K).BroadcastsInDim (Mat R K) ![0, 1])
    (j : (Mat r K).Idx) (i : (Mat R K).Idx) (e0 : x0 j = HW i) (e1 : x1 j = AGG i)
    (e2 : x2 (ix2 (0 : Fin 1) (j 1)) = b (ix1 (i 1))) :
    addf (addf (mulf (broadcast (Mat r K) (FloatOps.ofBits (F := Ideal) .f32 c1)) (shapeCast (Mat r K) x0 h1))
          (mulf (broadcast (Mat r K) (FloatOps.ofBits (F := Ideal) .f32 c2)) (shapeCast (Mat r K) x1 h1)))
        (broadcastTo (Mat r K) (shapeCast (Mat 1 K) (shapeCast (Mat 1 K) x2 h2) h2) h3) j
      = addf (addf (mulf (broadcastInDim (Mat R K) ![] g0 (constant (F := Ideal) Sc .f32 c1)) HW)
          (mulf (broadcastInDim (Mat R K) ![] g0 (constant (F := Ideal) Sc .f32 c2)) AGG))
        (broadcastInDim (Mat R K) ![0, 1] g2 (broadcastInDim (Mat 1 K) ![1] g1 b)) i := by
  obtain ⟨p, q, rfl⟩ : ∃ (p : Fin r) (q : Fin K), j = ix2 p q := ⟨j 0, j 1, eq_ix2 j⟩
  obtain ⟨P, Q, rfl⟩ : ∃ (P : Fin R) (Q : Fin K), i = ix2 P Q := ⟨i 0, i 1, eq_ix2 i⟩
  rw [combine_body_apply, combine_host_apply, e0, e1]
  exact congrArg (mix c1 c2 (HW (ix2 P Q)) (AGG (ix2 P Q))) e2

/-- The same with the final max with the zero word on both sides. -/
theorem combine_relu_block {R r K : Nat} (c1 c2 : BitVec 32) (HW AGG : FVec Ideal (Mat R K) .f32) (b : FVec Ideal (Vc K) .f32)
    (x0 x1 : FVec Ideal (Mat r K) .f32) (x2 : FVec Ideal (Mat 1 K) .f32)
    (h1 : (Mat r K).ShapeCasts (Mat r K)) (h2 : (Mat 1 K).ShapeCasts (Mat 1 K)) (h3 : (Mat 1 K).Broadcasts (Mat r K))
    (g0 : Sc.BroadcastsInDim (Mat R K) ![]) (g1 : (Vc K).BroadcastsInDim (Mat 1 K) ![1])
    (g2 : (Mat 1 K).BroadcastsInDim (Mat R K) ![0, 1])
    (j : (Mat r K).Idx) (i : (Mat R K).Idx) (e0 : x0 j = HW i) (e1 : x1 j = AGG i)
    (e2 : x2 (ix2 (0 : Fin 1) (j 1)) = b (ix1 (i 1))) :
    maximumf (addf (addf (mulf (broadcast (Mat r K) (FloatOps.ofBits (F := Ideal) .f32 c1)) (shapeCast (Mat r K) x0 h1))
          (mulf (broadcast (Mat r K) (FloatOps.ofBits (F := Ideal) .f32 c2)) (shapeCast (Mat r K) x1 h1)))
        (broadcastTo (Mat r K) (shapeCast (Mat 1 K) (shapeCast (Mat 1 K) x2 h2) h2) h3))
        (broadcast (Mat r K) (FloatOps.ofBits (F := Ideal) .f32 0x00000000#32)) j
      = maximumf (addf (addf (mulf (broadcastInDim (Mat R K) ![] g0 (constant (F := Ideal) Sc .f32 c1)) HW)
          (mulf (broadcastInDim (Mat R K) ![] g0 (constant (F := Ideal) Sc .f32 c2)) AGG))
        (broadcastInDim (Mat R K) ![0, 1] g2 (broadcastInDim (Mat 1 K) ![1] g1 b)))
        (broadcastInDim (Mat R K) ![] g0 (constant (F := Ideal) Sc .f32 0x00000000#32)) i := by
  rw [relu_body_apply, relu_host_apply, combine_block c1 c2 HW AGG b x0 x1 x2 h1 h2 h3 g0 g1 g2 j i e0 e1 e2]

/-- A bias vector made one row by a reshape, read in the row's column `q`. -/
theorem bias_row_apply {K : Nat} (b : FVec Ideal (Vc K) .f32) (h : (Vc K).ShapeCasts (Mat 1 K)) (q : Fin K) :
    shapeCast (Mat 1 K) b h (ix2 (0 : Fin 1) q) = b (ix1 q) := shapeCast_a_1a_apply b h 0 q

end Cert.Layers

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«145621_j51891794870357_1_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibSageDense.lean ====
/-
  A block of rows of a graph-convolution layer's dense update, against the whole update.

  The layer's dense update of a mean array `M` (`R × K₁`), the destination rows `X` (`R × K₂`), two weight matrices
  `Wl` (`K₁ × N`), `Wr` (`K₂ × N`) and a bias vector `b` of `N` entries is, at row `p` and column `q`,

      (∑ₖ M(p,k)·Wl(k,q)  +  b(q))  +  ∑ₖ X(p,k)·Wr(k,q)                       (the whole-array spelling)

  and a kernel that handles `r` rows at a time computes, on its block of rows,

      (∑ₖ m(p',k)·Wl(k,q)  +  ∑ₖ x(p',k)·Wr(k,q))  +  c(0,q)                    (the block's spelling)

  with both matrix products accumulated into zero after a change of float format (the identity on extended reals) and
  the bias held as a `1 × N` row `c`.  When row `p'` of the blocks is row `p` of the arrays and `c(0,q) = b(q)` the
  two are equal: the three terms are the same extended reals, added in another order — a fact of a commutative
  monoid, with no finiteness of the entries needed.  The same with a final maximum with zero on both sides.
-/
import proofs.«145621_j51891794870357_1_alg».proof.Proof.LibConvBlocks
import proofs.«145621_j51891794870357_1_alg».proof.Proof.LibDotLists

noncomputable section

open scoped BigOperators

namespace Cert.Sage

open Idealize.ShloMosaic Idealize.ShloMosaic.ValueIdx Cert.Linear Cert.Layers

/-- A vector of `N` entries made one row and then `R` rows, read at `(p, q)`: the vector's entry `q`. -/
theorem bias_rows_apply {R N : Nat} (b : FVec Ideal (Vc N) .f32)
    (g1 : (Vc N).BroadcastsInDim (Mat 1 N) ![1]) (g2 : (Mat 1 N).BroadcastsInDim (Mat R N) ![0, 1]) (p : Fin R) (q : Fin N) :
    broadcastInDim (Mat R N) ![0, 1] g2 (broadcastInDim (Mat 1 N) ![1] g1 b) (ix2 p q) = b (ix1 q) := by
  have e2 : broadcastInDim (Mat R N) ![0, 1] g2 (broadcastInDim (Mat 1 N) ![1] g1 b) (ix2 p q)
      = broadcastInDim (Mat 1 N) ![1] g1 b (ix2 (0 : Fin 1) q) :=
    broadcastInDim_apply ![0, 1] g2 _ (ix2 p q) (ix2 (0 : Fin 1) q) fun a => by
      match a with
      | ⟨0, _⟩ => rfl
      | ⟨1, _⟩ =>
        show q.val = if N = 1 then 0 else q.val
        split
        · have := q.isLt; omega
        · rfl
  have e1 : broadcastInDim (Mat 1 N) ![1] g1 b (ix2 (0 : Fin 1) q) = b (ix1 q) :=
    broadcastInDim_apply ![1] g1 b (ix2 (0 : Fin 1) q) (ix1 q) fun a => by
      match a with
      | ⟨0, _⟩ =>
        show q.val = if N = 1 then 0 else q.val
        split
        · have := q.isLt; omega
        · rfl
  rw [e2, e1]

/-- Entry `j` of the block's dense update is entry `i` of the whole update, as soon as the block's row `j 0` is the
    arrays' row `i 0`, the column is the same, and the bias row holds the bias vector. -/
theorem dense_block_apply {R r K1 K2 N : Nat}
    {d1 : DotDims (Mat r K1) (Mat K1 N) (Mat r N)} {d2 : DotDims (Mat r K2) (Mat K2 N) (Mat r N)}
    {D1 : DotDims (Mat R K1) (Mat K1 N) (Mat R N)} {D2 : DotDims (Mat R K2) (Mat K2 N) (Mat R N)}
    (h1 : Contracts d1) (h2 : Contracts d2) (H1 : Contracts D1) (H2 : Contracts D2)
    (M : FVec Ideal (Mat R K1) .f32) (X : FVec Ideal (Mat R K2) .f32)
    (wl : FVec Ideal (Mat K1 N) .f32) (wr : FVec Ideal (Mat K2 N) .f32) (b : FVec Ideal (Vc N) .f32)
    (x0 : FVec Ideal (Mat r K1) .f32) (x1 : FVec Ideal (Mat r K2) .f32) (c : FVec Ideal (Mat 1 N) .f32)
    (hb : FTy.bits .bf16 < FTy.bits .f32) (t1 : (Mat 1 N).Broadcasts (Mat r N))
    (g1 : (Vc N).BroadcastsInDim (Mat 1 N) ![1]) (g2 : (Mat 1 N).BroadcastsInDim (Mat R N) ![0, 1])
    (j : (Mat r N).Idx) (i : (Mat R N).Idx) (hcol : (j 1).val = (i 1).val)
    (hx0 : ∀ k : Fin K1, x0 (ix2 (n0 := r) (n1 := K1) (j 0) k) = M (ix2 (n0 := R) (n1 := K1) (i 0) k))
    (hx1 : ∀ k : Fin K2, x1 (ix2 (n0 := r) (n1 := K2) (j 0) k) = X (ix2 (n0 := R) (n1 := K2) (i 0) k))
    (hc : c (ix2 (n0 := 1) (n1 := N) (0 : Fin 1) (j 1)) = b (ix1 (i 1))) :
    addf (addf (FloatOps.matmul d1 none (truncf .bf16 x0 hb) (truncf .bf16 wl hb) (constant (F := Ideal) (Mat r N) .f32 0x00000000#32))
          (FloatOps.matmul d2 none (truncf .bf16 x1 hb) (truncf .bf16 wr hb) (constant (F := Ideal) (Mat r N) .f32 0x00000000#32)))
        (broadcastTo (Mat r N) c t1) j
      = addf (addf (Host.dotGeneral D1 none M wl) (broadcastInDim (Mat R N) ![0, 1] g2 (broadcastInDim (Mat 1 N) ![1] g1 b)))
          (Host.dotGeneral D2 none X wr) i := by
  have hq : (j 1 : Fin N) = (i 1 : Fin N) := Fin.ext hcol
  simp only [Host.dotGeneral]
  have e1 := dense_block h1 H1 HostSchedule.single M wl x0 wl hb j i hx0 (fun k => by rw [hq])
  have e2 := dense_block h2 H2 HostSchedule.single X wr x1 wr hb j i hx1 (fun k => by rw [hq])
  have e3 : broadcastTo (Mat r N) c t1 j = c (ix2 (n0 := 1) (n1 := N) (0 : Fin 1) (j 1)) := by
    conv_lhs => rw [eq_ix2 j]
    exact broadcastTo_1b_ab_apply c t1 (j 0) (j 1)
  have e4 : broadcastInDim (Mat R N) ![0, 1] g2 (broadcastInDim (Mat 1 N) ![1] g1 b) i = b (ix1 (i 1)) := by
    conv_lhs => rw [eq_ix2 i]
    exact bias_rows_apply b g1 g2 (i 0) (i 1)
  rw [addf_apply, addf_apply, addf_apply, addf_apply, e1, e2, e3, e4, hc]
  exact add_right_comm _ _ _

/-- The same with the maximum with zero taken on both sides. -/
theorem dense_relu_block_apply {R r K1 K2 N : Nat}
    {d1 : DotDims (Mat r K1) (Mat K1 N) (Mat r N)} {d2 : DotDims (Mat r K2) (Mat K2 N) (Mat r N)}
    {D1 : DotDims (Mat R K1) (Mat K1 N) (Mat R N)} {D2 : DotDims (Mat R K2) (Mat K2 N) (Mat R N)}
    (h1 : Contracts d1) (h2 : Contracts d2) (H1 : Contracts D1) (H2 : Contracts D2)
    (M : FVec Ideal (Mat R K1) .f32) (X : FVec Ideal (Mat R K2) .f32)
    (wl : FVec Ideal (Mat K1 N) .f32) (wr : FVec Ideal (Mat K2 N) .f32) (b : FVec Ideal (Vc N) .f32)
    (x0 : FVec Ideal (Mat r K1) .f32) (x1 : FVec Ideal (Mat r K2) .f32) (c : FVec Ideal (Mat 1 N) .f32)
    (hb : FTy.bits .bf16 < FTy.bits .f32) (t1 : (Mat 1 N).Broadcasts (Mat r N))
    (g0 : Sc.BroadcastsInDim (Mat R N) ![])
    (g1 : (Vc N).BroadcastsInDim (Mat 1 N) ![1]) (g2 : (Mat 1 N).BroadcastsInDim (Mat R N) ![0, 1])
    (j : (Mat r N).Idx) (i : (Mat R N).Idx) (hcol : (j 1).val = (i 1).val)
    (hx0 : ∀ k : Fin K1, x0 (ix2 (n0 := r) (n1 := K1) (j 0) k) = M (ix2 (n0 := R) (n1 := K1) (i 0) k))
    (hx1 : ∀ k : Fin K2, x1 (ix2 (n0 := r) (n1 := K2) (j 0) k) = X (ix2 (n0 := R) (n1 := K2) (i 0) k))
    (hc : c (ix2 (n0 := 1) (n1 := N) (0 : Fin 1) (j 1)) = b (ix1 (i 1))) :
    maximumf
        (addf (addf (FloatOps.matmul d1 none (truncf .bf16 x0 hb) (truncf .bf16 wl hb) (constant (F := Ideal) (Mat r N) .f32 0x00000000#32))
            (FloatOps.matmul d2 none (truncf .bf16 x1 hb) (truncf .bf16 wr hb) (constant (F := Ideal) (Mat r N) .f32 0x00000000#32)))
          (broadcastTo (Mat r N) c t1))
        (broadcast (Mat r N) (FloatOps.ofBits (F := Ideal) .f32 0x00000000#32)) j
      = maximumf
          (addf (addf (Host.dotGeneral D1 none M wl) (broadcastInDim (Mat R N) ![0, 1] g2 (broadcastInDim (Mat 1 N) ![1] g1 b)))
            (Host.dotGeneral D2 none X wr))
          (broadcastInDim (Mat R N) ![] g0 (constant (F := Ideal) Sc .f32 0x00000000#32)) i := by
  rw [relu_body_apply, relu_host_apply]
  exact congrArg (fun y => max y (Ideal.ofBits .f32 0x00000000#32))
    (dense_block_apply h1 h2 H1 H2 M X wl wr b x0 x1 c hb t1 g1 g2 j i hcol hx0 hx1 hc)

end Cert.Sage

end
-- ==== Proof.Payloads.lean ====
/-
  The six layer kernels' block payloads, entry by entry, against the whole-array dense updates.

  Each layer kernel's body, on the block of rows its grid point holds, stores `(m · Wl + x · Wr) + c` (and the maximum
  of that with zero in the first two layers); entry `j` of that block is entry `i` of the reference's spelling of the
  layer over all rows as soon as the block's row is the array's row, the column is the same column, and the bias row
  holds the bias vector (LibSageDense: the same three extended reals added in another order).
-/
import proofs.«145621_j51891794870357_1_alg».proof.Proof.Spec
import proofs.«145621_j51891794870357_1_alg».proof.Proof.LibSageDense
import proofs.«145621_j51891794870357_1_alg».proof.Proof.Gen.KernelIdeal.Skeleton

noncomputable section

namespace Cert.Sage

open Idealize.ShloMosaic Idealize.ShloMosaic.ValueIdx Cert.Linear Cert.Layers

variable [Cert.KernelIdeal.Facts] [Cert.ReferenceIdeal.Facts]

/-- Layer 1, games: a block of 2000 of the 20000 rows. -/
theorem pay0_apply
    (x0 : Vec Ideal Cert.KernelIdeal.S2000x64 .f32) (wl : Vec Ideal Cert.KernelIdeal.S64x128 .f32)
    (x1 : Vec Ideal Cert.KernelIdeal.S2000x32 .f32) (wr : Vec Ideal Cert.KernelIdeal.S32x128 .f32)
    (c : Vec Ideal Cert.KernelIdeal.S1x128 .f32)
    (M : Spec.FA Cert.ReferenceIdeal.S20000x64) (X : Spec.FA Cert.ReferenceIdeal.S20000x32) (b : Spec.FA Cert.ReferenceIdeal.S128)
    (j : Cert.KernelIdeal.S2000x128.Idx) (i : Cert.ReferenceIdeal.S20000x128.Idx)
    (hcol : (j 1).val = (i 1).val)
    (hx0 : ∀ k : Fin 64, x0 (ix2 (n0 := 2000) (n1 := 64) (j 0) k) = M (ix2 (n0 := 20000) (n1 := 64) (i 0) k))
    (hx1 : ∀ k : Fin 32, x1 (ix2 (n0 := 2000) (n1 := 32) (j 0) k) = X (ix2 (n0 := 20000) (n1 := 32) (i 0) k))
    (hc : c (ix2 (n0 := 1) (n1 := 128) (0 : Fin 1) (j 1)) = b (ix1 (i 1))) :
    Cert.KernelIdeal.Gen.k0_pay1 (F := Ideal) x0 wl x1 wr c j = Spec.reluG (Spec.denseG1 M X wl b wr) i := by
  unfold Cert.KernelIdeal.Gen.k0_pay1 Spec.reluG Spec.denseG1 Spec.biasRow
  simp only [shapeCast_self]
  exact dense_relu_block_apply (contracts_of_lists _ rfl rfl rfl rfl rfl rfl) (contracts_of_lists _ rfl rfl rfl rfl rfl rfl)
    (contracts_of_lists _ rfl rfl rfl rfl rfl rfl) (contracts_of_lists _ rfl rfl rfl rfl rfl rfl)
    M X wl wr b x0 x1 c _ _ _ _ _ j i hcol hx0 hx1 hc

/-- Layer 1, users: a block of 2000 of the 100000 rows. -/
theorem pay1_apply
    (x0 : Vec Ideal Cert.KernelIdeal.S2000x32 .f32) (wl : Vec Ideal Cert.KernelIdeal.S32x128 .f32)
    (x1 : Vec Ideal Cert.KernelIdeal.S2000x64 .f32) (wr : Vec Ideal Cert.KernelIdeal.S64x128 .f32)
    (c : Vec Ideal Cert.KernelIdeal.S1x128 .f32)
    (M : Spec.FA Cert.ReferenceIdeal.S100000x32) (X : Spec.FA Cert.ReferenceIdeal.S100000x64) (b : Spec.FA Cert.ReferenceIdeal.S128)
    (j : Cert.KernelIdeal.S2000x128.Idx) (i : Cert.ReferenceIdeal.S100000x128.Idx)
    (hcol : (j 1).val = (i 1).val)
    (hx0 : ∀ k : Fin 32, x0 (ix2 (n0 := 2000) (n1 := 32) (j 0) k) = M (ix2 (n0 := 100000) (n1 := 32) (i 0) k))
    (hx1 : ∀ k : Fin 64, x1 (ix2 (n0 := 2000) (n1 := 64) (j 0) k) = X (ix2 (n0 := 100000) (n1 := 64) (i 0) k))
    (hc : c (ix2 (n0 := 1) (n1 := 128) (0 : Fin 1) (j 1)) = b (ix1 (i 1))) :
    Cert.KernelIdeal.Gen.k1_pay1 (F := Ideal) x0 wl x1 wr c j = Spec.reluU (Spec.denseU1 M X wl b wr) i := by
  unfold Cert.KernelIdeal.Gen.k1_pay1 Spec.reluU Spec.denseU1 Spec.biasRow
  simp only [shapeCast_self]
  exact dense_relu_block_apply (contracts_of_lists _ rfl rfl rfl rfl rfl rfl) (contracts_of_lists _ rfl rfl rfl rfl rfl rfl)
    (contracts_of_lists _ rfl rfl rfl rfl rfl rfl) (contracts_of_lists _ rfl rfl rfl rfl rfl rfl)
    M X wl wr b x0 x1 c _ _ _ _ _ j i hcol hx0 hx1 hc

/-- Layer 2, games. -/
theorem pay2_apply
    (x0 : Vec Ideal Cert.KernelIdeal.S2000x128 .f32) (wl : Vec Ideal Cert.KernelIdeal.S128x128 .f32)
    (x1 : Vec Ideal Cert.KernelIdeal.S2000x128 .f32) (wr : Vec Ideal Cert.KernelIdeal.S128x128 .f32)
    (c : Vec Ideal Cert.KernelIdeal.S1x128 .f32)
    (M : Spec.FA Cert.ReferenceIdeal.S20000x128) (X : Spec.FA Cert.ReferenceIdeal.S20000x128) (b : Spec.FA Cert.ReferenceIdeal.S128)
    (j : Cert.KernelIdeal.S2000x128.Idx) (i : Cert.ReferenceIdeal.S20000x128.Idx)
    (hcol : (j 1).val = (i 1).val)
    (hx0 : ∀ k : Fin 128, x0 (ix2 (n0 := 2000) (n1 := 128) (j 0) k) = M (ix2 (n0 := 20000) (n1 := 128) (i 0) k))
    (hx1 : ∀ k : Fin 128, x1 (ix2 (n0 := 2000) (n1 := 128) (j 0) k) = X (ix2 (n0 := 20000) (n1 := 128) (i 0) k))
    (hc : c (ix2 (n0 := 1) (n1 := 128) (0 : Fin 1) (j 1)) = b (ix1 (i 1))) :
    Cert.KernelIdeal.Gen.k2_pay1 (F := Ideal) x0 wl x1 wr c j = Spec.reluG (Spec.denseG M X wl b wr) i := by
  unfold Cert.KernelIdeal.Gen.k2_pay1 Spec.reluG Spec.denseG Spec.biasRow
  simp only [shapeCast_self]
  exact dense_relu_block_apply (contracts_of_lists _ rfl rfl rfl rfl rfl rfl) (contracts_of_lists _ rfl rfl rfl rfl rfl rfl)
    (contracts_of_lists _ rfl rfl rfl rfl rfl rfl) (contracts_of_lists _ rfl rfl rfl rfl rfl rfl)
    M X wl wr b x0 x1 c _ _ _ _ _ j i hcol hx0 hx1 hc

/-- Layer 2, users. -/
theorem pay3_apply
    (x0 : Vec Ideal Cert.KernelIdeal.S2000x128 .f32) (wl : Vec Ideal Cert.KernelIdeal.S128x128 .f32)
    (x1 : Vec Ideal Cert.KernelIdeal.S2000x128 .f32) (wr : Vec Ideal Cert.KernelIdeal.S128x128 .f32)
    (c : Vec Ideal Cert.KernelIdeal.S1x128 .f32)
    (M : Spec.FA Cert.ReferenceIdeal.S100000x128) (X : Spec.FA Cert.ReferenceIdeal.S100000x128) (b : Spec.FA Cert.ReferenceIdeal.S128)
    (j : Cert.KernelIdeal.S2000x128.Idx) (i : Cert.ReferenceIdeal.S100000x128.Idx)
    (hcol : (j 1).val = (i 1).val)
    (hx0 : ∀ k : Fin 128, x0 (ix2 (n0 := 2000) (n1 := 128) (j 0) k) = M (ix2 (n0 := 100000) (n1 := 128) (i 0) k))
    (hx1 : ∀ k : Fin 128, x1 (ix2 (n0 := 2000) (n1 := 128) (j 0) k) = X (ix2 (n0 := 100000) (n1 := 128) (i 0) k))
    (hc : c (ix2 (n0 := 1) (n1 := 128) (0 : Fin 1) (j 1)) = b (ix1 (i 1))) :
    Cert.KernelIdeal.Gen.k3_pay1 (F := Ideal) x0 wl x1 wr c j = Spec.reluU (Spec.denseU M X wl b wr) i := by
  unfold Cert.KernelIdeal.Gen.k3_pay1 Spec.reluU Spec.denseU Spec.biasRow
  simp only [shapeCast_self]
  exact dense_relu_block_apply (contracts_of_lists _ rfl rfl rfl rfl rfl rfl) (contracts_of_lists _ rfl rfl rfl rfl rfl rfl)
    (contracts_of_lists _ rfl rfl rfl rfl rfl rfl) (contracts_of_lists _ rfl rfl rfl rfl rfl rfl)
    M X wl wr b x0 x1 c _ _ _ _ _ j i hcol hx0 hx1 hc

/-- Layer 3, games (no maximum with zero). -/
theorem pay4_apply
    (x0 : Vec Ideal Cert.KernelIdeal.S2000x128 .f32) (wl : Vec Ideal Cert.KernelIdeal.S128x128 .f32)
    (x1 : Vec Ideal Cert.KernelIdeal.S2000x128 .f32) (wr : Vec Ideal Cert.KernelIdeal.S128x128 .f32)
    (c : Vec Ideal Cert.KernelIdeal.S1x128 .f32)
    (M : Spec.FA Cert.ReferenceIdeal.S20000x128) (X : Spec.FA Cert.ReferenceIdeal.S20000x128) (b : Spec.FA Cert.ReferenceIdeal.S128)
    (j : Cert.KernelIdeal.S2000x128.Idx) (i : Cert.ReferenceIdeal.S20000x128.Idx)
    (hcol : (j 1).val = (i 1).val)
    (hx0 : ∀ k : Fin 128, x0 (ix2 (n0 := 2000) (n1 := 128) (j 0) k) = M (ix2 (n0 := 20000) (n1 := 128) (i 0) k))
    (hx1 : ∀ k : Fin 128, x1 (ix2 (n0 := 2000) (n1 := 128) (j 0) k) = X (ix2 (n0 := 20000) (n1 := 128) (i 0) k))
    (hc : c (ix2 (n0 := 1) (n1 := 128) (0 : Fin 1) (j 1)) = b (ix1 (i 1))) :
    Cert.KernelIdeal.Gen.k4_pay1 (F := Ideal) x0 wl x1 wr c j = Spec.denseG M X wl b wr i := by
  unfold Cert.KernelIdeal.Gen.k4_pay1 Spec.denseG Spec.biasRow
  simp only [shapeCast_self]
  exact dense_block_apply (contracts_of_lists _ rfl rfl rfl rfl rfl rfl) (contracts_of_lists _ rfl rfl rfl rfl rfl rfl)
    (contracts_of_lists _ rfl rfl rfl rfl rfl rfl) (contracts_of_lists _ rfl rfl rfl rfl rfl rfl)
    M X wl wr b x0 x1 c _ _ _ _ j i hcol hx0 hx1 hc

/-- Layer 3, users (no maximum with zero). -/
theorem pay5_apply
    (x0 : Vec Ideal Cert.KernelIdeal.S2000x128 .f32) (wl : Vec Ideal Cert.KernelIdeal.S128x128 .f32)
    (x1 : Vec Ideal Cert.KernelIdeal.S2000x128 .f32) (wr : Vec Ideal Cert.KernelIdeal.S128x128 .f32)
    (c : Vec Ideal Cert.KernelIdeal.S1x128 .f32)
    (M : Spec.FA Cert.ReferenceIdeal.S100000x128) (X : Spec.FA Cert.ReferenceIdeal.S100000x128) (b : Spec.FA Cert.ReferenceIdeal.S128)
    (j : Cert.KernelIdeal.S2000x128.Idx) (i : Cert.ReferenceIdeal.S100000x128.Idx)
    (hcol : (j 1).val = (i 1).val)
    (hx0 : ∀ k : Fin 128, x0 (ix2 (n0 := 2000) (n1 := 128) (j 0) k) = M (ix2 (n0 := 100000) (n1 := 128) (i 0) k))
    (hx1 : ∀ k : Fin 128, x1 (ix2 (n0 := 2000) (n1 := 128) (j 0) k) = X (ix2 (n0 := 100000) (n1 := 128) (i 0) k))
    (hc : c (ix2 (n0 := 1) (n1 := 128) (0 : Fin 1) (j 1)) = b (ix1 (i 1))) :
    Cert.KernelIdeal.Gen.k5_pay1 (F := Ideal) x0 wl x1 wr c j = Spec.denseU M X wl b wr i := by
  unfold Cert.KernelIdeal.Gen.k5_pay1 Spec.denseU Spec.biasRow
  simp only [shapeCast_self]
  exact dense_block_apply (contracts_of_lists _ rfl rfl rfl rfl rfl rfl) (contracts_of_lists _ rfl rfl rfl rfl rfl rfl)
    (contracts_of_lists _ rfl rfl rfl rfl rfl rfl) (contracts_of_lists _ rfl rfl rfl rfl rfl rfl)
    M X wl wr b x0 x1 c _ _ _ _ j i hcol hx0 hx1 hc

end Cert.Sage

end
-- ==== Proof.Region0.lean ====
/-
  Region 0: the games' layer-1 update, as one array.

  The region's grid has 10 points; point `t` holds rows `2000·t … 2000·t + 1999` of the mean array and of the
  destination rows, the two weight matrices and the bias row whole, and writes back rows `2000·t … 2000·t + 1999` of
  the result.  What it writes back is that block of the reference's spelling of the layer over all 20000 rows
  (entry by entry: the payload lemma), and the 10 blocks tile the array, so the result array after the region IS the
  reference's spelling of the layer, applied to the arrays the region finds.
-/
import proofs.«145621_j51891794870357_1_alg».proof.Proof.Payloads
import proofs.«145621_j51891794870357_1_alg».proof.Proof.Gen.KernelIdeal.Frame
import proofs.«145621_j51891794870357_1_alg».proof.Proof.Gen.ReferenceIdeal
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output's row block, the weights and the
    bias row stay at the origin, and the output's block index is a row block below 10. -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every row block is some grid point's. -/
theorem row_block_onto : ∀ q0 : Fin 10, ∃ t : Fin cfg0.N, win0_5.index t = ![q0.val, 0] :=
  (by decide +kernel : ∀ q0 : Fin 10, ∃ t : Fin grid0.N, win0_5.index t = ![q0.val, 0])

/-- The weight matrices' blocks are the matrices. -/
theorem wl_block (c : Dev nD) (t : Fin cfg0.N) : iblk0 V c 2 t = V c main_arg2 := by
  obtain ⟨-, -, -, -, e20, e21, -⟩ := index_maps t
  funext z
  show V c main_arg2 (((cfg0.win 2).blk t).view.emb z) = V c main_arg2 z
  refine congrArg (V c main_arg2) (funext fun a => Fin.ext ?_)
  match a with
  | ⟨0, _⟩ => show win0_2.index t (0 : Fin 2) * 64 + 1 * (z 0).val = (z 0).val; omega
  | ⟨1, _⟩ => show win0_2.index t (1 : Fin 2) * 128 + 1 * (z 1).val = (z 1).val; omega

theorem wr_block (c : Dev nD) (t : Fin cfg0.N) : iblk0 V c 4 t = V c main_arg4 := by
  obtain ⟨-, -, -, -, -, -, -, -, e40, e41, -⟩ := index_maps t
  funext z
  show V c main_arg4 (((cfg0.win 4).blk t).view.emb z) = V c main_arg4 z
  refine congrArg (V c main_arg4) (funext fun a => Fin.ext ?_)
  match a with
  | ⟨0, _⟩ => show win0_4.index t (0 : Fin 2) * 32 + 1 * (z 0).val = (z 0).val; omega
  | ⟨1, _⟩ => show win0_4.index t (1 : Fin 2) * 128 + 1 * (z 1).val = (z 1).val; omega

/-- What grid point `t` writes back is block `t` of the layer over all rows, of the arrays the region finds. -/
theorem flushed (c : Dev nD) (b : Spec.FA Cert.ReferenceIdeal.S128)
    (hb : ∀ q : Fin 128, V c main_v19 (ix2 (n0 := 1) (n1 := 128) (0 : Fin 1) q) = b (ix1 q)) (t : Fin cfg0.N) :
    (dat0 V c).flushed 5 t = ((cfg0.win 5).blk t).view.read (Elt Ideal) (Spec.reluG (Spec.denseG1 (V c main_v18) (V c main_arg1) (V c main_arg2) b (V c main_arg4))) := by
  show (cfg0.win 5).cut (grid0.coords t) ((dat0 V c).after 5 t) = _
  rw [after0_5]
  unfold out0_5
  rw [View.canon_unit_zero origin]
  simp only [View.ld_unit_zero (S := S2000x64) origin, View.ld_unit_zero (S := S64x128) origin,
    View.ld_unit_zero (S := S2000x32) origin, View.ld_unit_zero (S := S32x128) origin,
    View.ld_unit_zero (S := S1x128) origin]
  rw [wl_block V c t, wr_block V c t]
  obtain ⟨e00, e01, e10, e11, -, -, e30, e31, -, -, e51⟩ := index_maps t
  funext y
  refine Cert.Sage.pay0_apply (iblk0 V c 0 t) (V c main_arg2) (iblk0 V c 1 t) (V c main_arg4) (iblk0 V c 3 t)
    (V c main_v18) (V c main_arg1) b y (((cfg0.win 5).blk t).view.emb y) ?_ ?_ ?_ ?_
  · show (y 1).val = win0_5.index t (1 : Fin 2) * 128 + 1 * (y 1).val
    omega
  · intro k
    show V c main_v18 (((cfg0.win 0).blk t).view.emb (ix2 (y 0) k)) = V c main_v18 (ix2 ((((cfg0.win 5).blk t).view.emb y) 0) k)
    refine congrArg (V c main_v18) (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 64 + 1 * k.val = k.val; omega
  · intro k
    show V c main_arg1 (((cfg0.win 1).blk t).view.emb (ix2 (y 0) k)) = V c main_arg1 (ix2 ((((cfg0.win 5).blk t).view.emb y) 0) k)
    refine congrArg (V c main_arg1) (funext fun a => Fin.ext ?_)
    match a with
    | ⟨0, _⟩ => show win0_1.index t (0 : Fin 2) * 2000 + 1 * (y 0).val = win0_5.index t (0 : Fin 2) * 2000 + 1 * (y 0).val; omega
    | ⟨1, _⟩ => show win0_1.index t (1 : Fin 2) * 32 + 1 * k.val = k.val; omega
  · have hq : ((((cfg0.win 5).blk t).view.emb y) 1 : Fin 128) = y 1 := Fin.ext (by
      show win0_5.index t (1 : Fin 2) * 128 + 1 * (y 1).val = (y 1).val
      omega)
    rw [hq, ← hb (y 1)]
    show V c main_v19 (((cfg0.win 3).blk t).view.emb (ix2 (0 : Fin 1) (y 1))) = V c main_v19 (ix2 (0 : Fin 1) (y 1))
    refine congrArg (V c main_v19) (funext fun a => Fin.ext ?_)
    match a with
    | ⟨0, _⟩ => show win0_3.index t (0 : Fin 2) * 1 + 1 * 0 = 0; omega
    | ⟨1, _⟩ => show win0_3.index t (1 : Fin 2) * 128 + 1 * (y 1).val = (y 1).val; omega

/-- An index of the result array is in point `t`'s block iff each coordinate is in the block's range on its axis. -/
theorem mem_block (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- The blocks tile the array: row `r` is in the block of the point whose row block is `r / 2000`. -/
theorem covered (i : S20000x128.Idx) : ∃ t : Fin cfg0.N, (cfg0.win 5).flush t = true ∧ i ∈ ((cfg0.win 5).blk t).view.set := by
  have hi0 : (i 0).val < 20000 := (i 0).isLt
  have hi1 : (i 1).val < 128 := (i 1).isLt
  obtain ⟨t, ht⟩ := row_block_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after the region: the layer over all rows, of the arrays the region finds. -/
theorem result (c : Dev nD) (b : Spec.FA Cert.ReferenceIdeal.S128)
    (hb : ∀ q : Fin 128, V c main_v19 (ix2 (n0 := 1) (n1 := 128) (0 : Fin 1) q) = b (ix1 q)) :
    (dat0 V c).arrAt 5 cfg0.N = Spec.reluG (Spec.denseG1 (V c main_v18) (V c main_arg1) (V c main_arg2) b (V c main_arg4)) :=
  (dat0 V c).arrAt_eq_of_cover 5 _ (fun t _ => flushed V c b hb t) (covered)

end Cert.KernelIdeal.Region0

end
-- ==== Proof.Region1.lean ====
/-
  Region 1: the users' layer-1 update, as one array.

  The region's grid has 50 points; point `t` holds rows `2000·t … 2000·t + 1999` of the mean array and of the
  destination rows, the two weight matrices and the bias row whole, and writes back rows `2000·t … 2000·t + 1999` of
  the result.  What it writes back is that block of the reference's spelling of the layer over all 100000 rows
  (entry by entry: the payload lemma), and the 50 blocks tile the array, so the result array after the region IS the
  reference's spelling of the layer, applied to the arrays the region finds.
-/
import proofs.«145621_j51891794870357_1_alg».proof.Proof.Payloads
import proofs.«145621_j51891794870357_1_alg».proof.Proof.Gen.KernelIdeal.Frame
import proofs.«145621_j51891794870357_1_alg».proof.Proof.Gen.ReferenceIdeal
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output's row block, the weights and the
    bias row stay at the origin, and the output's block index is a row block below 50. -/
theorem index_maps : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every row block is some grid point's. -/
theorem row_block_onto : ∀ q0 : Fin 50, ∃ t : Fin cfg1.N, win1_5.index t = ![q0.val, 0] :=
  (by decide +kernel : ∀ q0 : Fin 50, ∃ t : Fin grid1.N, win1_5.index t = ![q0.val, 0])

/-- The weight matrices' blocks are the matrices. -/
theorem wl_block (c : Dev nD) (t : Fin cfg1.N) : iblk1 V c 2 t = V c main_arg5 := by
  obtain ⟨-, -, -, -, e20, e21, -⟩ := index_maps t
  funext z
  show V c main_arg5 (((cfg1.win 2).blk t).view.emb z) = V c main_arg5 z
  refine congrArg (V c main_arg5) (funext fun a => Fin.ext ?_)
  match a with
  | ⟨0, _⟩ => show win1_2.index t (0 : Fin 2) * 32 + 1 * (z 0).val = (z 0).val; omega
  | ⟨1, _⟩ => show win1_2.index t (1 : Fin 2) * 128 + 1 * (z 1).val = (z 1).val; omega

theorem wr_block (c : Dev nD) (t : Fin cfg1.N) : iblk1 V c 4 t = V c main_arg7 := by
  obtain ⟨-, -, -, -, -, -, -, -, e40, e41, -⟩ := index_maps t
  funext z
  show V c main_arg7 (((cfg1.win 4).blk t).view.emb z) = V c main_arg7 z
  refine congrArg (V c main_arg7) (funext fun a => Fin.ext ?_)
  match a with
  | ⟨0, _⟩ => show win1_4.index t (0 : Fin 2) * 64 + 1 * (z 0).val = (z 0).val; omega
  | ⟨1, _⟩ => show win1_4.index t (1 : Fin 2) * 128 + 1 * (z 1).val = (z 1).val; omega

/-- What grid point `t` writes back is block `t` of the layer over all rows, of the arrays the region finds. -/
theorem flushed (c : Dev nD) (b : Spec.FA Cert.ReferenceIdeal.S128)
    (hb : ∀ q : Fin 128, V c main_v40 (ix2 (n0 := 1) (n1 := 128) (0 : Fin 1) q) = b (ix1 q)) (t : Fin cfg1.N) :
    (dat1 V c).flushed 5 t = ((cfg1.win 5).blk t).view.read (Elt Ideal) (Spec.reluU (Spec.denseU1 (V c main_v39) (V c main_arg0) (V c main_arg5) b (V c main_arg7))) := by
  show (cfg1.win 5).cut (grid1.coords t) ((dat1 V c).after 5 t) = _
  rw [after1_5]
  unfold out1_5
  rw [View.canon_unit_zero origin]
  simp only [View.ld_unit_zero (S := S2000x32) origin, View.ld_unit_zero (S := S32x128) origin,
    View.ld_unit_zero (S := S2000x64) origin, View.ld_unit_zero (S := S64x128) origin,
    View.ld_unit_zero (S := S1x128) origin]
  rw [wl_block V c t, wr_block V c t]
  obtain ⟨e00, e01, e10, e11, -, -, e30, e31, -, -, e51⟩ := index_maps t
  funext y
  refine Cert.Sage.pay1_apply (iblk1 V c 0 t) (V c main_arg5) (iblk1 V c 1 t) (V c main_arg7) (iblk1 V c 3 t)
    (V c main_v39) (V c main_arg0) b y (((cfg1.win 5).blk t).view.emb y) ?_ ?_ ?_ ?_
  · show (y 1).val = win1_5.index t (1 : Fin 2) * 128 + 1 * (y 1).val
    omega
  · intro k
    show V c main_v39 (((cfg1.win 0).blk t).view.emb (ix2 (y 0) k)) = V c main_v39 (ix2 ((((cfg1.win 5).blk t).view.emb y) 0) k)
    refine congrArg (V c main_v39) (funext fun a => Fin.ext ?_)
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 32 + 1 * k.val = k.val; omega
  · intro k
    show V c main_arg0 (((cfg1.win 1).blk t).view.emb (ix2 (y 0) k)) = V c main_arg0 (ix2 ((((cfg1.win 5).blk t).view.emb y) 0) k)
    refine congrArg (V c main_arg0) (funext fun a => Fin.ext ?_)
    match a with
    | ⟨0, _⟩ => show win1_1.index t (0 : Fin 2) * 2000 + 1 * (y 0).val = win1_5.index t (0 : Fin 2) * 2000 + 1 * (y 0).val; omega
    | ⟨1, _⟩ => show win1_1.index t (1 : Fin 2) * 64 + 1 * k.val = k.val; omega
  · have hq : ((((cfg1.win 5).blk t).view.emb y) 1 : Fin 128) = y 1 := Fin.ext (by
      show win1_5.index t (1 : Fin 2) * 128 + 1 * (y 1).val = (y 1).val
      omega)
    rw [hq, ← hb (y 1)]
    show V c main_v40 (((cfg1.win 3).blk t).view.emb (ix2 (0 : Fin 1) (y 1))) = V c main_v40 (ix2 (0 : Fin 1) (y 1))
    refine congrArg (V c main_v40) (funext fun a => Fin.ext ?_)
    match a with
    | ⟨0, _⟩ => show win1_3.index t (0 : Fin 2) * 1 + 1 * 0 = 0; omega
    | ⟨1, _⟩ => show win1_3.index t (1 : Fin 2) * 128 + 1 * (y 1).val = (y 1).val; omega

/-- An index of the result array is in point `t`'s block iff each coordinate is in the block's range on its axis. -/
theorem mem_block (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- The blocks tile the array: row `r` is in the block of the point whose row block is `r / 2000`. -/
theorem covered (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := row_block_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE RESULT ARRAY after the region: the layer over all rows, of the arrays the region finds. -/
theorem result (c : Dev nD) (b : Spec.FA Cert.ReferenceIdeal.S128)
    (hb : ∀ q : Fin 128, V c main_v40 (ix2 (n0 := 1) (n1 := 128) (0 : Fin 1) q) = b (ix1 q)) :
    (dat1 V c).arrAt 5 cfg1.N = Spec.reluU (Spec.denseU1 (V c main_v39) (V c main_arg0) (V c main_arg5) b (V c main_arg7)) :=
  (dat1 V c).arrAt_eq_of_cover 5 _ (fun t _ => flushed V c b hb t) (covered)

end Cert.KernelIdeal.Region1

end
-- ==== Proof.Region2.lean ====
/-
  Region 2: the games' layer-2 update, as one array.

  The region's grid has 10 points; point `t` holds rows `2000·t … 2000·t + 1999` of the mean array and of the
  destination rows, the two weight matrices and the bias row whole, and writes back rows `2000·t … 2000·t + 1999` of
  the result.  What it writes back is that block of the reference's spelling of the layer over all 20000 rows
  (entry by entry: the payload lemma), and the 10 blocks tile the array, so the result array after the region IS the
  reference's spelling of the layer, applied to the arrays the region finds.
-/
import proofs.«145621_j51891794870357_1_alg».proof.Proof.Payloads
import proofs.«145621_j51891794870357_1_alg».proof.Proof.Gen.KernelIdeal.Frame
import proofs.«145621_j51891794870357_1_alg».proof.Proof.Gen.ReferenceIdeal
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output's row block, the weights and the
    bias row stay at the origin, and the output's block index is a row block below 10. -/
theorem index_maps : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 :=
  (by decide +kernel : ∀ t : Fin grid2.N, _)

/-- Every row block is some grid point's. -/
theorem row_block_onto : ∀ q0 : Fin 10, ∃ t : Fin cfg2.N, win2_5.index t = ![q0.val, 0] :=
  (by decide +kernel : ∀ q0 : Fin 10, ∃ t : Fin grid2.N, win2_5.index t = ![q0.val, 0])

/-- The weight matrices' blocks are the matrices. -/
theorem wl_block (c : Dev nD) (t : Fin cfg2.N) : iblk2 V c 2 t = V c main_arg8 := by
  obtain ⟨-, -, -, -, e20, e21, -⟩ := index_maps t
  funext z
  show V c main_arg8 (((cfg2.win 2).blk t).view.emb z) = V c main_arg8 z
  refine congrArg (V c main_arg8) (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

theorem wr_block (c : Dev nD) (t : Fin cfg2.N) : iblk2 V c 4 t = V c main_arg10 := by
  obtain ⟨-, -, -, -, -, -, -, -, e40, e41, -⟩ := index_maps t
  funext z
  show V c main_arg10 (((cfg2.win 4).blk t).view.emb z) = V c main_arg10 z
  refine congrArg (V c main_arg10) (funext fun a => Fin.ext ?_)
  match a with
  | ⟨0, _⟩ => show win2_4.index t (0 : Fin 2) * 128 + 1 * (z 0).val = (z 0).val; omega
  | ⟨1, _⟩ => show win2_4.index t (1 : Fin 2) * 128 + 1 * (z 1).val = (z 1).val; omega

/-- What grid point `t` writes back is block `t` of the layer over all rows, of the arrays the region finds. -/
theorem flushed (c : Dev nD) (b : Spec.FA Cert.ReferenceIdeal.S128)
    (hb : ∀ q : Fin 128, V c main_v61 (ix2 (n0 := 1) (n1 := 128) (0 : Fin 1) q) = b (ix1 q)) (t : Fin cfg2.N) :
    (dat2 V c).flushed 5 t = ((cfg2.win 5).blk t).view.read (Elt Ideal) (Spec.reluG (Spec.denseG (V c main_v60) (V c main_v20) (V c main_arg8) b (V c main_arg10))) := by
  show (cfg2.win 5).cut (grid2.coords t) ((dat2 V c).after 5 t) = _
  rw [after2_5]
  unfold out2_5
  rw [View.canon_unit_zero origin]
  simp only [View.ld_unit_zero (S := S2000x128) origin, View.ld_unit_zero (S := S128x128) origin,
    View.ld_unit_zero (S := S2000x128) origin, View.ld_unit_zero (S := S128x128) origin,
    View.ld_unit_zero (S := S1x128) origin]
  rw [wl_block V c t, wr_block V c t]
  obtain ⟨e00, e01, e10, e11, -, -, e30, e31, -, -, e51⟩ := index_maps t
  funext y
  refine Cert.Sage.pay2_apply (iblk2 V c 0 t) (V c main_arg8) (iblk2 V c 1 t) (V c main_arg10) (iblk2 V c 3 t)
    (V c main_v60) (V c main_v20) b y (((cfg2.win 5).blk t).view.emb y) ?_ ?_ ?_ ?_
  · show (y 1).val = win2_5.index t (1 : Fin 2) * 128 + 1 * (y 1).val
    omega
  · intro k
    show V c main_v60 (((cfg2.win 0).blk t).view.emb (ix2 (y 0) k)) = V c main_v60 (ix2 ((((cfg2.win 5).blk t).view.emb y) 0) k)
    refine congrArg (V c main_v60) (funext fun a => Fin.ext ?_)
    match a with
    | ⟨0, _⟩ => show win2_0.index t (0 : Fin 2) * 2000 + 1 * (y 0).val = win2_5.index t (0 : Fin 2) * 2000 + 1 * (y 0).val; omega
    | ⟨1, _⟩ => show win2_0.index t (1 : Fin 2) * 128 + 1 * k.val = k.val; omega
  · intro k
    show V c main_v20 (((cfg2.win 1).blk t).view.emb (ix2 (y 0) k)) = V c main_v20 (ix2 ((((cfg2.win 5).blk t).view.emb y) 0) k)
    refine congrArg (V c main_v20) (funext fun a => Fin.ext ?_)
    match a with
    | ⟨0, _⟩ => show win2_1.index t (0 : Fin 2) * 2000 + 1 * (y 0).val = win2_5.index t (0 : Fin 2) * 2000 + 1 * (y 0).val; omega
    | ⟨1, _⟩ => show win2_1.index t (1 : Fin 2) * 128 + 1 * k.val = k.val; omega
  · have hq : ((((cfg2.win 5).blk t).view.emb y) 1 : Fin 128) = y 1 := Fin.ext (by
      show win2_5.index t (1 : Fin 2) * 128 + 1 * (y 1).val = (y 1).val
      omega)
    rw [hq, ← hb (y 1)]
    show V c main_v61 (((cfg2.win 3).blk t).view.emb (ix2 (0 : Fin 1) (y 1))) = V c main_v61 (ix2 (0 : Fin 1) (y 1))
    refine congrArg (V c main_v61) (funext fun a => Fin.ext ?_)
    match a with
    | ⟨0, _⟩ => show win2_3.index t (0 : Fin 2) * 1 + 1 * 0 = 0; omega
    | ⟨1, _⟩ => show win2_3.index t (1 : Fin 2) * 128 + 1 * (y 1).val = (y 1).val; omega

/-- An index of the result array is in point `t`'s block iff each coordinate is in the block's range on its axis. -/
theorem mem_block (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v62).slice (win2_5.rect t)).set ↔ _
  rw [View.set_slice_whole, Rect.mem_set_unit]
  exact Iff.rfl

/-- The blocks tile the array: row `r` is in the block of the point whose row block is `r / 2000`. -/
theorem covered (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  obtain ⟨t, ht⟩ := row_block_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE RESULT ARRAY after the region: the layer over all rows, of the arrays the region finds. -/
theorem result (c : Dev nD) (b : Spec.FA Cert.ReferenceIdeal.S128)
    (hb : ∀ q : Fin 128, V c main_v61 (ix2 (n0 := 1) (n1 := 128) (0 : Fin 1) q) = b (ix1 q)) :
    (dat2 V c).arrAt 5 cfg2.N = Spec.reluG (Spec.denseG (V c main_v60) (V c main_v20) (V c main_arg8) b (V c main_arg10)) :=
  (dat2 V c).arrAt_eq_of_cover 5 _ (fun t _ => flushed V c b hb t) (covered)

end Cert.KernelIdeal.Region2

end
-- ==== Proof.Region3.lean ====
/-
  Region 3: the users' layer-2 update, as one array.

  The region's grid has 50 points; point `t` holds rows `2000·t … 2000·t + 1999` of the mean array and of the
  destination rows, the two weight matrices and the bias row whole, and writes back rows `2000·t … 2000·t + 1999` of
  the result.  What it writes back is that block of the reference's spelling of the layer over all 100000 rows
  (entry by entry: the payload lemma), and the 50 blocks tile the array, so the result array after the region IS the
  reference's spelling of the layer, applied to the arrays the region finds.
-/
import proofs.«145621_j51891794870357_1_alg».proof.Proof.Payloads
import proofs.«145621_j51891794870357_1_alg».proof.Proof.Gen.KernelIdeal.Frame
import proofs.«145621_j51891794870357_1_alg».proof.Proof.Gen.ReferenceIdeal
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output's row block, the weights and the
    bias row stay at the origin, and the output's block index is a row block below 50. -/
theorem index_maps : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 :=
  (by decide +kernel : ∀ t : Fin grid3.N, _)

/-- Every row block is some grid point's. -/
theorem row_block_onto : ∀ q0 : Fin 50, ∃ t : Fin cfg3.N, win3_5.index t = ![q0.val, 0] :=
  (by decide +kernel : ∀ q0 : Fin 50, ∃ t : Fin grid3.N, win3_5.index t = ![q0.val, 0])

/-- The weight matrices' blocks are the matrices. -/
theorem wl_block (c : Dev nD) (t : Fin cfg3.N) : iblk3 V c 2 t = V c main_arg11 := by
  obtain ⟨-, -, -, -, e20, e21, -⟩ := index_maps t
  funext z
  show V c main_arg11 (((cfg3.win 2).blk t).view.emb z) = V c main_arg11 z
  refine congrArg (V c main_arg11) (funext fun a => Fin.ext ?_)
  match a with
  | ⟨0, _⟩ => show win3_2.index t (0 : Fin 2) * 128 + 1 * (z 0).val = (z 0).val; omega
  | ⟨1, _⟩ => show win3_2.index t (1 : Fin 2) * 128 + 1 * (z 1).val = (z 1).val; omega

theorem wr_block (c : Dev nD) (t : Fin cfg3.N) : iblk3 V c 4 t = V c main_arg13 := by
  obtain ⟨-, -, -, -, -, -, -, -, e40, e41, -⟩ := index_maps t
  funext z
  show V c main_arg13 (((cfg3.win 4).blk t).view.emb z) = V c main_arg13 z
  refine congrArg (V c main_arg13) (funext fun a => Fin.ext ?_)
  match a with
  | ⟨0, _⟩ => show win3_4.index t (0 : Fin 2) * 128 + 1 * (z 0).val = (z 0).val; omega
  | ⟨1, _⟩ => show win3_4.index t (1 : Fin 2) * 128 + 1 * (z 1).val = (z 1).val; omega

/-- What grid point `t` writes back is block `t` of the layer over all rows, of the arrays the region finds. -/
theorem flushed (c : Dev nD) (b : Spec.FA Cert.ReferenceIdeal.S128)
    (hb : ∀ q : Fin 128, V c main_v82 (ix2 (n0 := 1) (n1 := 128) (0 : Fin 1) q) = b (ix1 q)) (t : Fin cfg3.N) :
    (dat3 V c).flushed 5 t = ((cfg3.win 5).blk t).view.read (Elt Ideal) (Spec.reluU (Spec.denseU (V c main_v81) (V c main_v41) (V c main_arg11) b (V c main_arg13))) := by
  show (cfg3.win 5).cut (grid3.coords t) ((dat3 V c).after 5 t) = _
  rw [after3_5]
  unfold out3_5
  rw [View.canon_unit_zero origin]
  simp only [View.ld_unit_zero (S := S2000x128) origin, View.ld_unit_zero (S := S128x128) origin,
    View.ld_unit_zero (S := S2000x128) origin, View.ld_unit_zero (S := S128x128) origin,
    View.ld_unit_zero (S := S1x128) origin]
  rw [wl_block V c t, wr_block V c t]
  obtain ⟨e00, e01, e10, e11, -, -, e30, e31, -, -, e51⟩ := index_maps t
  funext y
  refine Cert.Sage.pay3_apply (iblk3 V c 0 t) (V c main_arg11) (iblk3 V c 1 t) (V c main_arg13) (iblk3 V c 3 t)
    (V c main_v81) (V c main_v41) b y (((cfg3.win 5).blk t).view.emb y) ?_ ?_ ?_ ?_
  · show (y 1).val = win3_5.index t (1 : Fin 2) * 128 + 1 * (y 1).val
    omega
  · intro k
    show V c main_v81 (((cfg3.win 0).blk t).view.emb (ix2 (y 0) k)) = V c main_v81 (ix2 ((((cfg3.win 5).blk t).view.emb y) 0) k)
    refine congrArg (V c main_v81) (funext fun a => Fin.ext ?_)
    match a with
    | ⟨0, _⟩ => show win3_0.index t (0 : Fin 2) * 2000 + 1 * (y 0).val = win3_5.index t (0 : Fin 2) * 2000 + 1 * (y 0).val; omega
    | ⟨1, _⟩ => show win3_0.index t (1 : Fin 2) * 128 + 1 * k.val = k.val; omega
  · intro k
    show V c main_v41 (((cfg3.win 1).blk t).view.emb (ix2 (y 0) k)) = V c main_v41 (ix2 ((((cfg3.win 5).blk t).view.emb y) 0) k)
    refine congrArg (V c main_v41) (funext fun a => Fin.ext ?_)
    match a with
    | ⟨0, _⟩ => show win3_1.index t (0 : Fin 2) * 2000 + 1 * (y 0).val = win3_5.index t (0 : Fin 2) * 2000 + 1 * (y 0).val; omega
    | ⟨1, _⟩ => show win3_1.index t (1 : Fin 2) * 128 + 1 * k.val = k.val; omega
  · have hq : ((((cfg3.win 5).blk t).view.emb y) 1 : Fin 128) = y 1 := Fin.ext (by
      show win3_5.index t (1 : Fin 2) * 128 + 1 * (y 1).val = (y 1).val
      omega)
    rw [hq, ← hb (y 1)]
    show V c main_v82 (((cfg3.win 3).blk t).view.emb (ix2 (0 : Fin 1) (y 1))) = V c main_v82 (ix2 (0 : Fin 1) (y 1))
    refine congrArg (V c main_v82) (funext fun a => Fin.ext ?_)
    match a with
    | ⟨0, _⟩ => show win3_3.index t (0 : Fin 2) * 1 + 1 * 0 = 0; omega
    | ⟨1, _⟩ => show win3_3.index t (1 : Fin 2) * 128 + 1 * (y 1).val = (y 1).val; omega

/-- An index of the result array is in point `t`'s block iff each coordinate is in the block's range on its axis. -/
theorem mem_block (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v83).slice (win3_5.rect t)).set ↔ _
  rw [View.set_slice_whole, Rect.mem_set_unit]
  exact Iff.rfl

/-- The blocks tile the array: row `r` is in the block of the point whose row block is `r / 2000`. -/
theorem covered (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := row_block_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_block]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- THE RESULT ARRAY after the region: the layer over all rows, of the arrays the region finds. -/
theorem result (c : Dev nD) (b : Spec.FA Cert.ReferenceIdeal.S128)
    (hb : ∀ q : Fin 128, V c main_v82 (ix2 (n0 := 1) (n1 := 128) (0 : Fin 1) q) = b (ix1 q)) :
    (dat3 V c).arrAt 5 cfg3.N = Spec.reluU (Spec.denseU (V c main_v81) (V c main_v41) (V c main_arg11) b (V c main_arg13)) :=
  (dat3 V c).arrAt_eq_of_cover 5 _ (fun t _ => flushed V c b hb t) (covered)

end Cert.KernelIdeal.Region3

end
-- ==== Proof.Region4.lean ====
/-
  Region 4: the games' layer-3 update (no maximum with zero), as one array.

  The region's grid has 10 points; point `t` holds rows `2000·t … 2000·t + 1999` of the mean array and of the
  destination rows, the two weight matrices and the bias row whole, and writes back rows `2000·t … 2000·t + 1999` of
  the result.  What it writes back is that block of the reference's spelling of the layer over all 20000 rows
  (entry by entry: the payload lemma), and the 10 blocks tile the array, so the result array after the region IS the
  reference's spelling of the layer, applied to the arrays the region finds.
-/
import proofs.«145621_j51891794870357_1_alg».proof.Proof.Payloads
import proofs.«145621_j51891794870357_1_alg».proof.Proof.Gen.KernelIdeal.Frame
import proofs.«145621_j51891794870357_1_alg».proof.Proof.Gen.ReferenceIdeal
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output's row block, the weights and the
    bias row stay at the origin, and the output's block index is a row block below 10. -/
theorem index_maps : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 :=
  (by decide +kernel : ∀ t : Fin grid4.N, _)

/-- Every row block is some grid point's. -/
theorem row_block_onto : ∀ q0 : Fin 10, ∃ t : Fin cfg4.N, win4_5.index t = ![q0.val, 0] :=
  (by decide +kernel : ∀ q0 : Fin 10, ∃ t : Fin grid4.N, win4_5.index t = ![q0.val, 0])

/-- The weight matrices' blocks are the matrices. -/
theorem wl_block (c : Dev nD) (t : Fin cfg4.N) : iblk4 V c 2 t = V c main_arg14 := by
  obtain ⟨-, -, -, -, e20, e21, -⟩ := index_maps t
  funext z
  show V c main_arg14 (((cfg4.win 2).blk t).view.emb z) = V c main_arg14 z
  refine congrArg (V c main_arg14) (funext fun a => Fin.ext ?_)
  match a with
  | ⟨0, _⟩ => show win4_2.index t (0 : Fin 2) * 128 + 1 * (z 0).val = (z 0).val; omega
  | ⟨1, _⟩ => show win4_2.index t (1 : Fin 2) * 128 + 1 * (z 1).val = (z 1).val; omega

theorem wr_block (c : Dev nD) (t : Fin cfg4.N) : iblk4 V c 4 t = V c main_arg16 := by
  obtain ⟨-, -, -, -, -, -, -, -, e40, e41, -⟩ := index_maps t
  funext z
  show V c main_arg16 (((cfg4.win 4).blk t).view.emb z) = V c main_arg16 z
  refine congrArg (V c main_arg16) (funext fun a => Fin.ext ?_)
  match a with
  | ⟨0, _⟩ => show win4_4.index t (0 : Fin 2) * 128 + 1 * (z 0).val = (z 0).val; omega
  | ⟨1, _⟩ => show win4_4.index t (1 : Fin 2) * 128 + 1 * (z 1).val = (z 1).val; omega

/-- What grid point `t` writes back is block `t` of the layer over all rows, of the arrays the region finds. -/
theorem flushed (c : Dev nD) (b : Spec.FA Cert.ReferenceIdeal.S128)
    (hb : ∀ q : Fin 128, V c main_v103 (ix2 (n0 := 1) (n1 := 128) (0 : Fin 1) q) = b (ix1 q)) (t : Fin cfg4.N) :
    (dat4 V c).flushed 5 t = ((cfg4.win 5).blk t).view.read (Elt Ideal) (Spec.denseG (V c main_v102) (V c main_v62) (V c main_arg14) b (V c main_arg16)) := by
  show (cfg4.win 5).cut (grid4.coords t) ((dat4 V c).after 5 t) = _
  rw [after4_5]
  unfold out4_5
  rw [View.canon_unit_zero origin]
  simp only [View.ld_unit_zero (S := S2000x128) origin, View.ld_unit_zero (S := S128x128) origin,
    View.ld_unit_zero (S := S2000x128) origin, View.ld_unit_zero (S := S128x128) origin,
    View.ld_unit_zero (S := S1x128) origin]
  rw [wl_block V c t, wr_block V c t]
  obtain ⟨e00, e01, e10, e11, -, -, e30, e31, -, -, e51⟩ := index_maps t
  funext y
  refine Cert.Sage.pay4_apply (iblk4 V c 0 t) (V c main_arg14) (iblk4 V c 1 t) (V c main_arg16) (iblk4 V c 3 t)
    (V c main_v102) (V c main_v62) b y (((cfg4.win 5).blk t).view.emb y) ?_ ?_ ?_ ?_
  · show (y 1).val = win4_5.index t (1 : Fin 2) * 128 + 1 * (y 1).val
    omega
  · intro k
    show V c main_v102 (((cfg4.win 0).blk t).view.emb (ix2 (y 0) k)) = V c main_v102 (ix2 ((((cfg4.win 5).blk t).view.emb y) 0) k)
    refine congrArg (V c main_v102) (funext fun a => Fin.ext ?_)
    match a with
    | ⟨0, _⟩ => show win4_0.index t (0 : Fin 2) * 2000 + 1 * (y 0).val = win4_5.index t (0 : Fin 2) * 2000 + 1 * (y 0).val; omega
    | ⟨1, _⟩ => show win4_0.index t (1 : Fin 2) * 128 + 1 * k.val = k.val; omega
  · intro k
    show V c main_v62 (((cfg4.win 1).blk t).view.emb (ix2 (y 0) k)) = V c main_v62 (ix2 ((((cfg4.win 5).blk t).view.emb y) 0) k)
    refine congrArg (V c main_v62) (funext fun a => Fin.ext ?_)
    match a with
    | ⟨0, _⟩ => show win4_1.index t (0 : Fin 2) * 2000 + 1 * (y 0).val = win4_5.index t (0 : Fin 2) * 2000 + 1 * (y 0).val; omega
    | ⟨1, _⟩ => show win4_1.index t (1 : Fin 2) * 128 + 1 * k.val = k.val; omega
  · have hq : ((((cfg4.win 5).blk t).view.emb y) 1 : Fin 128) = y 1 := Fin.ext (by
      show win4_5.index t (1 : Fin 2) * 128 + 1 * (y 1).val = (y 1).val
      omega)
    rw [hq, ← hb (y 1)]
    show V c main_v103 (((cfg4.win 3).blk t).view.emb (ix2 (0 : Fin 1) (y 1))) = V c main_v103 (ix2 (0 : Fin 1) (y 1))
    refine congrArg (V c main_v103) (funext fun a => Fin.ext ?_)
    match a with
    | ⟨0, _⟩ => show win4_3.index t (0 : Fin 2) * 1 + 1 * 0 = 0; omega
    | ⟨1, _⟩ => show win4_3.index t (1 : Fin 2) * 128 + 1 * (y 1).val = (y 1).val; omega

/-- An index of the result array is in point `t`'s block iff each coordinate is in the block's range on its axis. -/
theorem mem_block (t : Fin cfg4.N) (i : S20000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v104).slice (win4_5.rect t)).set ↔ _
  rw [View.set_slice_whole, Rect.mem_set_unit]
  exact Iff.rfl

/-- The blocks tile the array: row `r` is in the block of the point whose row block is `r / 2000`. -/
theorem covered (i : S20000x128.Idx) : ∃ t : Fin cfg4.N, (cfg4.win 5).flush t = true ∧ i ∈ ((cfg4.win 5).blk t).view.set := by
  have hi0 : (i 0).val < 20000 := (i 0).isLt
  have hi1 : (i 1).val < 128 := (i 1).isLt
  obtain ⟨t, ht⟩ := row_block_onto ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_block]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- THE RESULT ARRAY after the region: the layer over all rows, of the arrays the region finds. -/
theorem result (c : Dev nD) (b : Spec.FA Cert.ReferenceIdeal.S128)
    (hb : ∀ q : Fin 128, V c main_v103 (ix2 (n0 := 1) (n1 := 128) (0 : Fin 1) q) = b (ix1 q)) :
    (dat4 V c).arrAt 5 cfg4.N = Spec.denseG (V c main_v102) (V c main_v62) (V c main_arg14) b (V c main_arg16) :=
  (dat4 V c).arrAt_eq_of_cover 5 _ (fun t _ => flushed V c b hb t) (covered)

end Cert.KernelIdeal.Region4

end
-- ==== Proof.Region5.lean ====
/-
  Region 5: the users' layer-3 update (no maximum with zero), as one array.

  The region's grid has 50 points; point `t` holds rows `2000·t … 2000·t + 1999` of the mean array and of the
  destination rows, the two weight matrices and the bias row whole, and writes back rows `2000·t … 2000·t + 1999` of
  the result.  What it writes back is that block of the reference's spelling of the layer over all 100000 rows
  (entry by entry: the payload lemma), and the 50 blocks tile the array, so the result array after the region IS the
  reference's spelling of the layer, applied to the arrays the region finds.
-/
import proofs.«145621_j51891794870357_1_alg».proof.Proof.Payloads
import proofs.«145621_j51891794870357_1_alg».proof.Proof.Gen.KernelIdeal.Frame
import proofs.«145621_j51891794870357_1_alg».proof.Proof.Gen.ReferenceIdeal
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output's row block, the weights and the
    bias row stay at the origin, and the output's block index is a row block below 50. -/
theorem index_maps : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0 :=
  (by decide +kernel : ∀ t : Fin grid5.N, _)

/-- Every row block is some grid point's. -/
theorem row_block_onto : ∀ q0 : Fin 50, ∃ t : Fin cfg5.N, win5_5.index t = ![q0.val, 0] :=
  (by decide +kernel : ∀ q0 : Fin 50, ∃ t : Fin grid5.N, win5_5.index t = ![q0.val, 0])

/-- The weight matrices' blocks are the matrices. -/
theorem wl_block (c : Dev nD) (t : Fin cfg5.N) : iblk5 V c 2 t = V c main_arg17 := by
  obtain ⟨-, -, -, -, e20, e21, -⟩ := index_maps t
  funext z
  show V c main_arg17 (((cfg5.win 2).blk t).view.emb z) = V c main_arg17 z
  refine congrArg (V c main_arg17) (funext fun a => Fin.ext ?_)
  match a with
  | ⟨0, _⟩ => show win5_2.index t (0 : Fin 2) * 128 + 1 * (z 0).val = (z 0).val; omega
  | ⟨1, _⟩ => show win5_2.index t (1 : Fin 2) * 128 + 1 * (z 1).val = (z 1).val; omega

theorem wr_block (c : Dev nD) (t : Fin cfg5.N) : iblk5 V c 4 t = V c main_arg19 := by
  obtain ⟨-, -, -, -, -, -, -, -, e40, e41, -⟩ := index_maps t
  funext z
  show V c main_arg19 (((cfg5.win 4).blk t).view.emb z) = V c main_arg19 z
  refine congrArg (V c main_arg19) (funext fun a => Fin.ext ?_)
  match a with
  | ⟨0, _⟩ => show win5_4.index t (0 : Fin 2) * 128 + 1 * (z 0).val = (z 0).val; omega
  | ⟨1, _⟩ => show win5_4.index t (1 : Fin 2) * 128 + 1 * (z 1).val = (z 1).val; omega

/-- What grid point `t` writes back is block `t` of the layer over all rows, of the arrays the region finds. -/
theorem flushed (c : Dev nD) (b : Spec.FA Cert.ReferenceIdeal.S128)
    (hb : ∀ q : Fin 128, V c main_v124 (ix2 (n0 := 1) (n1 := 128) (0 : Fin 1) q) = b (ix1 q)) (t : Fin cfg5.N) :
    (dat5 V c).flushed 5 t = ((cfg5.win 5).blk t).view.read (Elt Ideal) (Spec.denseU (V c main_v123) (V c main_v83) (V c main_arg17) b (V c main_arg19)) := by
  show (cfg5.win 5).cut (grid5.coords t) ((dat5 V c).after 5 t) = _
  rw [after5_5]
  unfold out5_5
  rw [View.canon_unit_zero origin]
  simp only [View.ld_unit_zero (S := S2000x128) origin, View.ld_unit_zero (S := S128x128) origin,
    View.ld_unit_zero (S := S2000x128) origin, View.ld_unit_zero (S := S128x128) origin,
    View.ld_unit_zero (S := S1x128) origin]
  rw [wl_block V c t, wr_block V c t]
  obtain ⟨e00, e01, e10, e11, -, -, e30, e31, -, -, e51⟩ := index_maps t
  funext y
  refine Cert.Sage.pay5_apply (iblk5 V c 0 t) (V c main_arg17) (iblk5 V c 1 t) (V c main_arg19) (iblk5 V c 3 t)
    (V c main_v123) (V c main_v83) b y (((cfg5.win 5).blk t).view.emb y) ?_ ?_ ?_ ?_
  · show (y 1).val = win5_5.index t (1 : Fin 2) * 128 + 1 * (y 1).val
    omega
  · intro k
    show V c main_v123 (((cfg5.win 0).blk t).view.emb (ix2 (y 0) k)) = V c main_v123 (ix2 ((((cfg5.win 5).blk t).view.emb y) 0) k)
    refine congrArg (V c main_v123) (funext fun a => Fin.ext ?_)
    match a with
    | ⟨0, _⟩ => show win5_0.index t (0 : Fin 2) * 2000 + 1 * (y 0).val = win5_5.index t (0 : Fin 2) * 2000 + 1 * (y 0).val; omega
    | ⟨1, _⟩ => show win5_0.index t (1 : Fin 2) * 128 + 1 * k.val = k.val; omega
  · intro k
    show V c main_v83 (((cfg5.win 1).blk t).view.emb (ix2 (y 0) k)) = V c main_v83 (ix2 ((((cfg5.win 5).blk t).view.emb y) 0) k)
    refine congrArg (V c main_v83) (funext fun a => Fin.ext ?_)
    match a with
    | ⟨0, _⟩ => show win5_1.index t (0 : Fin 2) * 2000 + 1 * (y 0).val = win5_5.index t (0 : Fin 2) * 2000 + 1 * (y 0).val; omega
    | ⟨1, _⟩ => show win5_1.index t (1 : Fin 2) * 128 + 1 * k.val = k.val; omega
  · have hq : ((((cfg5.win 5).blk t).view.emb y) 1 : Fin 128) = y 1 := Fin.ext (by
      show win5_5.index t (1 : Fin 2) * 128 + 1 * (y 1).val = (y 1).val
      omega)
    rw [hq, ← hb (y 1)]
    show V c main_v124 (((cfg5.win 3).blk t).view.emb (ix2 (0 : Fin 1) (y 1))) = V c main_v124 (ix2 (0 : Fin 1) (y 1))
    refine congrArg (V c main_v124) (funext fun a => Fin.ext ?_)
    match a with
    | ⟨0, _⟩ => show win5_3.index t (0 : Fin 2) * 1 + 1 * 0 = 0; omega
    | ⟨1, _⟩ => show win5_3.index t (1 : Fin 2) * 128 + 1 * (y 1).val = (y 1).val; omega

/-- An index of the result array is in point `t`'s block iff each coordinate is in the block's range on its axis. -/
theorem mem_block (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v125).slice (win5_5.rect t)).set ↔ _
  rw [View.set_slice_whole, Rect.mem_set_unit]
  exact Iff.rfl

/-- The blocks tile the array: row `r` is in the block of the point whose row block is `r / 2000`. -/
theorem covered (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht⟩ := row_block_onto ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_block]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- THE RESULT ARRAY after the region: the layer over all rows, of the arrays the region finds. -/
theorem result (c : Dev nD) (b : Spec.FA Cert.ReferenceIdeal.S128)
    (hb : ∀ q : Fin 128, V c main_v124 (ix2 (n0 := 1) (n1 := 128) (0 : Fin 1) q) = b (ix1 q)) :
    (dat5 V c).arrAt 5 cfg5.N = Spec.denseU (V c main_v123) (V c main_v83) (V c main_arg17) b (V c main_arg19) :=
  (dat5 V c).arrAt_eq_of_cover 5 _ (fun t _ => flushed V c b hb t) (covered)

end Cert.KernelIdeal.Region5

end
-- ==== Proof.LibConcatProd.lean ====
/-
  GENERAL LEMMAS: a matrix product against a concatenation along the columns.

  If `X = [X₁ | X₂ | X₃]` is the concatenation along axis 1 of matrices with `A`, `B` and `C` columns (and the same
  `R` rows), then entry `(p, q)` of `X · W` is
      ∑ k < A, X₁ (p, k) · W (k, q)  +  ∑ k < B, X₂ (p, k) · W (A + k, q)  +  ∑ k < C, X₃ (p, k) · W (A + B + k, q):
  the sum over the `A + B + C` columns taken run by run, each column of `X` read in the piece that holds it. The same
  for two pieces. The only law used is that a finite sum over consecutive indices is the sum of the sums over its
  runs, which holds in any commutative monoid, so in the extended reals with no finiteness hypothesis.
  Imports the library and the matrix-product file only.
-/
import proofs.«145621_j51891794870357_1_alg».proof.Proof.LibMatProd
import Idealize.ShloMosaic.Lib.Pipeline.Value

noncomputable section

open scoped BigOperators

namespace Cert.Linear

open Idealize.ShloMosaic Idealize.ShloMosaic.ValueIdx

/-- A sum over `a + b + c` consecutive indices, run by run. -/
theorem sum_three_runs {M : Type} [AddCommMonoid M] (a b c : Nat) (f : Fin (a + b + c) → M) :
    ∑ k, f k = ∑ k : Fin a, f (Fin.castAdd c (Fin.castAdd b k)) + ∑ k : Fin b, f (Fin.castAdd c (Fin.natAdd a k))
      + ∑ k : Fin c, f (Fin.natAdd (a + b) k) := by
  rw [Fin.sum_univ_add, Fin.sum_univ_add]

/-- A product against three pieces joined along the columns, run by run. -/
theorem matProd_concat3 {R A B C N : Nat} (X1 : (Mat R A).Idx → EReal) (X2 : (Mat R B).Idx → EReal)
    (X3 : (Mat R C).Idx → EReal)
    (h : Shape.Concatenates [Mat R A, Mat R B, Mat R C] (Mat R (A + B + C)) 1)
    (W : (Mat (A + B + C) N).Idx → EReal) (p : Fin R) (q : Fin N) :
    matProd (concatenate (Mat R (A + B + C)) 1 [⟨Mat R A, X1⟩, ⟨Mat R B, X2⟩, ⟨Mat R C, X3⟩] h) W (ix2 p q)
      = ∑ k : Fin A, X1 (ix2 p k) * W (ix2 (Fin.castAdd C (Fin.castAdd B k)) q)
        + ∑ k : Fin B, X2 (ix2 p k) * W (ix2 (Fin.castAdd C (Fin.natAdd A k)) q)
        + ∑ k : Fin C, X3 (ix2 p k) * W (ix2 (Fin.natAdd (A + B) k) q) := by
  unfold matProd
  rw [sum_three_runs A B C]
  refine congrArg₂ (· + ·) (congrArg₂ (· + ·) ?_ ?_) ?_
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 0 (by simp) (Mat R A) X1 rfl rfl 0 rfl (ix2 p k)
      (fun b hb => by
        match b with
        | ⟨0, _⟩ => rfl
        | ⟨1, _⟩ => exact absurd rfl hb)
      (by show 0 + k.val = k.val; omega)
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 1 (by simp) (Mat R B) X2 rfl rfl A rfl (ix2 p k)
      (fun b hb => by
        match b with
        | ⟨0, _⟩ => rfl
        | ⟨1, _⟩ => exact absurd rfl hb)
      (by show A + k.val = A + k.val; rfl)
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 2 (by simp) (Mat R C) X3 rfl rfl (A + B) rfl (ix2 p k)
      (fun b hb => by
        match b with
        | ⟨0, _⟩ => rfl
        | ⟨1, _⟩ => exact absurd rfl hb)
      (by show A + B + k.val = A + B + k.val; rfl)

/-- A product against two pieces joined along the columns, run by run. -/
theorem matProd_concat2 {R A B N : Nat} (X1 : (Mat R A).Idx → EReal) (X2 : (Mat R B).Idx → EReal)
    (h : Shape.Concatenates [Mat R A, Mat R B] (Mat R (A + B)) 1)
    (W : (Mat (A + B) N).Idx → EReal) (p : Fin R) (q : Fin N) :
    matProd (concatenate (Mat R (A + B)) 1 [⟨Mat R A, X1⟩, ⟨Mat R B, X2⟩] h) W (ix2 p q)
      = ∑ k : Fin A, X1 (ix2 p k) * W (ix2 (Fin.castAdd B k) q)
        + ∑ k : Fin B, X2 (ix2 p k) * W (ix2 (Fin.natAdd A k) q) := by
  unfold matProd
  rw [Fin.sum_univ_add]
  refine congrArg₂ (· + ·) ?_ ?_
  · refine Finset.sum_congr rfl fun k _ => congrArg (· * _) ?_
    exact concatenate_apply_piece (t := Mat R (A + B)) (1 : Fin 2) [⟨Mat R A, X1⟩, ⟨Mat R B, X2⟩] h _ 0 (by simp) (Mat R A) X1 rfl rfl 0 rfl (ix2 p k)
      (fun b hb => by
        match b with
        | ⟨0, _⟩ => rfl
        | ⟨1, _⟩ => exact absurd rfl hb)
      (by show 0 + k.val = k.val; omega)
  · refine Finset.sum_congr rfl fun k _ => congrArg (· * _) ?_
    exact concatenate_apply_piece (t := Mat R (A + B)) (1 : Fin 2) [⟨Mat R A, X1⟩, ⟨Mat R B, X2⟩] h _ 1 (by simp) (Mat R B) X2 rfl rfl A rfl (ix2 p k)
      (fun b hb => by
        match b with
        | ⟨0, _⟩ => rfl
        | ⟨1, _⟩ => exact absurd rfl hb)
      (by show A + k.val = A + k.val; rfl)

end Cert.Linear

end
-- ==== Proof.DecoderBlock.lean ====
/-
  The decoder of one block of rows against the decoder of all rows.

  A block's decoder multiplies its user rows by the upper weight block and its game rows by the lower one, adds the two
  products and the bias row, takes the maximum with zero, multiplies the result by the output column and adds the output
  bias. The whole-array decoder joins the user row and the game row into one row of twice the length, multiplies it by the
  whole weight matrix, and goes on in the same way. Entry by entry the two agree: the sum over the joined row's columns is
  the sum over its first half plus the sum over its second half, and the terms of each half are the block's terms. Only
  that splitting of a finite sum is used, which holds in any commutative monoid; no finiteness hypothesis is needed.
-/
import proofs.«145621_j51891794870357_1_alg».proof.Proof.Spec
import proofs.«145621_j51891794870357_1_alg».proof.Proof.Gen.KernelIdeal.Skeleton
import proofs.«145621_j51891794870357_1_alg».proof.Proof.LibConvBlocks
import proofs.«145621_j51891794870357_1_alg».proof.Proof.LibDotLists
import proofs.«145621_j51891794870357_1_alg».proof.Proof.LibConcatProd
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Decoder

open Idealize.ShloMosaic Idealize.ShloMosaic.ValueIdx Cert.Linear

/-! ## General lemmas, for any sizes -/

/-- A vector of K entries made one row and then R rows reads, at row p and column q, the vector's entry q. -/
theorem vector_rows_apply {R K : Nat} (b : FVec Ideal (⟨1, ![K]⟩ : Shape) .f32)
    (h1 : (⟨1, ![K]⟩ : Shape).BroadcastsInDim (Mat 1 K) ![1]) (h2 : (Mat 1 K).BroadcastsInDim (Mat R K) ![0, 1])
    (p : Fin R) (q : Fin K) :
    broadcastInDim (Mat R K) ![0, 1] h2 (broadcastInDim (Mat 1 K) ![1] h1 b) (ix2 p q) = b (ix1 q) := by
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  exact e2.trans e1

/-- The hidden activation of a block at row p, column k: the two products' entries and the bias row's entry added, then
    the maximum with the zero word. -/
theorem hidden_body_apply {r A B N : Nat} {d1 : DotDims (Mat r A) (Mat A N) (Mat r N)}
    {d2 : DotDims (Mat r B) (Mat B N) (Mat r N)} (h1 : Contracts d1) (h2 : Contracts d2)
    (u : FVec Ideal (Mat r A) .f32) (g : FVec Ideal (Mat r B) .f32) (wu : FVec Ideal (Mat A N) .f32)
    (wg : FVec Ideal (Mat B N) .f32) (c1 : FVec Ideal (Mat 1 N) .f32)
    (hb : FTy.bits .bf16 < FTy.bits .f32)
    (s1 : (Mat r A).ShapeCasts (Mat r A)) (s1' : (Mat r B).ShapeCasts (Mat r B))
    (s2 : (Mat A N).ShapeCasts (Mat A N)) (s2' : (Mat B N).ShapeCasts (Mat B N))
    (s3 : (Mat 1 N).ShapeCasts (Mat 1 N)) (b3 : (Mat 1 N).Broadcasts (Mat r N)) (p : Fin r) (k : Fin N) :
    maximumf (addf (addf
          (FloatOps.matmul d1 none (truncf .bf16 (shapeCast (Mat r A) u s1) hb) (truncf .bf16 (shapeCast (Mat A N) wu s2) hb)
            (constant (F := Ideal) (Mat r N) .f32 0x00000000#32))
          (FloatOps.matmul d2 none (truncf .bf16 (shapeCast (Mat r B) g s1') hb) (truncf .bf16 (shapeCast (Mat B N) wg s2') hb)
            (constant (F := Ideal) (Mat r N) .f32 0x00000000#32)))
        (broadcastTo (Mat r N) (shapeCast (Mat 1 N) c1 s3) b3))
      (broadcast (Mat r N) (FloatOps.ofBits (F := Ideal) .f32 0x00000000#32)) (ix2 p k)
    = max ((matProd u wu (ix2 p k) + matProd g wg (ix2 p k)) + c1 (ix2 (0 : Fin 1) k)) (Ideal.ofBits .f32 0x00000000#32) := by
  simp only [shapeCast_self]
  rw [Cert.Layers.dense_body h1 u wu hb, Cert.Layers.dense_body h2 g wg hb]
  show max ((matProd u wu (ix2 p k) + matProd g wg (ix2 p k)) + broadcastTo (Mat r N) c1 b3 (ix2 p k))
      (Ideal.ofBits .f32 0x00000000#32) = _
  rw [broadcastTo_1b_ab_apply c1 b3 p k]

/-- The whole-array hidden activation at row P, column k: the joined row against the whole weight matrix, read as the
    sum over the first piece's columns plus the sum over the second piece's, the bias vector's entry added, then the
    maximum with the zero word. -/
theorem hidden_host_apply {R A B N : Nat} {D : DotDims (Mat R (A + B)) (Mat (A + B) N) (Mat R N)} (H : Contracts D)
    (sched : HostSchedule) (U : FVec Ideal (Mat R A) .f32) (G : FVec Ideal (Mat R B) .f32)
    (W : FVec Ideal (Mat (A + B) N) .f32) (b : FVec Ideal (⟨1, ![N]⟩ : Shape) .f32)
    (hc : Shape.Concatenates [Mat R A, Mat R B] (Mat R (A + B)) 1)
    (g0 : (⟨0, ![]⟩ : Shape).BroadcastsInDim (Mat R N) ![]) (g1 : (⟨1, ![N]⟩ : Shape).BroadcastsInDim (Mat 1 N) ![1])
    (g2 : (Mat 1 N).BroadcastsInDim (Mat R N) ![0, 1]) (P : Fin R) (k : Fin N) :
    maximumf (addf
        (FloatOps.dotGeneral D none sched (concatenate (Mat R (A + B)) 1 [⟨Mat R A, U⟩, ⟨Mat R B, G⟩] hc) W)
        (broadcastInDim (Mat R N) ![0, 1] g2 (broadcastInDim (Mat 1 N) ![1] g1 b)))
      (broadcastInDim (Mat R N) ![] g0 (constant (F := Ideal) (⟨0, ![]⟩ : Shape) .f32 0x00000000#32)) (ix2 P k)
    = max ((∑ a : Fin A, U (ix2 P a) * W (ix2 (Fin.castAdd B a) k) + ∑ a : Fin B, G (ix2 P a) * W (ix2 (Fin.natAdd A a) k))
        + b (ix1 k)) (Ideal.ofBits .f32 0x00000000#32) := by
  rw [Cert.Layers.relu_host_apply, dotGeneral_eq H none sched]
  show max (matProd (concatenate (Mat R (A + B)) 1 [⟨Mat R A, U⟩, ⟨Mat R B, G⟩] hc) W (ix2 P k)
      + broadcastInDim (Mat R N) ![0, 1] g2 (broadcastInDim (Mat 1 N) ![1] g1 b) (ix2 P k)) (Ideal.ofBits .f32 0x00000000#32) = _
  rw [matProd_concat2 U G hc W P k, vector_rows_apply b g1 g2 P k]

/-- The block's output at row p, column q: the hidden block against the output weights, plus the bias row's entry. -/
theorem out_body_apply {r N M : Nat} {d : DotDims (Mat r N) (Mat N M) (Mat r M)} (h : Contracts d)
    (x : FVec Ideal (Mat r N) .f32) (w : FVec Ideal (Mat N M) .f32) (c : FVec Ideal (Mat 1 M) .f32)
    (hb : FTy.bits .bf16 < FTy.bits .f32) (s4 : (Mat 1 M).ShapeCasts (Mat 1 M)) (b4 : (Mat 1 M).Broadcasts (Mat r M))
    (p : Fin r) (q : Fin M) :
    addf (FloatOps.matmul d none (truncf .bf16 x hb) (truncf .bf16 w hb) (constant (F := Ideal) (Mat r M) .f32 0x00000000#32))
        (broadcastTo (Mat r M) (shapeCast (Mat 1 M) c s4) b4) (ix2 p q)
      = matProd x w (ix2 p q) + c (ix2 (0 : Fin 1) q) := by
  rw [shapeCast_self, Cert.Layers.dense_body h x w hb]
  show matProd x w (ix2 p q) + broadcastTo (Mat r M) c b4 (ix2 p q) = _
  rw [broadcastTo_1b_ab_apply c b4 p q]

/-- The whole-array output at row P, column Q. -/
theorem out_host_apply {R N M : Nat} {D : DotDims (Mat R N) (Mat N M) (Mat R M)} (H : Contracts D) (sched : HostSchedule)
    (X : FVec Ideal (Mat R N) .f32) (w : FVec Ideal (Mat N M) .f32) (b : FVec Ideal (⟨1, ![M]⟩ : Shape) .f32)
    (g1 : (⟨1, ![M]⟩ : Shape).BroadcastsInDim (Mat 1 M) ![1]) (g2 : (Mat 1 M).BroadcastsInDim (Mat R M) ![0, 1])
    (P : Fin R) (Q : Fin M) :
    addf (FloatOps.dotGeneral D none sched X w)
        (broadcastInDim (Mat R M) ![0, 1] g2 (broadcastInDim (Mat 1 M) ![1] g1 b)) (ix2 P Q)
      = matProd X w (ix2 P Q) + b (ix1 Q) := by
  rw [dotGeneral_eq H none sched]
  show matProd X w (ix2 P Q) + broadcastInDim (Mat R M) ![0, 1] g2 (broadcastInDim (Mat 1 M) ![1] g1 b) (ix2 P Q) = _
  rw [vector_rows_apply b g1 g2 P Q]

/-- A block's decoder against the whole-array decoder, for any sizes: entry (p, q) of the block's output is entry (P, q)
    of the whole output as soon as the block's rows p are the arrays' rows P, the two weight blocks are the upper and the
    lower rows of the whole weight matrix, and the bias rows are the bias vectors. -/
theorem decoder_block {r R A B N M : Nat}
    {d1 : DotDims (Mat r A) (Mat A N) (Mat r N)} {d2 : DotDims (Mat r B) (Mat B N) (Mat r N)}
    {d3 : DotDims (Mat r N) (Mat N M) (Mat r M)}
    {D1 : DotDims (Mat R (A + B)) (Mat (A + B) N) (Mat R N)} {D3 : DotDims (Mat R N) (Mat N M) (Mat R M)}
    (h1 : Contracts d1) (h2 : Contracts d2) (h3 : Contracts d3) (H1 : Contracts D1) (H3 : Contracts D3)
    (sched sched' : HostSchedule)
    (u : FVec Ideal (Mat r A) .f32) (g : FVec Ideal (Mat r B) .f32) (wu : FVec Ideal (Mat A N) .f32)
    (wg : FVec Ideal (Mat B N) .f32) (c1 : FVec Ideal (Mat 1 N) .f32) (w2 : FVec Ideal (Mat N M) .f32)
    (c2 : FVec Ideal (Mat 1 M) .f32)
    (U : FVec Ideal (Mat R A) .f32) (G : FVec Ideal (Mat R B) .f32) (W1 : FVec Ideal (Mat (A + B) N) .f32)
    (b1 : FVec Ideal (⟨1, ![N]⟩ : Shape) .f32) (b2 : FVec Ideal (⟨1, ![M]⟩ : Shape) .f32)
    (hb : FTy.bits .bf16 < FTy.bits .f32)
    (s1 : (Mat r A).ShapeCasts (Mat r A)) (s1' : (Mat r B).ShapeCasts (Mat r B))
    (s2 : (Mat A N).ShapeCasts (Mat A N)) (s2' : (Mat B N).ShapeCasts (Mat B N))
    (s3 : (Mat 1 N).ShapeCasts (Mat 1 N)) (b3 : (Mat 1 N).Broadcasts (Mat r N))
    (s4 : (Mat 1 M).ShapeCasts (Mat 1 M)) (b4 : (Mat 1 M).Broadcasts (Mat r M))
    (hc : Shape.Concatenates [Mat R A, Mat R B] (Mat R (A + B)) 1)
    (g0 : (⟨0, ![]⟩ : Shape).BroadcastsInDim (Mat R N) ![]) (g1 : (⟨1, ![N]⟩ : Shape).BroadcastsInDim (Mat 1 N) ![1])
    (g2 : (Mat 1 N).BroadcastsInDim (Mat R N) ![0, 1])
    (g3 : (⟨1, ![M]⟩ : Shape).BroadcastsInDim (Mat 1 M) ![1]) (g4 : (Mat 1 M).BroadcastsInDim (Mat R M) ![0, 1])
    (p : Fin r) (P : Fin R) (q : Fin M)
    (hu : ∀ k : Fin A, u (ix2 p k) = U (ix2 P k)) (hg : ∀ k : Fin B, g (ix2 p k) = G (ix2 P k))
    (hwu : ∀ (k : Fin A) (n : Fin N), wu (ix2 k n) = W1 (ix2 (Fin.castAdd B k) n))
    (hwg : ∀ (k : Fin B) (n : Fin N), wg (ix2 k n) = W1 (ix2 (Fin.natAdd A k) n))
    (hc1 : ∀ n : Fin N, c1 (ix2 (0 : Fin 1) n) = b1 (ix1 n)) (hc2 : c2 (ix2 (0 : Fin 1) q) = b2 (ix1 q)) :
    addf (FloatOps.matmul d3 none
          (truncf .bf16
            (maximumf (addf (addf
                (FloatOps.matmul d1 none (truncf .bf16 (shapeCast (Mat r A) u s1) hb)
                  (truncf .bf16 (shapeCast (Mat A N) wu s2) hb) (constant (F := Ideal) (Mat r N) .f32 0x00000000#32))
                (FloatOps.matmul d2 none (truncf .bf16 (shapeCast (Mat r B) g s1') hb)
                  (truncf .bf16 (shapeCast (Mat B N) wg s2') hb) (constant (F := Ideal) (Mat r N) .f32 0x00000000#32)))
              (broadcastTo (Mat r N) (shapeCast (Mat 1 N) c1 s3) b3))
            (broadcast (Mat r N) (FloatOps.ofBits (F := Ideal) .f32 0x00000000#32))) hb)
          (truncf .bf16 w2 hb) (constant (F := Ideal) (Mat r M) .f32 0x00000000#32))
        (broadcastTo (Mat r M) (shapeCast (Mat 1 M) c2 s4) b4) (ix2 p q)
      = addf (FloatOps.dotGeneral D3 none sched'
          (maximumf (addf
              (FloatOps.dotGeneral D1 none sched (concatenate (Mat R (A + B)) 1 [⟨Mat R A, U⟩, ⟨Mat R B, G⟩] hc) W1)
              (broadcastInDim (Mat R N) ![0, 1] g2 (broadcastInDim (Mat 1 N) ![1] g1 b1)))
            (broadcastInDim (Mat R N) ![] g0 (constant (F := Ideal) (⟨0, ![]⟩ : Shape) .f32 0x00000000#32)))
          w2)
        (broadcastInDim (Mat R M) ![0, 1] g4 (broadcastInDim (Mat 1 M) ![1] g3 b2)) (ix2 P q) := by
  refine (out_body_apply h3 _ w2 c2 hb s4 b4 p q).trans ?_
  refine Eq.trans ?_ (out_host_apply H3 sched' _ w2 b2 g3 g4 P q).symm
  refine congrArg₂ (· + ·) ?_ hc2
  refine matProd_of_rows _ w2 _ w2 (ix2 p q) (ix2 P q) (fun k => ?_) (fun k => rfl)
  refine (hidden_body_apply h1 h2 u g wu wg c1 hb s1 s1' s2 s2' s3 b3 p k).trans ?_
  refine Eq.trans ?_ (hidden_host_apply H1 sched U G W1 b1 hc g0 g1 g2 P k).symm
  have e1 : matProd u wu (ix2 p k) = ∑ a : Fin A, U (ix2 P a) * W1 (ix2 (Fin.castAdd B a) k) := by
    unfold matProd
    exact Finset.sum_congr rfl fun a _ => congrArg₂ (· * ·) (hu a) (hwu a k)
  have e2 : matProd g wg (ix2 p k) = ∑ a : Fin B, G (ix2 P a) * W1 (ix2 (Fin.natAdd A a) k) := by
    unfold matProd
    exact Finset.sum_congr rfl fun a _ => congrArg₂ (· * ·) (hg a) (hwg a k)
  rw [e1, e2, hc1 k]

/-! ## The decoder kernel's block against the reference's decoder column -/

variable [Cert.KernelIdeal.Facts] [Cert.ReferenceIdeal.Facts]

/-- Entry j of a block's decoder payload is entry i of the reference's decoder column, as soon as the block's rows are
    the arrays' rows, the two weight blocks are the upper and lower halves of W1, and the bias rows are the bias vectors. -/
theorem decoder_payload
    (u g : FVec Ideal Cert.KernelIdeal.S4000x128 .f32) (wu wg : FVec Ideal Cert.KernelIdeal.S128x128 .f32)
    (c1 : FVec Ideal Cert.KernelIdeal.S1x128 .f32) (w2 : FVec Ideal Cert.KernelIdeal.S128x1 .f32) (c2 : FVec Ideal Cert.KernelIdeal.S1x1 .f32)
    (U G : Cert.Spec.FA Cert.ReferenceIdeal.S400000x128) (W1 : Cert.Spec.FA Cert.ReferenceIdeal.S256x128)
    (b1 : Cert.Spec.FA Cert.ReferenceIdeal.S128) (b2 : Cert.Spec.FA Cert.ReferenceIdeal.S1)
    (j : Cert.KernelIdeal.S4000x1.Idx) (i : Cert.ReferenceIdeal.S400000x1.Idx)
    (hu : ∀ k : Fin 128, u (ix2 (n0 := 4000) (n1 := 128) (j 0) k) = U (ix2 (n0 := 400000) (n1 := 128) (i 0) k))
    (hg : ∀ k : Fin 128, g (ix2 (n0 := 4000) (n1 := 128) (j 0) k) = G (ix2 (n0 := 400000) (n1 := 128) (i 0) k))
    (hwu : ∀ k q : Fin 128, wu (ix2 (n0 := 128) (n1 := 128) k q) = W1 (ix2 (n0 := 256) (n1 := 128) (Fin.castAdd 128 k) q))
    (hwg : ∀ k q : Fin 128, wg (ix2 (n0 := 128) (n1 := 128) k q) = W1 (ix2 (n0 := 256) (n1 := 128) (Fin.natAdd 128 k) q))
    (hc1 : ∀ q : Fin 128, c1 (ix2 (n0 := 1) (n1 := 128) 0 q) = b1 (ix1 q))
    (hc2 : c2 (ix2 (n0 := 1) (n1 := 1) 0 0) = b2 (ix1 0)) :
    Cert.KernelIdeal.Gen.k6_pay1 (F := Ideal) u g wu wg c1 w2 c2 j = Cert.Spec.decoderCol U G W1 b1 w2 b2 i := by
  obtain ⟨p, q, rfl⟩ : ∃ (p : Fin 4000) (q : Fin 1), j = ix2 p q := ⟨j 0, j 1, eq_ix2 j⟩
  obtain ⟨P, Q, rfl⟩ : ∃ (P : Fin 400000) (Q : Fin 1), i = ix2 P Q := ⟨i 0, i 1, eq_ix2 i⟩
  have hq : q = 0 := Subsingleton.elim _ _
  have hQ : Q = 0 := Subsingleton.elim _ _
  subst hq hQ
  exact decoder_block (r := 4000) (R := 400000) (A := 128) (B := 128) (N := 128) (M := 1)
    (d1 := Cert.KernelIdeal.dot_S4000x128_S128x128_S4000x128_1_0_0_1_n_n)
    (d2 := Cert.KernelIdeal.dot_S4000x128_S128x128_S4000x128_1_0_0_1_n_n)
    (d3 := Cert.KernelIdeal.dot_S4000x128_S128x1_S4000x1_1_0_0_1_n_n)
    (D1 := Cert.ReferenceIdeal.dot_S400000x256_S256x128_S400000x128_1_0_0_1_n_n)
    (D3 := Cert.ReferenceIdeal.dot_S400000x128_S128x1_S400000x1_1_0_0_1_n_n)
    (contracts_of_lists _ rfl rfl rfl rfl rfl rfl) (contracts_of_lists _ rfl rfl rfl rfl rfl rfl)
    (contracts_of_lists _ rfl rfl rfl rfl rfl rfl) (contracts_of_lists _ rfl rfl rfl rfl rfl rfl)
    (contracts_of_lists _ rfl rfl rfl rfl rfl rfl) .single .single
    u g wu wg c1 w2 c2 U G W1 b1 b2
    Cert.KernelIdeal.Facts₀.bitsLt_bf16_f32
    Cert.KernelIdeal.Facts₀.shapeCasts_S4000x128_S4000x128 Cert.KernelIdeal.Facts₀.shapeCasts_S4000x128_S4000x128
    Cert.KernelIdeal.Facts₀.shapeCasts_S128x128_S128x128 Cert.KernelIdeal.Facts₀.shapeCasts_S128x128_S128x128
    Cert.KernelIdeal.Facts₀.shapeCasts_S1x128_S1x128 Cert.KernelIdeal.Facts₀.broadcasts_S1x128_S4000x128
    Cert.KernelIdeal.Facts₀.shapeCasts_S1x1_S1x1 Cert.KernelIdeal.Facts₀.broadcasts_S1x1_S4000x1
    Cert.ReferenceIdeal.Facts₀.concatenates_S400000x128_S400000x128_S400000x256_d1
    Cert.ReferenceIdeal.Facts₀.bcast_S_S400000x128 Cert.ReferenceIdeal.Facts₀.bcast_S128_S1x128_1
    Cert.ReferenceIdeal.Facts₀.bcast_S1x128_S400000x128_0_1
    Cert.ReferenceIdeal.Facts₀.bcast_S1_S1x1_1 Cert.ReferenceIdeal.Facts₀.bcast_S1x1_S400000x1_0_1
    p P 0 hu hg hwu hwg hc1 hc2

end Cert.Decoder

end
-- ==== Proof.Region6.lean ====
/-
  Region 6: the decoder, as one array.

  The region's grid has 100 points; point t holds rows 4000·t … 4000·t + 3999 of the users' rows and of the games' rows,
  the two weight blocks, the bias row, the output column and the output bias whole, and writes back rows
  4000·t … 4000·t + 3999 of the result column.  What it writes back is that block of the reference's decoder column over
  all 400000 rows (entry by entry: the payload lemma), and the 100 blocks tile the column, so the result array after the
  region IS the reference's decoder column, applied to the arrays the region finds.
-/
import proofs.«145621_j51891794870357_1_alg».proof.Proof.DecoderBlock
import proofs.«145621_j51891794870357_1_alg».proof.Proof.Gen.KernelIdeal.Frame
import proofs.«145621_j51891794870357_1_alg».proof.Proof.Gen.ReferenceIdeal
import Idealize.ShloMosaic.Lib.Pipeline.Value

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output's row block, the weight blocks, the
    bias row, the output column and the output bias stay at the origin, and the output's column block is 0. -/
theorem index_maps : ∀ t : Fin cfg6.N,
    win6_0.index t (0 : Fin 2) = win6_7.index t (0 : Fin 2) ∧ win6_0.index t (1 : Fin 2) = 0
    ∧ win6_1.index t (0 : Fin 2) = win6_7.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (1 : Fin 2) = 0 :=
  (by decide +kernel : ∀ t : Fin grid6.N, _)

/-- Every row block is some grid point's. -/
theorem row_block_onto : ∀ q0 : Fin 100, ∃ t : Fin cfg6.N, win6_7.index t = ![q0.val, 0] :=
  (by decide +kernel : ∀ q0 : Fin 100, ∃ t : Fin grid6.N, win6_7.index t = ![q0.val, 0])

/-- The whole windows' blocks are their arrays. -/
theorem wu_block (c : Dev nD) (t : Fin cfg6.N) : iblk6 V c 2 t = V c main_v140 := by
  obtain ⟨-, -, -, -, e20, e21, -⟩ := index_maps t
  funext z
  show V c main_v140 (((cfg6.win 2).blk t).view.emb z) = V c main_v140 z
  refine congrArg (V c main_v140) (funext fun a => Fin.ext ?_)
  match a with
  | ⟨0, _⟩ => show win6_2.index t (0 : Fin 2) * 128 + 1 * (z 0).val = (z 0).val; omega
  | ⟨1, _⟩ => show win6_2.index t (1 : Fin 2) * 128 + 1 * (z 1).val = (z 1).val; omega

theorem wg_block (c : Dev nD) (t : Fin cfg6.N) : iblk6 V c 3 t = V c main_v141 := by
  obtain ⟨-, -, -, -, -, -, e30, e31, -⟩ := index_maps t
  funext z
  show V c main_v141 (((cfg6.win 3).blk t).view.emb z) = V c main_v141 z
  refine congrArg (V c main_v141) (funext fun a => Fin.ext ?_)
  match a with
  | ⟨0, _⟩ => show win6_3.index t (0 : Fin 2) * 128 + 1 * (z 0).val = (z 0).val; omega
  | ⟨1, _⟩ => show win6_3.index t (1 : Fin 2) * 128 + 1 * (z 1).val = (z 1).val; omega

theorem c1_block (c : Dev nD) (t : Fin cfg6.N) : iblk6 V c 4 t = V c main_v142 := by
  obtain ⟨-, -, -, -, -, -, -, -, e40, e41, -⟩ := index_maps t
  funext z
  show V c main_v142 (((cfg6.win 4).blk t).view.emb z) = V c main_v142 z
  refine congrArg (V c main_v142) (funext fun a => Fin.ext ?_)
  match a with
  | ⟨0, _⟩ => show win6_4.index t (0 : Fin 2) * 1 + 1 * (z 0).val = (z 0).val; omega
  | ⟨1, _⟩ => show win6_4.index t (1 : Fin 2) * 128 + 1 * (z 1).val = (z 1).val; omega

theorem w2_block (c : Dev nD) (t : Fin cfg6.N) : iblk6 V c 5 t = V c main_arg22 := by
  obtain ⟨-, -, -, -, -, -, -, -, -, -, e50, e51, -⟩ := index_maps t
  funext z
  show V c main_arg22 (((cfg6.win 5).blk t).view.emb z) = V c main_arg22 z
  refine congrArg (V c main_arg22) (funext fun a => Fin.ext ?_)
  match a with
  | ⟨0, _⟩ => show win6_5.index t (0 : Fin 2) * 128 + 1 * (z 0).val = (z 0).val; omega
  | ⟨1, _⟩ => show win6_5.index t (1 : Fin 2) * 1 + 1 * (z 1).val = (z 1).val; omega

theorem c2_block (c : Dev nD) (t : Fin cfg6.N) : iblk6 V c 6 t = V c main_v143 := by
  obtain ⟨-, -, -, -, -, -, -, -, -, -, -, -, e60, e61, -⟩ := index_maps t
  funext z
  show V c main_v143 (((cfg6.win 6).blk t).view.emb z) = V c main_v143 z
  refine congrArg (V c main_v143) (funext fun a => Fin.ext ?_)
  match a with
  | ⟨0, _⟩ => show win6_6.index t (0 : Fin 2) * 1 + 1 * (z 0).val = (z 0).val; omega
  | ⟨1, _⟩ => show win6_6.index t (1 : Fin 2) * 1 + 1 * (z 1).val = (z 1).val; omega

/-- What grid point t writes back is block t of the decoder column over all rows, of the arrays the region finds. -/
theorem flushed (c : Dev nD) (W1 : Spec.FA Cert.ReferenceIdeal.S256x128) (b1 : Spec.FA Cert.ReferenceIdeal.S128)
    (b2 : Spec.FA Cert.ReferenceIdeal.S1)
    (hwu : ∀ k q : Fin 128, V c main_v140 (ix2 (n0 := 128) (n1 := 128) k q) = W1 (ix2 (n0 := 256) (n1 := 128) (Fin.castAdd 128 k) q))
    (hwg : ∀ k q : Fin 128, V c main_v141 (ix2 (n0 := 128) (n1 := 128) k q) = W1 (ix2 (n0 := 256) (n1 := 128) (Fin.natAdd 128 k) q))
    (hb1 : ∀ q : Fin 128, V c main_v142 (ix2 (n0 := 1) (n1 := 128) (0 : Fin 1) q) = b1 (ix1 q))
    (hb2 : V c main_v143 (ix2 (n0 := 1) (n1 := 1) (0 : Fin 1) (0 : Fin 1)) = b2 (ix1 0)) (t : Fin cfg6.N) :
    (dat6 V c).flushed 7 t = ((cfg6.win 7).blk t).view.read (Elt Ideal)
      (Spec.decoderCol (V c main_v132) (V c main_v139) W1 b1 (V c main_arg22) b2) := by
  show (cfg6.win 7).cut (grid6.coords t) ((dat6 V c).after 7 t) = _
  rw [after6_7]
  unfold out6_7
  rw [View.canon_unit_zero origin]
  simp only [View.ld_unit_zero (S := S4000x128) origin, View.ld_unit_zero (S := S128x128) origin,
    View.ld_unit_zero (S := S1x128) origin, View.ld_unit_zero (S := S128x1) origin,
    View.ld_unit_zero (S := S1x1) origin]
  rw [wu_block V c t, wg_block V c t, c1_block V c t, w2_block V c t, c2_block V c t]
  obtain ⟨e00, e01, e10, e11, -, -, -, -, -, -, -, -, -, -, e71⟩ := index_maps t
  funext y
  refine Cert.Decoder.decoder_payload (iblk6 V c 0 t) (iblk6 V c 1 t) (V c main_v140) (V c main_v141) (V c main_v142)
    (V c main_arg22) (V c main_v143) (V c main_v132) (V c main_v139) W1 b1 b2 y (((cfg6.win 7).blk t).view.emb y)
    ?_ ?_ hwu hwg hb1 hb2
  · intro k
    show V c main_v132 (((cfg6.win 0).blk t).view.emb (ix2 (y 0) k)) = V c main_v132 (ix2 ((((cfg6.win 7).blk t).view.emb y) 0) k)
    refine congrArg (V c main_v132) (funext fun a => Fin.ext ?_)
    match a with
    | ⟨0, _⟩ => show win6_0.index t (0 : Fin 2) * 4000 + 1 * (y 0).val = win6_7.index t (0 : Fin 2) * 4000 + 1 * (y 0).val; omega
    | ⟨1, _⟩ => show win6_0.index t (1 : Fin 2) * 128 + 1 * k.val = k.val; omega
  · intro k
    show V c main_v139 (((cfg6.win 1).blk t).view.emb (ix2 (y 0) k)) = V c main_v139 (ix2 ((((cfg6.win 7).blk t).view.emb y) 0) k)
    refine congrArg (V c main_v139) (funext fun a => Fin.ext ?_)
    match a with
    | ⟨0, _⟩ => show win6_1.index t (0 : Fin 2) * 4000 + 1 * (y 0).val = win6_7.index t (0 : Fin 2) * 4000 + 1 * (y 0).val; omega
    | ⟨1, _⟩ => show win6_1.index t (1 : Fin 2) * 128 + 1 * k.val = k.val; omega

/-- An index of the result array is in point t's block iff each coordinate is in the block's range on its axis. -/
theorem mem_block (t : Fin cfg6.N) (i : S400000x1.Idx) :
    i ∈ ((cfg6.win 7).blk t).view.set ↔ ∀ a : Fin 2, win6_7.index t a * S4000x1.size a ≤ (i a).val ∧ (i a).val < win6_7.index t a * S4000x1.size a + S4000x1.size a := by
  show i ∈ ((View.whole main_v144).slice (win6_7.rect t)).set ↔ _
  rw [View.set_slice_whole, Rect.mem_set_unit]
  exact Iff.rfl

/-- The blocks tile the array: row r is in the block of the point whose row block is r / 4000. -/
theorem covered (i : S400000x1.Idx) : ∃ t : Fin cfg6.N, (cfg6.win 7).flush t = true ∧ i ∈ ((cfg6.win 7).blk t).view.set := by
  have hi0 : (i 0).val < 400000 := (i 0).isLt
  have hi1 : (i 1).val < 1 := (i 1).isLt
  obtain ⟨t, ht⟩ := row_block_onto ⟨(i 0).val / 4000, by omega⟩
  have q0 : win6_7.index t (0 : Fin 2) = (i 0).val / 4000 := congrFun ht 0
  have q1 : win6_7.index t (1 : Fin 2) = 0 := congrFun ht 1
  refine ⟨t, flush6_7 t, ?_⟩
  rw [mem_block]
  intro a
  match a with
  | ⟨0, _⟩ => show win6_7.index t (0 : Fin 2) * 4000 ≤ (i 0).val ∧ (i 0).val < win6_7.index t (0 : Fin 2) * 4000 + 4000; omega
  | ⟨1, _⟩ => show win6_7.index t (1 : Fin 2) * 1 ≤ (i 1).val ∧ (i 1).val < win6_7.index t (1 : Fin 2) * 1 + 1; omega

/-- THE RESULT ARRAY after the region: the decoder column over all rows, of the arrays the region finds. -/
theorem result (c : Dev nD) (W1 : Spec.FA Cert.ReferenceIdeal.S256x128) (b1 : Spec.FA Cert.ReferenceIdeal.S128)
    (b2 : Spec.FA Cert.ReferenceIdeal.S1)
    (hwu : ∀ k q : Fin 128, V c main_v140 (ix2 (n0 := 128) (n1 := 128) k q) = W1 (ix2 (n0 := 256) (n1 := 128) (Fin.castAdd 128 k) q))
    (hwg : ∀ k q : Fin 128, V c main_v141 (ix2 (n0 := 128) (n1 := 128) k q) = W1 (ix2 (n0 := 256) (n1 := 128) (Fin.natAdd 128 k) q))
    (hb1 : ∀ q : Fin 128, V c main_v142 (ix2 (n0 := 1) (n1 := 128) (0 : Fin 1) q) = b1 (ix1 q))
    (hb2 : V c main_v143 (ix2 (n0 := 1) (n1 := 1) (0 : Fin 1) (0 : Fin 1)) = b2 (ix1 0)) :
    (dat6 V c).arrAt 7 cfg6.N = Spec.decoderCol (V c main_v132) (V c main_v139) W1 b1 (V c main_arg22) b2 :=
  (dat6 V c).arrAt_eq_of_cover 7 _ (fun t _ => flushed V c W1 b1 b2 hwu hwg hb1 hb2 t) (covered)

end Cert.KernelIdeal.Region6

end
-- ==== Proof.Fold.lean ====
/-
  The kernel program's result, through its fold of buffer contents.

  At each boundary of the program the buffers a later stage reads hold a stage of the specification applied to the
  input arrays: a stretch of host operations turns the previous layer's rows into the neighbour mean (Stretches), a
  region turns the mean, the destination rows, the weights and the bias row into the layer's dense update over all
  rows (Region0 … Region5; the decoder in Region6), and everything else is carried unchanged to where it is read.
  Composing the seven stages gives the result buffer at the last boundary: the specification's score of the inputs.
-/
import proofs.«145621_j51891794870357_1_alg».proof.Proof.CarryArgs
import proofs.«145621_j51891794870357_1_alg».proof.Proof.Stretches
import proofs.«145621_j51891794870357_1_alg».proof.Proof.Region0
import proofs.«145621_j51891794870357_1_alg».proof.Proof.Region1
import proofs.«145621_j51891794870357_1_alg».proof.Proof.Region2
import proofs.«145621_j51891794870357_1_alg».proof.Proof.Region3
import proofs.«145621_j51891794870357_1_alg».proof.Proof.Region4
import proofs.«145621_j51891794870357_1_alg».proof.Proof.Region5
import proofs.«145621_j51891794870357_1_alg».proof.Proof.Region6
import proofs.«145621_j51891794870357_1_alg».proof.Proof.KInputs

set_option maxRecDepth 16384

noncomputable section

namespace Cert.KernelIdeal.Whole

open Cert.KernelIdeal Cert.KernelIdeal.Gen Cert.KernelIdeal.Carry
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- After region 0: its result array is `g1` of the inputs. -/
theorem g1_2 : W2 m ρ c (Proc.devRef .tc main_v20) = Spec.g1 (inputs m c) := by
  have hmean : V1 m ρ c main_v18 = Spec.meanUG64 ((inputs m c).xUser) (inputs m c).srcUG (inputs m c).dstUG :=
    Stretch.mean0 (W0 m ρ c)
  have hxd : V1 m ρ c main_arg1 = (inputs m c).xGame := (by host_keeps hostOps0 main_arg1 : W1 m ρ c (Proc.devRef .tc main_arg1) = W0 m ρ c (Proc.devRef .tc main_arg1))
  have hwl : V1 m ρ c main_arg2 = (inputs m c).w1ugL := (by host_keeps hostOps0 main_arg2 : W1 m ρ c (Proc.devRef .tc main_arg2) = W0 m ρ c (Proc.devRef .tc main_arg2))
  have hwr : V1 m ρ c main_arg4 = (inputs m c).w1ugR := (by host_keeps hostOps0 main_arg4 : W1 m ρ c (Proc.devRef .tc main_arg4) = W0 m ρ c (Proc.devRef .tc main_arg4))
  have hb : ∀ q : Fin 128, V1 m ρ c main_v19 (ix2 (n0 := 1) (n1 := 128) (0 : Fin 1) q) = (inputs m c).b1ug (ix1 q) :=
    fun q => Stretch.bias0 (W0 m ρ c) q
  refine (W2_arr m ρ c 5).trans ((Region0.result (V1 m ρ) c _ hb).trans ?_)
  rw [hmean, hxd, hwl, hwr]
  rfl

/-- After region 1: its result array is `u1` of the inputs. -/
theorem u1_4 : W4 m ρ c (Proc.devRef .tc main_v41) = Spec.u1 (inputs m c) := by
  have hmean : V3 m ρ c main_v39 = Spec.meanGU32 ((inputs m c).xGame) (inputs m c).srcGU (inputs m c).dstGU :=
    (Stretch.mean1 (W2 m ρ c)).trans (by rw [a1_2 m ρ c, a26_2 m ρ c, a27_2 m ρ c]; rfl)
  have hxd : V3 m ρ c main_arg0 = (inputs m c).xUser := (by host_keeps hostOps1 main_arg0 : W3 m ρ c (Proc.devRef .tc main_arg0) = W2 m ρ c (Proc.devRef .tc main_arg0)).trans (a0_2 m ρ c)
  have hwl : V3 m ρ c main_arg5 = (inputs m c).w1guL := (by host_keeps hostOps1 main_arg5 : W3 m ρ c (Proc.devRef .tc main_arg5) = W2 m ρ c (Proc.devRef .tc main_arg5)).trans (a5_2 m ρ c)
  have hwr : V3 m ρ c main_arg7 = (inputs m c).w1guR := (by host_keeps hostOps1 main_arg7 : W3 m ρ c (Proc.devRef .tc main_arg7) = W2 m ρ c (Proc.devRef .tc main_arg7)).trans (a7_2 m ρ c)
  have hb : ∀ q : Fin 128, V3 m ρ c main_v40 (ix2 (n0 := 1) (n1 := 128) (0 : Fin 1) q) = (inputs m c).b1gu (ix1 q) :=
    fun q => (Stretch.bias1 (W2 m ρ c) q).trans (congrFun (a6_2 m ρ c) (ix1 q))
  refine (W4_arr m ρ c 5).trans ((Region1.result (V3 m ρ) c _ hb).trans ?_)
  rw [hmean, hxd, hwl, hwr]
  rfl

theorem g1_4 : W4 m ρ c (Proc.devRef .tc main_v20) = Spec.g1 (inputs m c) :=
  (W4_of_ne m ρ c main_v20 (by decide)).trans ((by host_keeps hostOps1 main_v20 : W3 m ρ c (Proc.devRef .tc main_v20) = W2 m ρ c (Proc.devRef .tc main_v20)).trans (g1_2 m ρ c))

/-- After region 2: its result array is `g2` of the inputs. -/
theorem g2_6 : W6 m ρ c (Proc.devRef .tc main_v62) = Spec.g2 (inputs m c) := by
  have hmean : V5 m ρ c main_v60 = Spec.meanUG128 (Spec.u1 (inputs m c)) (inputs m c).srcUG (inputs m c).dstUG :=
    (Stretch.mean2 (W4 m ρ c)).trans (by rw [u1_4 m ρ c, a24_4 m ρ c, a25_4 m ρ c]; rfl)
  have hxd : V5 m ρ c main_v20 = Spec.g1 (inputs m c) := (by host_keeps hostOps2 main_v20 : W5 m ρ c (Proc.devRef .tc main_v20) = W4 m ρ c (Proc.devRef .tc main_v20)).trans (g1_4 m ρ c)
  have hwl : V5 m ρ c main_arg8 = (inputs m c).w2ugL := (by host_keeps hostOps2 main_arg8 : W5 m ρ c (Proc.devRef .tc main_arg8) = W4 m ρ c (Proc.devRef .tc main_arg8)).trans (a8_4 m ρ c)
  have hwr : V5 m ρ c main_arg10 = (inputs m c).w2ugR := (by host_keeps hostOps2 main_arg10 : W5 m ρ c (Proc.devRef .tc main_arg10) = W4 m ρ c (Proc.devRef .tc main_arg10)).trans (a10_4 m ρ c)
  have hb : ∀ q : Fin 128, V5 m ρ c main_v61 (ix2 (n0 := 1) (n1 := 128) (0 : Fin 1) q) = (inputs m c).b2ug (ix1 q) :=
    fun q => (Stretch.bias2 (W4 m ρ c) q).trans (congrFun (a9_4 m ρ c) (ix1 q))
  refine (W6_arr m ρ c 5).trans ((Region2.result (V5 m ρ) c _ hb).trans ?_)
  rw [hmean, hxd, hwl, hwr]
  rfl

theorem g1_6 : W6 m ρ c (Proc.devRef .tc main_v20) = Spec.g1 (inputs m c) :=
  ((W6_arr m ρ c 1).trans (((dat2 (V5 m ρ) c).arrAt_in 1 rfl _).trans (A_eq2 (V5 m ρ) c 1))).trans ((by host_keeps hostOps2 main_v20 : W5 m ρ c (Proc.devRef .tc main_v20) = W4 m ρ c (Proc.devRef .tc main_v20)).trans (g1_4 m ρ c))

theorem u1_6 : W6 m ρ c (Proc.devRef .tc main_v41) = Spec.u1 (inputs m c) :=
  (W6_of_ne m ρ c main_v41 (by decide)).trans ((by host_keeps hostOps2 main_v41 : W5 m ρ c (Proc.devRef .tc main_v41) = W4 m ρ c (Proc.devRef .tc main_v41)).trans (u1_4 m ρ c))

/-- After region 3: its result array is `u2` of the inputs. -/
theorem u2_8 : W8 m ρ c (Proc.devRef .tc main_v83) = Spec.u2 (inputs m c) := by
  have hmean : V7 m ρ c main_v81 = Spec.meanGU128 (Spec.g1 (inputs m c)) (inputs m c).srcGU (inputs m c).dstGU :=
    (Stretch.mean3 (W6 m ρ c)).trans (by rw [g1_6 m ρ c, a26_6 m ρ c, a27_6 m ρ c]; rfl)
  have hxd : V7 m ρ c main_v41 = Spec.u1 (inputs m c) := (by host_keeps hostOps3 main_v41 : W7 m ρ c (Proc.devRef .tc main_v41) = W6 m ρ c (Proc.devRef .tc main_v41)).trans (u1_6 m ρ c)
  have hwl : V7 m ρ c main_arg11 = (inputs m c).w2guL := (by host_keeps hostOps3 main_arg11 : W7 m ρ c (Proc.devRef .tc main_arg11) = W6 m ρ c (Proc.devRef .tc main_arg11)).trans (a11_6 m ρ c)
  have hwr : V7 m ρ c main_arg13 = (inputs m c).w2guR := (by host_keeps hostOps3 main_arg13 : W7 m ρ c (Proc.devRef .tc main_arg13) = W6 m ρ c (Proc.devRef .tc main_arg13)).trans (a13_6 m ρ c)
  have hb : ∀ q : Fin 128, V7 m ρ c main_v82 (ix2 (n0 := 1) (n1 := 128) (0 : Fin 1) q) = (inputs m c).b2gu (ix1 q) :=
    fun q => (Stretch.bias3 (W6 m ρ c) q).trans (congrFun (a12_6 m ρ c) (ix1 q))
  refine (W8_arr m ρ c 5).trans ((Region3.result (V7 m ρ) c _ hb).trans ?_)
  rw [hmean, hxd, hwl, hwr]
  rfl

theorem g2_8 : W8 m ρ c (Proc.devRef .tc main_v62) = Spec.g2 (inputs m c) :=
  (W8_of_ne m ρ c main_v62 (by decide)).trans ((by host_keeps hostOps3 main_v62 : W7 m ρ c (Proc.devRef .tc main_v62) = W6 m ρ c (Proc.devRef .tc main_v62)).trans (g2_6 m ρ c))

/-- After region 4: its result array is `g3` of the inputs. -/
theorem g3_10 : W10 m ρ c (Proc.devRef .tc main_v104) = Spec.g3 (inputs m c) := by
  have hmean : V9 m ρ c main_v102 = Spec.meanUG128 (Spec.u2 (inputs m c)) (inputs m c).srcUG (inputs m c).dstUG :=
    (Stretch.mean4 (W8 m ρ c)).trans (by rw [u2_8 m ρ c, a24_8 m ρ c, a25_8 m ρ c]; rfl)
  have hxd : V9 m ρ c main_v62 = Spec.g2 (inputs m c) := (by host_keeps hostOps4 main_v62 : W9 m ρ c (Proc.devRef .tc main_v62) = W8 m ρ c (Proc.devRef .tc main_v62)).trans (g2_8 m ρ c)
  have hwl : V9 m ρ c main_arg14 = (inputs m c).w3ugL := (by host_keeps hostOps4 main_arg14 : W9 m ρ c (Proc.devRef .tc main_arg14) = W8 m ρ c (Proc.devRef .tc main_arg14)).trans (a14_8 m ρ c)
  have hwr : V9 m ρ c main_arg16 = (inputs m c).w3ugR := (by host_keeps hostOps4 main_arg16 : W9 m ρ c (Proc.devRef .tc main_arg16) = W8 m ρ c (Proc.devRef .tc main_arg16)).trans (a16_8 m ρ c)
  have hb : ∀ q : Fin 128, V9 m ρ c main_v103 (ix2 (n0 := 1) (n1 := 128) (0 : Fin 1) q) = (inputs m c).b3ug (ix1 q) :=
    fun q => (Stretch.bias4 (W8 m ρ c) q).trans (congrFun (a15_8 m ρ c) (ix1 q))
  refine (W10_arr m ρ c 5).trans ((Region4.result (V9 m ρ) c _ hb).trans ?_)
  rw [hmean, hxd, hwl, hwr]
  rfl

theorem g2_10 : W10 m ρ c (Proc.devRef .tc main_v62) = Spec.g2 (inputs m c) :=
  ((W10_arr m ρ c 1).trans (((dat4 (V9 m ρ) c).arrAt_in 1 rfl _).trans (A_eq4 (V9 m ρ) c 1))).trans ((by host_keeps hostOps4 main_v62 : W9 m ρ c (Proc.devRef .tc main_v62) = W8 m ρ c (Proc.devRef .tc main_v62)).trans (g2_8 m ρ c))

theorem u2_10 : W10 m ρ c (Proc.devRef .tc main_v83) = Spec.u2 (inputs m c) :=
  (W10_of_ne m ρ c main_v83 (by decide)).trans ((by host_keeps hostOps4 main_v83 : W9 m ρ c (Proc.devRef .tc main_v83) = W8 m ρ c (Proc.devRef .tc main_v83)).trans (u2_8 m ρ c))

/-- After region 5: its result array is `u3` of the inputs. -/
theorem u3_12 : W12 m ρ c (Proc.devRef .tc main_v125) = Spec.u3 (inputs m c) := by
  have hmean : V11 m ρ c main_v123 = Spec.meanGU128 (Spec.g2 (inputs m c)) (inputs m c).srcGU (inputs m c).dstGU :=
    (Stretch.mean5 (W10 m ρ c)).trans (by rw [g2_10 m ρ c, a26_10 m ρ c, a27_10 m ρ c]; rfl)
  have hxd : V11 m ρ c main_v83 = Spec.u2 (inputs m c) := (by host_keeps hostOps5 main_v83 : W11 m ρ c (Proc.devRef .tc main_v83) = W10 m ρ c (Proc.devRef .tc main_v83)).trans (u2_10 m ρ c)
  have hwl : V11 m ρ c main_arg17 = (inputs m c).w3guL := (by host_keeps hostOps5 main_arg17 : W11 m ρ c (Proc.devRef .tc main_arg17) = W10 m ρ c (Proc.devRef .tc main_arg17)).trans (a17_10 m ρ c)
  have hwr : V11 m ρ c main_arg19 = (inputs m c).w3guR := (by host_keeps hostOps5 main_arg19 : W11 m ρ c (Proc.devRef .tc main_arg19) = W10 m ρ c (Proc.devRef .tc main_arg19)).trans (a19_10 m ρ c)
  have hb : ∀ q : Fin 128, V11 m ρ c main_v124 (ix2 (n0 := 1) (n1 := 128) (0 : Fin 1) q) = (inputs m c).b3gu (ix1 q) :=
    fun q => (Stretch.bias5 (W10 m ρ c) q).trans (congrFun (a18_10 m ρ c) (ix1 q))
  refine (W12_arr m ρ c 5).trans ((Region5.result (V11 m ρ) c _ hb).trans ?_)
  rw [hmean, hxd, hwl, hwr]
  rfl

theorem g3_12 : W12 m ρ c (Proc.devRef .tc main_v104) = Spec.g3 (inputs m c) :=
  (W12_of_ne m ρ c main_v104 (by decide)).trans ((by host_keeps hostOps5 main_v104 : W11 m ρ c (Proc.devRef .tc main_v104) = W10 m ρ c (Proc.devRef .tc main_v104)).trans (g3_10 m ρ c))

/-- After the decoder's region: the score column of the inputs. -/
theorem scoreCol_14 : W14 m ρ c (Proc.devRef .tc main_v144) = Spec.scoreCol (inputs m c) := by
  have hu : V13 m ρ c main_v132 = Spec.rowsU (Spec.u3 (inputs m c)) (inputs m c).labRow :=
    (Stretch.rowsU6 (W12 m ρ c)).trans (by rw [u3_12 m ρ c, a28_12 m ρ c]; rfl)
  have hg : V13 m ρ c main_v139 = Spec.rowsG (Spec.g3 (inputs m c)) (inputs m c).labCol :=
    (Stretch.rowsG6 (W12 m ρ c)).trans (by rw [g3_12 m ρ c, a29_12 m ρ c]; rfl)
  have hw2 : V13 m ρ c main_arg22 = (inputs m c).decW2 := (by host_keeps hostOps6 main_arg22 : W13 m ρ c (Proc.devRef .tc main_arg22) = W12 m ρ c (Proc.devRef .tc main_arg22)).trans (a22_12 m ρ c)
  have hwu : ∀ k q : Fin 128, V13 m ρ c main_v140 (ix2 (n0 := 128) (n1 := 128) k q) = (inputs m c).decW1 (ix2 (n0 := 256) (n1 := 128) (Fin.castAdd 128 k) q) :=
    fun k q => (Stretch.upper6 (W12 m ρ c) k q).trans (congrFun (a20_12 m ρ c) _)
  have hwg : ∀ k q : Fin 128, V13 m ρ c main_v141 (ix2 (n0 := 128) (n1 := 128) k q) = (inputs m c).decW1 (ix2 (n0 := 256) (n1 := 128) (Fin.natAdd 128 k) q) :=
    fun k q => (Stretch.lower6 (W12 m ρ c) k q).trans (congrFun (a20_12 m ρ c) _)
  have hb1 : ∀ q : Fin 128, V13 m ρ c main_v142 (ix2 (n0 := 1) (n1 := 128) (0 : Fin 1) q) = (inputs m c).decB1 (ix1 q) :=
    fun q => (Stretch.bias6 (W12 m ρ c) q).trans (congrFun (a21_12 m ρ c) _)
  have hb2 : V13 m ρ c main_v143 (ix2 (n0 := 1) (n1 := 1) (0 : Fin 1) (0 : Fin 1)) = (inputs m c).decB2 (ix1 0) :=
    (Stretch.biasOut6 (W12 m ρ c)).trans (congrFun (a23_12 m ρ c) _)
  refine (W14_arr m ρ c 7).trans ((Region6.result (V13 m ρ) c _ _ _ hwu hwg hb1 hb2).trans ?_)
  rw [hu, hg, hw2]
  rfl

/-- THE RESULT BUFFER at the last boundary: the specification's score of the inputs. -/
theorem result_eq : W15 m ρ c (Proc.devRef .tc main_v145) = Spec.score (inputs m c) :=
  (Stretch.final7 (W14 m ρ c)).trans (by rw [scoreCol_14 m ρ c]; rfl)

end Cert.KernelIdeal.Whole

end
-- ==== Proof.lean ====
/-
  The certificate of a three-layer heterogeneous GraphSAGE network with an edge decoder.

  The network runs over 100000 user rows and 20000 game rows joined by 800000 edges in each direction. A layer takes,
  for each node type, the mean of the neighbours' rows of the other type (a gather along the edges, a segment sum, a
  division by the number of arriving edges floored at one), multiplies it by one weight matrix, adds a bias, and adds the
  node's own row times a second weight matrix; the first two layers end in a maximum with zero. The decoder reads, for
  each of 400000 labelled pairs, the user's and the game's final rows side by side, multiplies the joined row of 256
  entries by a weight matrix, adds a bias, takes the maximum with zero, multiplies by an output column and adds an output
  bias.

  The kernel program computes each layer's dense update and the decoder in kernels tiled over blocks of rows (2000 rows
  at each grid point, 4000 for the decoder), among host gathers and segment sums; the reference program computes
  everything with host operations. At the ideal values (floats are extended reals, operations exact, format changes the
  identity) both end with the same function of the thirty argument arrays, the specification's score: the gathers,
  segment sums and divisions are the same operations on both sides; each layer's dense update differs only in the order
  in which three extended reals are added; and the decoder differs only in that the kernel splits the sum over the 256
  joined columns into the sum over the first 128 plus the sum over the last 128. Both hold for all extended reals, so no
  entry needs to be finite and the precondition is never opened.

  The three frame claims are the programs' runs with the results forgotten; the kernel and its idealization are the
  same program text, so nothing is to be preserved beyond that.
-/
import proofs.«145621_j51891794870357_1_alg».proof.Defs
import proofs.«145621_j51891794870357_1_alg».proof.Proof.Gen.Kernel
import proofs.«145621_j51891794870357_1_alg».proof.Proof.Gen.Kernel.Skeleton
import proofs.«145621_j51891794870357_1_alg».proof.Proof.Gen.Kernel.Launch
import proofs.«145621_j51891794870357_1_alg».proof.Proof.Gen.Kernel.Points
import proofs.«145621_j51891794870357_1_alg».proof.Proof.Gen.Kernel.Frame
import proofs.«145621_j51891794870357_1_alg».proof.Proof.Gen.KernelIdeal
import proofs.«145621_j51891794870357_1_alg».proof.Proof.Gen.KernelIdeal.Skeleton
import proofs.«145621_j51891794870357_1_alg».proof.Proof.Gen.KernelIdeal.Launch
import proofs.«145621_j51891794870357_1_alg».proof.Proof.Gen.KernelIdeal.Points
import proofs.«145621_j51891794870357_1_alg».proof.Proof.Gen.KernelIdeal.Frame
import proofs.«145621_j51891794870357_1_alg».proof.Proof.Gen.ReferenceIdeal
import proofs.«145621_j51891794870357_1_alg».proof.Proof.Gen.Pre_finite_inputs
import proofs.«145621_j51891794870357_1_alg».proof.Proof.ValueRun
import proofs.«145621_j51891794870357_1_alg».proof.Proof.KInputs
import proofs.«145621_j51891794870357_1_alg».proof.Proof.RefValue
import proofs.«145621_j51891794870357_1_alg».proof.Proof.Agree
import proofs.«145621_j51891794870357_1_alg».proof.Proof.Fold
import Idealize.ShloMosaic.Adequacy
import Idealize.ShloMosaic.Init

noncomputable section

namespace Cert.Proof

open Idealize.ShloMosaic Idealize.SL.Sem

/-- The kernel program as printed runs and leaves its arguments as launched. -/
theorem frame_p : Cert.frame_Kernel := fun m ρ _ => Cert.Kernel.Gen.frame m ρ

/-- So does the kernel program at the ideal values. -/
theorem frame_pi : Cert.frame_KernelIdeal := fun m ρ _ => Cert.KernelIdeal.Gen.frame m ρ

/-- And the reference program: its run with the result forgotten. -/
theorem frame_ri : Cert.frame_ReferenceIdeal := fun m ρ _ =>
  (θ_run Cert.ReferenceIdeal.defs _ _).mono (fun _ h c => (h c).2) (Cert.ReferenceIdeal.Whole.run_score m ρ)

/-- The idealization rewrote no operation. -/
theorem preserves : Cert.preserves_Kernel_KernelIdeal := trivial

/-- At the ideal values both programs end with the specification's score of the thirty argument arrays: the kernel's
    result buffer at the score of its own arguments, the reference's at the score of its own, and the arguments agree. -/
theorem algebraic : Cert.algebraic_KernelIdeal_ReferenceIdeal := by
  intro m ρ m' ρ' _ hagree
  refine ⟨fun c => Cert.Spec.score (Cert.KernelIdeal.Whole.inputs m c), ?_, ?_⟩
  · exact (θ_run Cert.KernelIdeal.defs _ _).mono
      (fun _ h c => ⟨(h c).1.trans (Cert.KernelIdeal.Whole.result_eq m ρ c), (h c).2⟩)
      (Cert.KernelIdeal.Whole.run_result (F := Ideal) m ρ)
  · exact (θ_run Cert.ReferenceIdeal.defs _ _).mono
      (fun _ h c => ⟨(h c).1.trans (congrArg Cert.Spec.score (inputs_agree m m' c (hagree c))), (h c).2⟩)
      (Cert.ReferenceIdeal.Whole.run_score m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
